-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x256x256x2 : Shape := ⟨5, ![8, 64, 256, 256, 2]⟩
abbrev S64 : Shape := ⟨1, ![64]⟩
abbrev S_ : Shape := ⟨0, ![]⟩
abbrev S8x64x256x256x1 : Shape := ⟨5, ![8, 64, 256, 256, 1]⟩
abbrev S8x64x256x256 : Shape := ⟨4, ![8, 64, 256, 256]⟩
abbrev S1x64x1x1 : Shape := ⟨4, ![1, 64, 1, 1]⟩

class Facts : Prop where
  bcast_S_S8x64x256x256x2 : S_.BroadcastsInDim S8x64x256x256x2 (![] : Fin 0 → Fin S8x64x256x256x2.rank)
  reducesTo_S8x64x256x256x2_S_d0_1_2_3_4 : S8x64x256x256x2.ReducesTo [0, 1, 2, 3, 4] S_
  h_S_ : 0 < S_.numel
  bcast_S_S64 : S_.BroadcastsInDim S64 (![] : Fin 0 → Fin S64.rank)
  reducesTo_S64_S_d0 : S64.ReducesTo [0] S_
  slices_S8x64x256x256x2_S8x64x256x256x1_0_0_0_0_0 : S8x64x256x256x2.Slices ![0, 0, 0, 0, 0] S8x64x256x256x1
  shapeCasts_S8x64x256x256x1_S8x64x256x256 : S8x64x256x256x1.ShapeCasts S8x64x256x256
  slices_S8x64x256x256x2_S8x64x256x256x1_0_0_0_0_1 : S8x64x256x256x2.Slices ![0, 0, 0, 0, 1] S8x64x256x256x1
  reducesTo_S8x64x256x256_S64_d0_2_3 : S8x64x256x256.ReducesTo [0, 2, 3] S64
  bcast_S64_S1x64x1x1_1 : S64.BroadcastsInDim S1x64x1x1 (![1] : Fin 1 → Fin S1x64x1x1.rank)
  bcast_S_S1x64x1x1 : S_.BroadcastsInDim S1x64x1x1 (![] : Fin 0 → Fin S1x64x1x1.rank)
  bcast_S1x64x1x1_S8x64x256x256_0_1_2_3 : S1x64x1x1.BroadcastsInDim S8x64x256x256 (![0, 1, 2, 3] : Fin 4 → Fin S8x64x256x256.rank)

variable [Facts]

def fn_part4 {F : FTy → Type} [FloatOps F] (main_v28 : IVec S_ 1) (main_v68 : IVec S_ 1) : IVec S_ 1 :=
  let main_v69 : IVec S_ 1 := andi main_v28 main_v68
  main_v69

def fn_part3 {F : FTy → Type} [FloatOps F] (main_v28 : IVec S_ 1) (main_v44 : FVec F S8x64x256x256 .f32) (main_v50 : FVec F S64 .f32) (main_v51 : FVec F S8x64x256x256 .f32) (main_cst_17 : FVec F S_ .f32) : IVec S_ 1 :=
  let main_v52 : FVec F S64 .f32 := (fun x v => Host.reduceAdd x v reducesTo_S8x64x256x256_S64_d0_2_3 h_S_) main_v51 main_cst_17
  let main_cst_18 : FVec F S_ .f32 := constant S_ .f32 0x49000000#32
  let main_v53 : FVec F S64 .f32 := broadcastInDim S64 ![] bcast_S_S64 main_cst_18
  let main_v54 : FVec F S64 .f32 := Host.divf main_v52 main_v53
  let main_cst_19 : FVec F S_ .f32 := constant S_ .f32 0x3727C5AC#32
  let main_v55 : FVec F S64 .f32 := broadcastInDim S64 ![] bcast_S_S64 main_cst_19
  let main_v56 : FVec F S64 .f32 := addf main_v54 main_v55
  let main_v57 : FVec F S8x64x256x256 .f32 := mulf main_v44 main_v44
  let main_cst_20 : FVec F S_ .f32 := constant S_ .f32 0x00000000#32
  let main_v58 : FVec F S64 .f32 := (fun x v => Host.reduceAdd x v reducesTo_S8x64x256x256_S64_d0_2_3 h_S_) main_v57 main_cst_20
  let main_cst_21 : FVec F S_ .f32 := constant S_ .f32 0x49000000#32
  let main_v59 : FVec F S64 .f32 := broadcastInDim S64 ![] bcast_S_S64 main_cst_21
  let main_v60 : FVec F S64 .f32 := Host.divf main_v58 main_v59
  let main_cst_22 : FVec F S_ .f32 := constant S_ .f32 0x3727C5AC#32
  let main_v61 : FVec F S64 .f32 := broadcastInDim S64 ![] bcast_S_S64 main_cst_22
  let main_v62 : FVec F S64 .f32 := addf main_v60 main_v61
  let main_v63 : FVec F S64 .f32 := mulf main_v50 main_v62
  let main_v64 : FVec F S64 .f32 := mulf main_v56 main_v56
  let main_v65 : FVec F S64 .f32 := subf main_v63 main_v64
  let main_cst_23 : FVec F S_ .f32 := constant S_ .f32 0x00000000#32
  let main_v66 : FVec F S64 .f32 := broadcastInDim S64 ![] bcast_S_S64 main_cst_23
  let main_v67 : IVec S64 1 := cmpf .ogt main_v65 main_v66
  let main_c_24 : IVec S_ 1 := constantI S_ 1 1#1
  let main_v68 : IVec S_ 1 := (fun x v => Host.reduce IntOp.andi x v reducesTo_S64_S_d0 h_S_) main_v67 main_c_24
  fn_part4 (F := F) main_v28 main_v68

def fn_part2 {F : FTy → Type} [FloatOps F] (main_v28 : IVec S_ 1) (main_v30 : FVec F S8x64x256x256 .f32) (main_v32 : FVec F S8x64x256x256 .f32) (main_v34 : FVec F S1x64x1x1 .f32) : IVec S_ 1 :=
  let main_cst_11 : FVec F S_ .f32 := constant S_ .f32 0x49000000#32
  let main_v35 : FVec F S1x64x1x1 .f32 := broadcastInDim S1x64x1x1 ![] bcast_S_S1x64x1x1 main_cst_11
  let main_v36 : FVec F S1x64x1x1 .f32 := Host.divf main_v34 main_v35
  let main_cst_12 : FVec F S_ .f32 := constant S_ .f32 0x00000000#32
  let main_v37 : FVec F S64 .f32 := (fun x v => Host.reduceAdd x v reducesTo_S8x64x256x256_S64_d0_2_3 h_S_) main_v32 main_cst_12
  let main_v38 : FVec F S1x64x1x1 .f32 := broadcastInDim S1x64x1x1 ![1] bcast_S64_S1x64x1x1_1 main_v37
  let main_cst_13 : FVec F S_ .f32 := constant S_ .f32 0x49000000#32
  let main_v39 : FVec F S1x64x1x1 .f32 := broadcastInDim S1x64x1x1 ![] bcast_S_S1x64x1x1 main_cst_13
  let main_v40 : FVec F S1x64x1x1 .f32 := Host.divf main_v38 main_v39
  let main_v41 : FVec F S8x64x256x256 .f32 := broadcastInDim S8x64x256x256 ![0, 1, 2, 3] bcast_S1x64x1x1_S8x64x256x256_0_1_2_3 main_v36
  let main_v42 : FVec F S8x64x256x256 .f32 := subf main_v30 main_v41
  let main_v43 : FVec F S8x64x256x256 .f32 := broadcastInDim S8x64x256x256 ![0, 1, 2, 3] bcast_S1x64x1x1_S8x64x256x256_0_1_2_3 main_v40
  let main_v44 : FVec F S8x64x256x256 .f32 := subf main_v32 main_v43
  let main_v45 : FVec F S8x64x256x256 .f32 := mulf main_v42 main_v42
  let main_cst_14 : FVec F S_ .f32 := constant S_ .f32 0x00000000#32
  let main_v46 : FVec F S64 .f32 := (fun x v => Host.reduceAdd x v reducesTo_S8x64x256x256_S64_d0_2_3 h_S_) main_v45 main_cst_14
  let main_cst_15 : FVec F S_ .f32 := constant S_ .f32 0x49000000#32
  let main_v47 : FVec F S64 .f32 := broadcastInDim S64 ![] bcast_S_S64 main_cst_15
  let main_v48 : FVec F S64 .f32 := Host.divf main_v46 main_v47
  let main_cst_16 : FVec F S_ .f32 := constant S_ .f32 0x3727C5AC#32
  let main_v49 : FVec F S64 .f32 := broadcastInDim S64 ![] bcast_S_S64 main_cst_16
  let main_v50 : FVec F S64 .f32 := addf main_v48 main_v49
  let main_v51 : FVec F S8x64x256x256 .f32 := mulf main_v42 main_v44
  let main_cst_17 : FVec F S_ .f32 := constant S_ .f32 0x00000000#32
  fn_part3 (F := F) main_v28 main_v44 main_v50 main_v51 main_cst_17

def fn_part1 {F : FTy → Type} [FloatOps F] (main_arg0 : FVec F S8x64x256x256x2 .f32) (main_arg4 : FVec F S64 .f32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S8x64x256x256x1 .f32 := (extractStridedSlice S8x64x256x256x1 ![0, 0, 0, 0, 0] · slices_S8x64x256x256x2_S8x64x256x256x1_0_0_0_0_0) main_arg0
  let main_v30 : FVec F S8x64x256x256 .f32 := shapeCast S8x64x256x256 main_v29 shapeCasts_S8x64x256x256x1_S8x64x256x256
  let main_v31 : FVec F S8x64x256x256x1 .f32 := (extractStridedSlice S8x64x256x256x1 ![0, 0, 0, 0, 1] · slices_S8x64x256x256x2_S8x64x256x256x1_0_0_0_0_1) main_arg0
  let main_v32 : FVec F S8x64x256x256 .f32 := shapeCast S8x64x256x256 main_v31 shapeCasts_S8x64x256x256x1_S8x64x256x256
  let main_cst_10 : FVec F S_ .f32 := constant S_ .f32 0x00000000#32
  let main_v33 : FVec F S64 .f32 := (fun x v => Host.reduceAdd x v reducesTo_S8x64x256x256_S64_d0_2_3 h_S_) main_v30 main_cst_10
  let main_v34 : FVec F S1x64x1x1 .f32 := broadcastInDim S1x64x1x1 ![1] bcast_S64_S1x64x1x1_1 main_v33
  fn_part2 (F := F) main_v28 main_v30 main_v32 main_v34

def fn {F : FTy → Type} [FloatOps F] (main_arg0 : FVec F S8x64x256x256x2 .f32) (main_arg1 : FVec F S64 .f32) (main_arg2 : FVec F S64 .f32) (main_arg3 : FVec F S64 .f32) (main_arg4 : FVec F S64 .f32) (main_arg5 : FVec F S64 .f32) : IVec S_ 1 :=
  let main_v0 : FVec F S8x64x256x256x2 .f32 := Host.absf main_arg0
  let main_cst : FVec F S_ .f32 := constant S_ .f32 0x7F800000#32
  let main_v1 : FVec F S8x64x256x256x2 .f32 := broadcastInDim S8x64x256x256x2 ![] bcast_S_S8x64x256x256x2 main_cst
  let main_v2 : IVec S8x64x256x256x2 1 := cmpf .olt main_v0 main_v1
  let main_c : IVec S_ 1 := constantI S_ 1 1#1
  let main_v3 : IVec S_ 1 := (fun x v => Host.reduce IntOp.andi x v reducesTo_S8x64x256x256x2_S_d0_1_2_3_4 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg0 main_arg4 main_arg5 main_v13 main_v16
-- ==== Kernel.lean ====
abbrev S8x64x256x256x2 : Shape := ⟨5, ![8, 64, 256, 256, 2]⟩
abbrev S64 : Shape := ⟨1, ![64]⟩
abbrev S1x64 : Shape := ⟨2, ![1, 64]⟩
abbrev S1x64x32x256x2 : Shape := ⟨5, ![1, 64, 32, 256, 2]⟩
abbrev S1x64x32x256x1 : Shape := ⟨5, ![1, 64, 32, 256, 1]⟩
abbrev S64x32x256 : Shape := ⟨3, ![64, 32, 256]⟩
abbrev S64x32 : Shape := ⟨2, ![64, 32]⟩
abbrev S_ : Shape := ⟨0, ![]⟩
abbrev S64x1x1 : Shape := ⟨3, ![64, 1, 1]⟩
abbrev S64x32x256x1 : Shape := ⟨4, ![64, 32, 256, 1]⟩
abbrev S64x32x256x2 : Shape := ⟨4, ![64, 32, 256, 2]⟩

abbrev nBuf : Space → Nat
  | .hbm => 84
  | .vmem => 17
  | .smem => 0
  | _ => 0

abbrev bufTy : (tb : Table) → Fin (tcTables nBuf tb) → BufTy
  | .hbm, ⟨0, _⟩ => ⟨S8x64x256x256x2, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S64, .f32⟩
  | .hbm, ⟨34, _⟩ => ⟨S64, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S_, .f32⟩
  | .hbm, ⟨39, _⟩ => ⟨S64, .f32⟩
  | .hbm, ⟨40, _⟩ => ⟨S64, .f32⟩
  | .hbm, ⟨41, _⟩ => ⟨S64, .f32⟩
  | .hbm, ⟨42, _⟩ => ⟨S64, .f32⟩
  | .hbm, ⟨43, _⟩ => ⟨S_, .f32⟩
  | .hbm, ⟨44, _⟩ => ⟨S64, .f32⟩
  | .hbm, ⟨45, _⟩ => ⟨S64, .f32⟩
  | .hbm, ⟨46, _⟩ => ⟨S64, .f32⟩
  | .hbm, ⟨47, _⟩ => ⟨S64, .f32⟩
  | .hbm, ⟨48, _⟩ => ⟨S64, .f32⟩
  | .hbm, ⟨49, _⟩ => ⟨S64, .f32⟩
  | .hbm, ⟨50, _⟩ => ⟨S64, .f32⟩
  | .hbm, ⟨51, _⟩ => ⟨S_, .f32⟩
  | .hbm, ⟨52, _⟩ => ⟨S64, .f32⟩
  | .hbm, ⟨53, _⟩ => ⟨S64, .f32⟩
  | .hbm, ⟨54, _⟩ => ⟨S64, .f32⟩
  | .hbm, ⟨55, _⟩ => ⟨S64, .f32⟩
  | .hbm, ⟨56, _⟩ => ⟨S64, .f32⟩
  | .hbm, ⟨57, _⟩ => ⟨S64, .f32⟩
  | .hbm, ⟨58, _⟩ => ⟨S64, .f32⟩
  | .hbm, ⟨59, _⟩ => ⟨S64, .f32⟩
  | .hbm, ⟨60, _⟩ => ⟨S64, .f32⟩
  | .hbm, ⟨61, _⟩ => ⟨S64, .f32⟩
  | .hbm, ⟨62, _⟩ => ⟨S64, .f32⟩
  | .hbm, ⟨63, _⟩ => ⟨S64, .f32⟩
  | .hbm, ⟨64, _⟩ => ⟨S64, .f32⟩
  | .hbm, ⟨65, _⟩ => ⟨S64, .f32⟩
  | .hbm, ⟨66, _⟩ => ⟨S64, .f32⟩
  | .hbm, ⟨67, _⟩ => ⟨S64, .f32⟩
  | .hbm, ⟨68, _⟩ => ⟨S64, .f32⟩
  | .hbm, ⟨69, _⟩ => ⟨S64, .f32⟩
  | .hbm, ⟨70, _⟩ => ⟨S64, .f32⟩
  | .hbm, ⟨71, _⟩ => ⟨S64, .f32⟩
  | .hbm, ⟨72, _⟩ => ⟨S64, .f32⟩
  | .hbm, ⟨73, _⟩ => ⟨S64, .f32⟩
  | .hbm, ⟨74, _⟩ => ⟨S64, .f32⟩
  | .hbm, ⟨75, _⟩ => ⟨S64, .f32⟩
  | .hbm, ⟨76, _⟩ => ⟨S64, .f32⟩
  | .hbm, ⟨77, _⟩ => ⟨S64, .f32⟩
  | .hbm, ⟨78, _⟩ => ⟨S64, .f32⟩
  | .hbm, ⟨79, _⟩ => ⟨S64, .f32⟩
  | .hbm, ⟨80, _⟩ => ⟨S64, .f32⟩
  | .hbm, ⟨81, _⟩ => ⟨S64, .f32⟩
  | .hbm, ⟨82, _⟩ => ⟨S64, .f32⟩
  | .hbm, ⟨83, _⟩ => ⟨S8x64x256x256x2, .f32⟩
  | .local _ .vmem, ⟨0, _⟩ => ⟨S1x64x32x256x2, .f32⟩
  | .local _ .vmem, ⟨1, _⟩ => ⟨S1x64x32x256x2, .f32⟩
  | .local _ .vmem, ⟨2, _⟩ => ⟨S1x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S1x64, .f32⟩
  | .local _ .vmem, ⟨7, _⟩ => ⟨S1x64x32x256x2, .f32⟩
  | .local _ .vmem, ⟨8, _⟩ => ⟨S1x64x32x256x2, .f32⟩
  | .local _ .vmem, ⟨9, _⟩ => ⟨S64, .f32⟩
  | .local _ .vmem, ⟨10, _⟩ => ⟨S64, .f32⟩
  | .local _ .vmem, ⟨11, _⟩ => ⟨S64, .f32⟩
  | .local _ .vmem, ⟨12, _⟩ => ⟨S64, .f32⟩
  | .local _ .vmem, ⟨13, _⟩ => ⟨S64, .f32⟩
  | .local _ .vmem, ⟨14, _⟩ => ⟨S64, .f32⟩
  | .local _ .vmem, ⟨15, _⟩ => ⟨S1x64x32x256x2, .f32⟩
  | .local _ .vmem, ⟨16, _⟩ => ⟨S1x64x32x256x2, .f32⟩
  | _, _ => ⟨S8x64x256x256x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16

abbrev nD : Nat := 1
abbrev τ : Topo := Topo.v7x

variable {F : FTy → Type} [FloatOps F]

abbrev grid0 : Pipeline.Grid := ⟨2, ![8, 8], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x64x32x256x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev grid1 : Pipeline.Grid := ⟨2, ![8, 8], ![false, false]⟩

def cc1_transform_0 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc1_transform_1 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_7 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage1_0 : Fin 2 → Memref sig .tc .vmem S1x64x32x256x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x64x32x256x2 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

class Facts₀ : Prop where
  inb_S1x64_S1x64_0_0 : ∀ a, (![0, 0] : Fin 2 → Nat) a + S1x64.size a ≤ S1x64.size a
  h_S1x64 : 0 < S1x64.numel
  inb_S1x64x32x256x2_S1x64x32x256x2_0_0_0_0_0 : ∀ a, (![0, 0, 0, 0, 0] : Fin 5 → Nat) a + S1x64x32x256x2.size a ≤ S1x64x32x256x2.size a
  h_S1x64x32x256x2 : 0 < S1x64x32x256x2.numel
  slices_S1x64x32x256x2_o0_0_0_0_0_S1x64x32x256x1 : S1x64x32x256x2.Slices ![0, 0, 0, 0, 0] S1x64x32x256x1
  shapeCasts_S1x64x32x256x1_S64x32x256 : S1x64x32x256x1.ShapeCasts S64x32x256
  slices_S1x64x32x256x2_o0_0_0_0_1_S1x64x32x256x1 : S1x64x32x256x2.Slices ![0, 0, 0, 0, 1] S1x64x32x256x1
  reduces_S64x32x256_S64x32 : S64x32x256.Reduces [2] S64x32
  reduces_S64x32_S64 : S64x32.Reduces [1] S64
  shapeCasts_S1x64_S1x64 : S1x64.ShapeCasts S1x64
  shapeCasts_S64_S1x64 : S64.ShapeCasts S1x64
  shapeCasts_S1x64_S64 : S1x64.ShapeCasts S64
  bcast_S_S64 : S_.BroadcastsInDim S64 (![] : Fin 0 → Fin S64.rank)
  inb_S64_S64_0 : ∀ a, (![0] : Fin 1 → Nat) a + S64.size a ≤ S64.size a
  h_S64 : 0 < S64.numel
  shapeCasts_S64_S64 : S64.ShapeCasts S64
  shapeCasts_S64_S64x1x1 : S64.ShapeCasts S64x1x1
  broadcasts_S64x1x1_S64x32x256 : S64x1x1.Broadcasts S64x32x256
  shapeCasts_S64x32x256_S64x32x256x1 : S64x32x256.ShapeCasts S64x32x256x1
  concatenates_S64x32x256x1_S64x32x256x1_S64x32x256x2_d3 : Shape.Concatenates [S64x32x256x1, S64x32x256x1] S64x32x256x2 3
  shapeCasts_S64x32x256x2_S1x64x32x256x2 : S64x32x256x2.ShapeCasts S1x64x32x256x2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x32x256x2.size a ≤ S8x64x256x256x2.size a
  hwx0_0 : ∀ i : grid0.Coords, EltTy.bits .f32 = 32 ∨ (Rect.block (s := S8x64x256x256x2) S1x64x32x256x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x32x256x2.size a ≤ S8x64x256x256x2.size a
  hwx1_0 : ∀ i : grid1.Coords, EltTy.bits .f32 = 32 ∨ (Rect.block (s := S8x64x256x256x2) S1x64x32x256x2.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x64x32x256x2.size a ≤ S8x64x256x256x2.size a
  hwx1_7 : ∀ i : grid1.Coords, EltTy.bits .f32 = 32 ∨ (Rect.block (s := S8x64x256x256x2) S1x64x32x256x2.size (cc1_transform_7 i) (hinb1_7 i)).WholeWords (EltTy.packing .f32)

variable [Facts₀]

abbrev win0_0 : Pipeline.Window sig grid0 :=
  Pipeline.Window.ofSpec (Memref.whole main_arg0) S1x64x32x256x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x64.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x64.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_2) S1x64.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_3) S1x64.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_4) S1x64.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S1x64x32x256x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v55) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v59) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v63) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v64) S1x64x32x256x2.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S8x64x256x256x2 : Shape := ⟨5, ![8, 64, 256, 256, 2]⟩
abbrev S64 : Shape := ⟨1, ![64]⟩
abbrev S8x64x256x256x1 : Shape := ⟨5, ![8, 64, 256, 256, 1]⟩
abbrev S8x64x256x256 : Shape := ⟨4, ![8, 64, 256, 256]⟩
abbrev S_ : Shape := ⟨0, ![]⟩
abbrev S1x64x1x1 : Shape := ⟨4, ![1, 64, 1, 1]⟩

abbrev nBuf : Space → Nat
  | .hbm => 107
  | .vmem => 0
  | .smem => 0
  | _ => 0

abbrev bufTy : (tb : Table) → Fin (tcTables nBuf tb) → BufTy
  | .hbm, ⟨0, _⟩ => ⟨S8x64x256x256x2, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S8x64x256x256x1, .f32⟩
  | .hbm, ⟨7, _⟩ => ⟨S8x64x256x256, .f32⟩
  | .hbm, ⟨8, _⟩ => ⟨S8x64x256x256x1, .f32⟩
  | .hbm, ⟨9, _⟩ => ⟨S8x64x256x256, .f32⟩
  | .hbm, ⟨10, _⟩ => ⟨S_, .f32⟩
  | .hbm, ⟨11, _⟩ => ⟨S64, .f32⟩
  | .hbm, ⟨12, _⟩ => ⟨S1x64x1x1, .f32⟩
  | .hbm, ⟨13, _⟩ => ⟨S_, .f32⟩
  | .hbm, ⟨14, _⟩ => ⟨S1x64x1x1, .f32⟩
  | .hbm, ⟨15, _⟩ => ⟨S1x64x1x1, .f32⟩
  | .hbm, ⟨16, _⟩ => ⟨S_, .f32⟩
  | .hbm, ⟨17, _⟩ => ⟨S64, .f32⟩
  | .hbm, ⟨18, _⟩ => ⟨S1x64x1x1, .f32⟩
  | .hbm, ⟨19, _⟩ => ⟨S_, .f32⟩
  | .hbm, ⟨20, _⟩ => ⟨S1x64x1x1, .f32⟩
  | .hbm, ⟨21, _⟩ => ⟨S1x64x1x1, .f32⟩
  | .hbm, ⟨22, _⟩ => ⟨S8x64x256x256, .f32⟩
  | .hbm, ⟨23, _⟩ => ⟨S8x64x256x256, .f32⟩
  | .hbm, ⟨24, _⟩ => ⟨S8x64x256x256, .f32⟩
  | .hbm, ⟨25, _⟩ => ⟨S8x64x256x256, .f32⟩
  | .hbm, ⟨26, _⟩ => ⟨S8x64x256x256, .f32⟩
  | .hbm, ⟨27, _⟩ => ⟨S_, .f32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S8x64x256x256, .f32⟩
  | .hbm, ⟨36, _⟩ => ⟨S_, .f32⟩
  | .hbm, ⟨37, _⟩ => ⟨S64, .f32⟩
  | .hbm, ⟨38, _⟩ => ⟨S_, .f32⟩
  | .hbm, ⟨39, _⟩ => ⟨S64, .f32⟩
  | .hbm, ⟨40, _⟩ => ⟨S64, .f32⟩
  | .hbm, ⟨41, _⟩ => ⟨S_, .f32⟩
  | .hbm, ⟨42, _⟩ => ⟨S64, .f32⟩
  | .hbm, ⟨43, _⟩ => ⟨S64, .f32⟩
  | .hbm, ⟨44, _⟩ => ⟨S8x64x256x256, .f32⟩
  | .hbm, ⟨45, _⟩ => ⟨S_, .f32⟩
  | .hbm, ⟨46, _⟩ => ⟨S64, .f32⟩
  | .hbm, ⟨47, _⟩ => ⟨S_, .f32⟩
  | .hbm, ⟨48, _⟩ => ⟨S64, .f32⟩
  | .hbm, ⟨49, _⟩ => ⟨S64, .f32⟩
  | .hbm, ⟨50, _⟩ => ⟨S_, .f32⟩
  | .hbm, ⟨51, _⟩ => ⟨S64, .f32⟩
  | .hbm, ⟨52, _⟩ => ⟨S64, .f32⟩
  | .hbm, ⟨53, _⟩ => ⟨S64, .f32⟩
  | .hbm, ⟨54, _⟩ => ⟨S64, .f32⟩
  | .hbm, ⟨55, _⟩ => ⟨S64, .f32⟩
  | .hbm, ⟨56, _⟩ => ⟨S64, .f32⟩
  | .hbm, ⟨57, _⟩ => ⟨S64, .f32⟩
  | .hbm, ⟨58, _⟩ => ⟨S_, .f32⟩
  | .hbm, ⟨59, _⟩ => ⟨S64, .f32⟩
  | .hbm, ⟨60, _⟩ => ⟨S64, .f32⟩
  | .hbm, ⟨61, _⟩ => ⟨S64, .f32⟩
  | .hbm, ⟨62, _⟩ => ⟨S64, .f32⟩
  | .hbm, ⟨63, _⟩ => ⟨S64, .f32⟩
  | .hbm, ⟨64, _⟩ => ⟨S64, .f32⟩
  | .hbm, ⟨65, _⟩ => ⟨S64, .f32⟩
  | .hbm, ⟨66, _⟩ => ⟨S64, .f32⟩
  | .hbm, ⟨67, _⟩ => ⟨S64, .f32⟩
  | .hbm, ⟨68, _⟩ => ⟨S64, .f32⟩
  | .hbm, ⟨69, _⟩ => ⟨S64, .f32⟩
  | .hbm, ⟨70, _⟩ => ⟨S1x64x1x1, .f32⟩
  | .hbm, ⟨71, _⟩ => ⟨S8x64x256x256, .f32⟩
  | .hbm, ⟨72, _⟩ => ⟨S8x64x256x256, .f32⟩
  | .hbm, ⟨73, _⟩ => ⟨S1x64x1x1, .f32⟩
  | .hbm, ⟨74, _⟩ => ⟨S8x64x256x256, .f32⟩
  | .hbm, ⟨75, _⟩ => ⟨S8x64x256x256, .f32⟩
  | .hbm, ⟨76, _⟩ => ⟨S8x64x256x256, .f32⟩
  | .hbm, ⟨77, _⟩ => ⟨S1x64x1x1, .f32⟩
  | .hbm, ⟨78, _⟩ => ⟨S8x64x256x256, .f32⟩
  | .hbm, ⟨79, _⟩ => ⟨S8x64x256x256, .f32⟩
  | .hbm, ⟨80, _⟩ => ⟨S1x64x1x1, .f32⟩
  | .hbm, ⟨81, _⟩ => ⟨S8x64x256x256, .f32⟩
  | .hbm, ⟨82, _⟩ => ⟨S8x64x256x256, .f32⟩
  | .hbm, ⟨83, _⟩ => ⟨S8x64x256x256, .f32⟩
  | .hbm, ⟨84, _⟩ => ⟨S1x64x1x1, .f32⟩
  | .hbm, ⟨85, _⟩ => ⟨S8x64x256x256, .f32⟩
  | .hbm, ⟨86, _⟩ => ⟨S8x64x256x256, .f32⟩
  | .hbm, ⟨87, _⟩ => ⟨S1x64x1x1, .f32⟩
  | .hbm, ⟨88, _⟩ => ⟨S8x64x256x256, .f32⟩
  | .hbm, ⟨89, _⟩ => ⟨S8x64x256x256, .f32⟩
  | .hbm, ⟨90, _⟩ => ⟨S8x64x256x256, .f32⟩
  | .hbm, ⟨91, _⟩ => ⟨S1x64x1x1, .f32⟩
  | .hbm, ⟨92, _⟩ => ⟨S8x64x256x256, .f32⟩
  | .hbm, ⟨93, _⟩ => ⟨S8x64x256x256, .f32⟩
  | .hbm, ⟨94, _⟩ => ⟨S1x64x1x1, .f32⟩
  | .hbm, ⟨95, _⟩ => ⟨S8x64x256x256, .f32⟩
  | .hbm, ⟨96, _⟩ => ⟨S8x64x256x256, .f32⟩
  | .hbm, ⟨97, _⟩ => ⟨S1x64x1x1, .f32⟩
  | .hbm, ⟨98, _⟩ => ⟨S8x64x256x256, .f32⟩
  | .hbm, ⟨99, _⟩ => ⟨S8x64x256x256, .f32⟩
  | .hbm, ⟨100, _⟩ => ⟨S8x64x256x256, .f32⟩
  | .hbm, ⟨101, _⟩ => ⟨S1x64x1x1, .f32⟩
  | .hbm, ⟨102, _⟩ => ⟨S8x64x256x256, .f32⟩
  | .hbm, ⟨103, _⟩ => ⟨S8x64x256x256, .f32⟩
  | .hbm, ⟨104, _⟩ => ⟨S8x64x256x256x1, .f32⟩
  | .hbm, ⟨105, _⟩ => ⟨S8x64x256x256x1, .f32⟩
  | .hbm, ⟨106, _⟩ => ⟨S8x64x256x256x2, .f32⟩
  | _, _ => ⟨S8x64x256x256x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_cst_7 : Ref sig .tc := ⟨.hbm, 38, rfl⟩
abbrev main_v24 : Ref sig .tc := ⟨.hbm, 39, rfl⟩
abbrev main_v25 : Ref sig .tc := ⟨.hbm, 40, rfl⟩
abbrev main_cst_8 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_9 : Ref sig .tc := ⟨.hbm, 45, rfl⟩
abbrev main_v29 : Ref sig .tc := ⟨.hbm, 46, rfl⟩
abbrev main_cst_10 : Ref sig .tc := ⟨.hbm, 47, rfl⟩
abbrev main_v30 : Ref sig .tc := ⟨.hbm, 48, rfl⟩
abbrev main_v31 : Ref sig .tc := ⟨.hbm, 49, rfl⟩
abbrev main_cst_11 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_12 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩

abbrev nD : Nat := 1
abbrev τ : Topo := Topo.v7x

variable {F : FTy → Type} [FloatOps F]

class Facts₀ : Prop where
  slices_S8x64x256x256x2_S8x64x256x256x1_0_0_0_0_0 : S8x64x256x256x2.Slices ![0, 0, 0, 0, 0] S8x64x256x256x1
  shapeCasts_S8x64x256x256x1_S8x64x256x256 : S8x64x256x256x1.ShapeCasts S8x64x256x256
  slices_S8x64x256x256x2_S8x64x256x256x1_0_0_0_0_1 : S8x64x256x256x2.Slices ![0, 0, 0, 0, 1] S8x64x256x256x1
  reducesTo_S8x64x256x256_S64_d0_2_3 : S8x64x256x256.ReducesTo [0, 2, 3] S64
  h_S_ : 0 < S_.numel
  bcast_S64_S1x64x1x1_1 : S64.BroadcastsInDim S1x64x1x1 (![1] : Fin 1 → Fin S1x64x1x1.rank)
  bcast_S_S1x64x1x1 : S_.BroadcastsInDim S1x64x1x1 (![] : Fin 0 → Fin S1x64x1x1.rank)
  bcast_S1x64x1x1_S8x64x256x256_0_1_2_3 : S1x64x1x1.BroadcastsInDim S8x64x256x256 (![0, 1, 2, 3] : Fin 4 → Fin S8x64x256x256.rank)
  bcast_S_S64 : S_.BroadcastsInDim S64 (![] : Fin 0 → Fin S64.rank)
  bcast_S8x64x256x256_S8x64x256x256x1_0_1_2_3 : S8x64x256x256.BroadcastsInDim S8x64x256x256x1 (![0, 1, 2, 3] : Fin 4 → Fin S8x64x256x256x1.rank)
  concatenates_S8x64x256x256x1_S8x64x256x256x1_S8x64x256x256x2_d4 : Shape.Concatenates [S8x64x256x256x1, S8x64x256x256x1] S8x64x256x256x2 4

variable [Facts₀]

class Facts : Prop extends Facts₀ where

variable [Facts]
-- ==== Proof.KernelRun.lean ====
/-
  The idealized kernel's run with its result named. The program is two pallas regions with a stretch of host
  operations between them; after the last region every unscoped buffer holds the contents of the last boundary of the
  fold (region 0's arrays as its pipeline leaves them, the host stretch applied, region 1's arrays as its pipeline
  leaves them). Read at the result buffer this is region 1's output array after its last grid point.
-/
import proofs.«180193_j36807869727213_1_alg».proof.Proof.Gen.KernelIdeal.Frame

set_option maxRecDepth 16384

noncomputable section

namespace Cbn.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last boundary's
    contents and the six argument arrays end as launched. -/
theorem run_value : θ_run defs (onTc (τ := τ) (main (F := F))) ⟨m, fun _ => 0, ρ⟩ (fun r => ∀ c : Dev nD,
      r.2.mem ((c.tc : Thread nD τ).loc main_v64) = W3 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v64 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

/-- The result buffer's last contents: region 1's output array after its last grid point. -/
theorem W3_result (c : Dev nD) :
    W3 m ρ c (Proc.devRef .tc main_v64) = (dat1 (V2 m ρ) c).arrAt 7 cfg1.N := W3_arr m ρ c 7

end Cbn.K

end
-- ==== Proof.Region0Pieces.lean ====
/-
  Region 0 (the moment kernel) at one grid point: what the body leaves in each of its five accumulator blocks.
  At the first point it stores a zero block, reads it back and adds the point's block sums; at every later point
  it adds the block sums to what the point before left. Each accumulator has one covering store per case.
-/
import proofs.«180193_j36807869727213_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cbn.R0
open Cert.KernelIdeal Cert.KernelIdeal.Gen
variable {F : FTy → Type} [FloatOps F]

theorem hz : (![0, 0] : Fin 2 → Nat) = fun _ => 0 := funext fun a => by fin_cases a <;> rfl
theorem hz5 : (![0, 0, 0, 0, 0] : Fin 5 → Nat) = fun _ => 0 := funext fun a => by fin_cases a <;> rfl

/-! ## A later point: the accumulator `xo` plus the block's sums -/

theorem out_B_1 (c : Dev nD) (i : grid0.Coords) (a2 : Memref sig .tc .vmem S1x64x32x256x2 .f32) (h2 : a2.IsWhole) (a3 : Memref sig .tc .vmem S1x64 .f32) (h3 : a3.IsWhole) (a4 : Memref sig .tc .vmem S1x64 .f32) (h4 : a4.IsWhole) (a5 : Memref sig .tc .vmem S1x64 .f32) (h5 : a5.IsWhole) (a6 : Memref sig .tc .vmem S1x64 .f32) (h6 : a6.IsWhole) (a7 : Memref sig .tc .vmem S1x64 .f32) (h7 : a7.IsWhole) (hc : ¬cond0_0 i) (x : Vec F S1x64x32x256x2 .f32) (xo1 xo2 xo3 xo4 xo5 : Vec F S1x64 .f32) :
    out0_B_1 c i a2 h2 a3 h3 a4 h4 a5 h5 a6 h6 a7 h7 hc x xo1 xo2 xo3 xo4 xo5 = k0_pay14 x xo1 := by
  unfold out0_B_1
  rw [View.read_writes_eq_canon _ _ _ (cover0_B_1 c i a2 h2 a3 h3 a4 h4 a5 h5 a6 h6 a7 h7 hc x xo1 xo2 xo3 xo4 xo5)]
  unfold kernelRun0_B
  dsimp only
  sl_unfold_words
  rw [View.canon_unit_zero hz]
  simp only [View.readAt_eq_ld, h2.read_unread, h3.read_unread, h4.read_unread, h5.read_unread, h6.read_unread, h7.read_unread,
    View.ld_unit_zero (S := S1x64) hz, View.ld_unit_zero (S := S1x64x32x256x2) hz5]

theorem out_B_2 (c : Dev nD) (i : grid0.Coords) (a2 : Memref sig .tc .vmem S1x64x32x256x2 .f32) (h2 : a2.IsWhole) (a3 : Memref sig .tc .vmem S1x64 .f32) (h3 : a3.IsWhole) (a4 : Memref sig .tc .vmem S1x64 .f32) (h4 : a4.IsWhole) (a5 : Memref sig .tc .vmem S1x64 .f32) (h5 : a5.IsWhole) (a6 : Memref sig .tc .vmem S1x64 .f32) (h6 : a6.IsWhole) (a7 : Memref sig .tc .vmem S1x64 .f32) (h7 : a7.IsWhole) (hc : ¬cond0_0 i) (x : Vec F S1x64x32x256x2 .f32) (xo1 xo2 xo3 xo4 xo5 : Vec F S1x64 .f32) :
    out0_B_2 c i a2 h2 a3 h3 a4 h4 a5 h5 a6 h6 a7 h7 hc x xo1 xo2 xo3 xo4 xo5 = k0_pay15 x xo2 := by
  unfold out0_B_2
  rw [View.read_writes_eq_canon _ _ _ (cover0_B_2 c i a2 h2 a3 h3 a4 h4 a5 h5 a6 h6 a7 h7 hc x xo1 xo2 xo3 xo4 xo5)]
  unfold kernelRun0_B
  dsimp only
  sl_unfold_words
  rw [View.canon_unit_zero hz]
  simp only [View.readAt_eq_ld, h2.read_unread, h3.read_unread, h4.read_unread, h5.read_unread, h6.read_unread, h7.read_unread,
    View.ld_unit_zero (S := S1x64) hz, View.ld_unit_zero (S := S1x64x32x256x2) hz5]

theorem out_B_3 (c : Dev nD) (i : grid0.Coords) (a2 : Memref sig .tc .vmem S1x64x32x256x2 .f32) (h2 : a2.IsWhole) (a3 : Memref sig .tc .vmem S1x64 .f32) (h3 : a3.IsWhole) (a4 : Memref sig .tc .vmem S1x64 .f32) (h4 : a4.IsWhole) (a5 : Memref sig .tc .vmem S1x64 .f32) (h5 : a5.IsWhole) (a6 : Memref sig .tc .vmem S1x64 .f32) (h6 : a6.IsWhole) (a7 : Memref sig .tc .vmem S1x64 .f32) (h7 : a7.IsWhole) (hc : ¬cond0_0 i) (x : Vec F S1x64x32x256x2 .f32) (xo1 xo2 xo3 xo4 xo5 : Vec F S1x64 .f32) :
    out0_B_3 c i a2 h2 a3 h3 a4 h4 a5 h5 a6 h6 a7 h7 hc x xo1 xo2 xo3 xo4 xo5 = k0_pay1 (k0_pay11 x) xo3 := by
  unfold out0_B_3
  rw [View.read_writes_eq_canon _ _ _ (cover0_B_3 c i a2 h2 a3 h3 a4 h4 a5 h5 a6 h6 a7 h7 hc x xo1 xo2 xo3 xo4 xo5)]
  unfold kernelRun0_B
  dsimp only
  sl_unfold_words
  rw [View.canon_unit_zero hz]
  simp only [View.readAt_eq_ld, h2.read_unread, h3.read_unread, h4.read_unread, h5.read_unread, h6.read_unread, h7.read_unread,
    View.ld_unit_zero (S := S1x64) hz, View.ld_unit_zero (S := S1x64x32x256x2) hz5]

theorem out_B_4 (c : Dev nD) (i : grid0.Coords) (a2 : Memref sig .tc .vmem S1x64x32x256x2 .f32) (h2 : a2.IsWhole) (a3 : Memref sig .tc .vmem S1x64 .f32) (h3 : a3.IsWhole) (a4 : Memref sig .tc .vmem S1x64 .f32) (h4 : a4.IsWhole) (a5 : Memref sig .tc .vmem S1x64 .f32) (h5 : a5.IsWhole) (a6 : Memref sig .tc .vmem S1x64 .f32) (h6 : a6.IsWhole) (a7 : Memref sig .tc .vmem S1x64 .f32) (h7 : a7.IsWhole) (hc : ¬cond0_0 i) (x : Vec F S1x64x32x256x2 .f32) (xo1 xo2 xo3 xo4 xo5 : Vec F S1x64 .f32) :
    out0_B_4 c i a2 h2 a3 h3 a4 h4 a5 h5 a6 h6 a7 h7 hc x xo1 xo2 xo3 xo4 xo5 = k0_pay2 (k0_pay12 x) xo4 := by
  unfold out0_B_4
  rw [View.read_writes_eq_canon _ _ _ (cover0_B_4 c i a2 h2 a3 h3 a4 h4 a5 h5 a6 h6 a7 h7 hc x xo1 xo2 xo3 xo4 xo5)]
  unfold kernelRun0_B
  dsimp only
  sl_unfold_words
  rw [View.canon_unit_zero hz]
  simp only [View.readAt_eq_ld, h2.read_unread, h3.read_unread, h4.read_unread, h5.read_unread, h6.read_unread, h7.read_unread,
    View.ld_unit_zero (S := S1x64) hz, View.ld_unit_zero (S := S1x64x32x256x2) hz5]

theorem out_B_5 (c : Dev nD) (i : grid0.Coords) (a2 : Memref sig .tc .vmem S1x64x32x256x2 .f32) (h2 : a2.IsWhole) (a3 : Memref sig .tc .vmem S1x64 .f32) (h3 : a3.IsWhole) (a4 : Memref sig .tc .vmem S1x64 .f32) (h4 : a4.IsWhole) (a5 : Memref sig .tc .vmem S1x64 .f32) (h5 : a5.IsWhole) (a6 : Memref sig .tc .vmem S1x64 .f32) (h6 : a6.IsWhole) (a7 : Memref sig .tc .vmem S1x64 .f32) (h7 : a7.IsWhole) (hc : ¬cond0_0 i) (x : Vec F S1x64x32x256x2 .f32) (xo1 xo2 xo3 xo4 xo5 : Vec F S1x64 .f32) :
    out0_B_5 c i a2 h2 a3 h3 a4 h4 a5 h5 a6 h6 a7 h7 hc x xo1 xo2 xo3 xo4 xo5 = k0_pay3 (k0_pay13 x) xo5 := by
  unfold out0_B_5
  rw [View.read_writes_eq_canon _ _ _ (cover0_B_5 c i a2 h2 a3 h3 a4 h4 a5 h5 a6 h6 a7 h7 hc x xo1 xo2 xo3 xo4 xo5)]
  unfold kernelRun0_B
  dsimp only
  sl_unfold_words
  rw [View.canon_unit_zero hz]
  simp only [View.readAt_eq_ld, h2.read_unread, h3.read_unread, h4.read_unread, h5.read_unread, h6.read_unread, h7.read_unread,
    View.ld_unit_zero (S := S1x64) hz, View.ld_unit_zero (S := S1x64x32x256x2) hz5]

/-! ## The first point: the zero block plus the block's sums -/

theorem out_A_1 (c : Dev nD) (i : grid0.Coords) (a2 : Memref sig .tc .vmem S1x64x32x256x2 .f32) (h2 : a2.IsWhole) (a3 : Memref sig .tc .vmem S1x64 .f32) (h3 : a3.IsWhole) (a4 : Memref sig .tc .vmem S1x64 .f32) (h4 : a4.IsWhole) (a5 : Memref sig .tc .vmem S1x64 .f32) (h5 : a5.IsWhole) (a6 : Memref sig .tc .vmem S1x64 .f32) (h6 : a6.IsWhole) (a7 : Memref sig .tc .vmem S1x64 .f32) (h7 : a7.IsWhole) (hc : cond0_0 i) (x : Vec F S1x64x32x256x2 .f32) :
    out0_A_1 c i a2 h2 a3 h3 a4 h4 a5 h5 a6 h6 a7 h7 hc x = k0_pay14 x (k0_pay4 (F := F)) := by
  unfold out0_A_1
  rw [View.read_writes_eq_canon _ _ _ (cover0_A_1 c i a2 h2 a3 h3 a4 h4 a5 h5 a6 h6 a7 h7 hc x)]
  unfold kernelRun0_A
  dsimp only
  sl_unfold_words
  rw [View.canon_cons_unit_zero (S := S1x64) hz, View.readCov_unit_zero (S := S1x64) _ hz]
  simp only [View.readAt_eq_ld, h2.read_unread, View.ld_unit_zero (S := S1x64) hz, View.ld_unit_zero (S := S1x64x32x256x2) hz5]

theorem out_A_2 (c : Dev nD) (i : grid0.Coords) (a2 : Memref sig .tc .vmem S1x64x32x256x2 .f32) (h2 : a2.IsWhole) (a3 : Memref sig .tc .vmem S1x64 .f32) (h3 : a3.IsWhole) (a4 : Memref sig .tc .vmem S1x64 .f32) (h4 : a4.IsWhole) (a5 : Memref sig .tc .vmem S1x64 .f32) (h5 : a5.IsWhole) (a6 : Memref sig .tc .vmem S1x64 .f32) (h6 : a6.IsWhole) (a7 : Memref sig .tc .vmem S1x64 .f32) (h7 : a7.IsWhole) (hc : cond0_0 i) (x : Vec F S1x64x32x256x2 .f32) :
    out0_A_2 c i a2 h2 a3 h3 a4 h4 a5 h5 a6 h6 a7 h7 hc x = k0_pay15 x (k0_pay5 (F := F)) := by
  unfold out0_A_2
  rw [View.read_writes_eq_canon _ _ _ (cover0_A_2 c i a2 h2 a3 h3 a4 h4 a5 h5 a6 h6 a7 h7 hc x)]
  unfold kernelRun0_A
  dsimp only
  sl_unfold_words
  rw [View.canon_cons_unit_zero (S := S1x64) hz, View.readCov_unit_zero (S := S1x64) _ hz]
  simp only [View.readAt_eq_ld, h2.read_unread, View.ld_unit_zero (S := S1x64) hz, View.ld_unit_zero (S := S1x64x32x256x2) hz5]

theorem out_A_3 (c : Dev nD) (i : grid0.Coords) (a2 : Memref sig .tc .vmem S1x64x32x256x2 .f32) (h2 : a2.IsWhole) (a3 : Memref sig .tc .vmem S1x64 .f32) (h3 : a3.IsWhole) (a4 : Memref sig .tc .vmem S1x64 .f32) (h4 : a4.IsWhole) (a5 : Memref sig .tc .vmem S1x64 .f32) (h5 : a5.IsWhole) (a6 : Memref sig .tc .vmem S1x64 .f32) (h6 : a6.IsWhole) (a7 : Memref sig .tc .vmem S1x64 .f32) (h7 : a7.IsWhole) (hc : cond0_0 i) (x : Vec F S1x64x32x256x2 .f32) :
    out0_A_3 c i a2 h2 a3 h3 a4 h4 a5 h5 a6 h6 a7 h7 hc x = k0_pay1 (k0_pay11 x) (k0_pay6 (F := F)) := by
  unfold out0_A_3
  rw [View.read_writes_eq_canon _ _ _ (cover0_A_3 c i a2 h2 a3 h3 a4 h4 a5 h5 a6 h6 a7 h7 hc x)]
  unfold kernelRun0_A
  dsimp only
  sl_unfold_words
  rw [View.canon_cons_unit_zero (S := S1x64) hz, View.readCov_unit_zero (S := S1x64) _ hz]
  simp only [View.readAt_eq_ld, h2.read_unread, View.ld_unit_zero (S := S1x64) hz, View.ld_unit_zero (S := S1x64x32x256x2) hz5]

theorem out_A_4 (c : Dev nD) (i : grid0.Coords) (a2 : Memref sig .tc .vmem S1x64x32x256x2 .f32) (h2 : a2.IsWhole) (a3 : Memref sig .tc .vmem S1x64 .f32) (h3 : a3.IsWhole) (a4 : Memref sig .tc .vmem S1x64 .f32) (h4 : a4.IsWhole) (a5 : Memref sig .tc .vmem S1x64 .f32) (h5 : a5.IsWhole) (a6 : Memref sig .tc .vmem S1x64 .f32) (h6 : a6.IsWhole) (a7 : Memref sig .tc .vmem S1x64 .f32) (h7 : a7.IsWhole) (hc : cond0_0 i) (x : Vec F S1x64x32x256x2 .f32) :
    out0_A_4 c i a2 h2 a3 h3 a4 h4 a5 h5 a6 h6 a7 h7 hc x = k0_pay2 (k0_pay12 x) (k0_pay7 (F := F)) := by
  unfold out0_A_4
  rw [View.read_writes_eq_canon _ _ _ (cover0_A_4 c i a2 h2 a3 h3 a4 h4 a5 h5 a6 h6 a7 h7 hc x)]
  unfold kernelRun0_A
  dsimp only
  sl_unfold_words
  rw [View.canon_cons_unit_zero (S := S1x64) hz, View.readCov_unit_zero (S := S1x64) _ hz]
  simp only [View.readAt_eq_ld, h2.read_unread, View.ld_unit_zero (S := S1x64) hz, View.ld_unit_zero (S := S1x64x32x256x2) hz5]

theorem out_A_5 (c : Dev nD) (i : grid0.Coords) (a2 : Memref sig .tc .vmem S1x64x32x256x2 .f32) (h2 : a2.IsWhole) (a3 : Memref sig .tc .vmem S1x64 .f32) (h3 : a3.IsWhole) (a4 : Memref sig .tc .vmem S1x64 .f32) (h4 : a4.IsWhole) (a5 : Memref sig .tc .vmem S1x64 .f32) (h5 : a5.IsWhole) (a6 : Memref sig .tc .vmem S1x64 .f32) (h6 : a6.IsWhole) (a7 : Memref sig .tc .vmem S1x64 .f32) (h7 : a7.IsWhole) (hc : cond0_0 i) (x : Vec F S1x64x32x256x2 .f32) :
    out0_A_5 c i a2 h2 a3 h3 a4 h4 a5 h5 a6 h6 a7 h7 hc x = k0_pay3 (k0_pay13 x) (k0_pay8 (F := F)) := by
  unfold out0_A_5
  rw [View.read_writes_eq_canon _ _ _ (cover0_A_5 c i a2 h2 a3 h3 a4 h4 a5 h5 a6 h6 a7 h7 hc x)]
  unfold kernelRun0_A
  dsimp only
  sl_unfold_words
  rw [View.canon_cons_unit_zero (S := S1x64) hz, View.readCov_unit_zero (S := S1x64) _ hz]
  simp only [View.readAt_eq_ld, h2.read_unread, View.ld_unit_zero (S := S1x64) hz, View.ld_unit_zero (S := S1x64x32x256x2) hz5]

end Cbn.R0

end
-- ==== Proof.Region0Sum.lean ====
/-
  Region 0's arithmetic at an index, on the extended reals. A block x[0, c, h, w, p] of 32 rows and 256 columns
  contributes to channel c the five sums over (h, w) of re, im, re*re, re*im, im*im (re = x[..., 0], im = x[..., 1]):
  the body reduces over the columns, then over the rows, and adds the result to the accumulator it read.
-/
import proofs.«180193_j36807869727213_1_alg».proof.Proof.Gen.KernelIdeal.Frame
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cbn.R0
open Cert.KernelIdeal Cert.KernelIdeal.Gen Idealize.ShloMosaic.ValueIdx

/-- The real part (p = 0) or imaginary part (p = 1) of a block, as a [64, 32, 256] array. -/
theorem part_apply (x : Vec Ideal S1x64x32x256x2 .f32) (p : Fin 2) (hs : S1x64x32x256x2.Slices ![0, 0, 0, 0, p.val] S1x64x32x256x1)
    (hc : S1x64x32x256x1.ShapeCasts S64x32x256) (c : Fin 64) (h : Fin 32) (w : Fin 256) :
    shapeCast S64x32x256 (extractStridedSlice S1x64x32x256x1 ![0, 0, 0, 0, p.val] x hs) hc (ix3 c h w)
      = x (ix5 (0 : Fin 1) c h w p) := by
  refine (shapeCast_apply _ hc (ix3 c h w) (ix5 (0 : Fin 1) c h w (0 : Fin 1)) ?_).trans
    (slice5_axis4_apply p.val x hs (0 : Fin 1) c h w (0 : Fin 1) p (by simp))
  rw [Shape.rowMajor_val_five, Shape.rowMajor_val_three]
  show ((((0 : ℕ) * 64 + c.val) * 32 + h.val) * 256 + w.val) * 1 + 0 = (c.val * 32 + h.val) * 256 + w.val
  omega

theorem pay9_apply (x : Vec Ideal S1x64x32x256x2 .f32) (c : Fin 64) (h : Fin 32) (w : Fin 256) :
    k0_pay9 x (ix3 c h w) = x (ix5 (0 : Fin 1) c h w (0 : Fin 2)) :=
  part_apply x 0 _ _ c h w

theorem pay10_apply (x : Vec Ideal S1x64x32x256x2 .f32) (c : Fin 64) (h : Fin 32) (w : Fin 256) :
    k0_pay10 x (ix3 c h w) = x (ix5 (0 : Fin 1) c h w (1 : Fin 2)) :=
  part_apply x 1 _ _ c h w

theorem lift_cols (hr : S64x32x256.Reduces [2] S64x32) (c : Fin 64) (h : Fin 32) (w : Fin 256) :
    hr.lift (ix2 c h) w = ix3 c h w := by
  funext a; apply Fin.ext
  match a with
  | ⟨0, _⟩ => rfl
  | ⟨1, _⟩ => rfl
  | ⟨2, _⟩ => rfl

theorem lift_rows (hr : S64x32.Reduces [1] S64) (c : Fin 64) (h : Fin 32) :
    hr.lift (ix1 c) h = ix2 c h := by
  funext a; apply Fin.ext
  match a with
  | ⟨0, _⟩ => rfl
  | ⟨1, _⟩ => rfl

/-- The sum over the columns, then over the rows, of a [64, 32, 256] array at channel c. -/
theorem rows_cols_apply (v : FVec Ideal S64x32x256 .f32) (h2 : S64x32x256.Reduces [2] S64x32) (h1 : S64x32.Reduces [1] S64)
    (hφ : FKind.Formats .f32) (hacc : (0x00000000#32 : BitVec 32) = FKind.add.neutral .f32 hφ)
    (hφ' : FKind.Formats .f32) (hacc' : (0x00000000#32 : BitVec 32) = FKind.add.neutral .f32 hφ') (c : Fin 64) :
    multiReduction .add [1] S64 (multiReduction .add [2] S64x32 v 0x00000000#32 h2 hφ hacc) 0x00000000#32 h1 hφ' hacc' (ix1 c)
      = ∑ h : Fin 32, ∑ w : Fin 256, v (ix3 c h w) := by
  refine (Ideal.multiReduction_add_single _ _ h1 hφ' hacc' (ix1 c)).trans ?_
  refine Finset.sum_congr rfl fun h _ => ?_
  refine (congrArg _ (lift_rows h1 c h)).trans ?_
  refine (Ideal.multiReduction_add_single v _ h2 hφ hacc (ix2 c h)).trans ?_
  exact Finset.sum_congr rfl fun w _ => congrArg v (lift_cols h2 c h w)

/-- The five sums of one block at channel c. -/
def bs1 (x : Vec Ideal S1x64x32x256x2 .f32) (c : Fin 64) : EReal := ∑ h : Fin 32, ∑ w : Fin 256, x (ix5 (0 : Fin 1) c h w (0 : Fin 2))
def bs2 (x : Vec Ideal S1x64x32x256x2 .f32) (c : Fin 64) : EReal := ∑ h : Fin 32, ∑ w : Fin 256, x (ix5 (0 : Fin 1) c h w (1 : Fin 2))
def bs3 (x : Vec Ideal S1x64x32x256x2 .f32) (c : Fin 64) : EReal :=
  ∑ h : Fin 32, ∑ w : Fin 256, x (ix5 (0 : Fin 1) c h w (0 : Fin 2)) * x (ix5 (0 : Fin 1) c h w (0 : Fin 2))
def bs4 (x : Vec Ideal S1x64x32x256x2 .f32) (c : Fin 64) : EReal :=
  ∑ h : Fin 32, ∑ w : Fin 256, x (ix5 (0 : Fin 1) c h w (0 : Fin 2)) * x (ix5 (0 : Fin 1) c h w (1 : Fin 2))
def bs5 (x : Vec Ideal S1x64x32x256x2 .f32) (c : Fin 64) : EReal :=
  ∑ h : Fin 32, ∑ w : Fin 256, x (ix5 (0 : Fin 1) c h w (1 : Fin 2)) * x (ix5 (0 : Fin 1) c h w (1 : Fin 2))

theorem pay11_apply (x : Vec Ideal S1x64x32x256x2 .f32) (c : Fin 64) : k0_pay11 x (ix1 c) = bs3 x c := by
  unfold k0_pay11 bs3
  refine (rows_cols_apply _ _ _ _ _ _ _ c).trans ?_
  refine Finset.sum_congr rfl fun h _ => Finset.sum_congr rfl fun w _ => ?_
  show k0_pay9 x (ix3 c h w) * k0_pay9 x (ix3 c h w) = _
  rw [pay9_apply]

theorem pay12_apply (x : Vec Ideal S1x64x32x256x2 .f32) (c : Fin 64) : k0_pay12 x (ix1 c) = bs4 x c := by
  unfold k0_pay12 bs4
  refine (rows_cols_apply _ _ _ _ _ _ _ c).trans ?_
  refine Finset.sum_congr rfl fun h _ => Finset.sum_congr rfl fun w _ => ?_
  show k0_pay9 x (ix3 c h w) * k0_pay10 x (ix3 c h w) = _
  rw [pay9_apply, pay10_apply]

theorem pay13_apply (x : Vec Ideal S1x64x32x256x2 .f32) (c : Fin 64) : k0_pay13 x (ix1 c) = bs5 x c := by
  unfold k0_pay13 bs5
  refine (rows_cols_apply _ _ _ _ _ _ _ c).trans ?_
  refine Finset.sum_congr rfl fun h _ => Finset.sum_congr rfl fun w _ => ?_
  show k0_pay10 x (ix3 c h w) * k0_pay10 x (ix3 c h w) = _
  rw [pay10_apply]

/-- Each accumulator update at (u, c): the accumulator read plus the block's sum. -/
theorem pay14_apply (x : Vec Ideal S1x64x32x256x2 .f32) (xo : Vec Ideal S1x64 .f32) (u : Fin 1) (c : Fin 64) :
    k0_pay14 x xo (ix2 u c) = xo (ix2 u c) + bs1 x c := by
  unfold k0_pay14 bs1
  show shapeCast S1x64 xo _ (ix2 u c) + shapeCast S1x64 _ _ (ix2 u c) = _
  rw [shapeCast_self, shapeCast_a_1a_apply]
  refine congrArg _ ((rows_cols_apply _ _ _ _ _ _ _ c).trans ?_)
  exact Finset.sum_congr rfl fun h _ => Finset.sum_congr rfl fun w _ => pay9_apply x c h w

theorem pay15_apply (x : Vec Ideal S1x64x32x256x2 .f32) (xo : Vec Ideal S1x64 .f32) (u : Fin 1) (c : Fin 64) :
    k0_pay15 x xo (ix2 u c) = xo (ix2 u c) + bs2 x c := by
  unfold k0_pay15 bs2
  show shapeCast S1x64 xo _ (ix2 u c) + shapeCast S1x64 _ _ (ix2 u c) = _
  rw [shapeCast_self, shapeCast_a_1a_apply]
  refine congrArg _ ((rows_cols_apply _ _ _ _ _ _ _ c).trans ?_)
  exact Finset.sum_congr rfl fun h _ => Finset.sum_congr rfl fun w _ => pay10_apply x c h w

theorem pay1_apply (v : FVec Ideal S64 .f32) (xo : Vec Ideal S1x64 .f32) (u : Fin 1) (c : Fin 64) :
    k0_pay1 v xo (ix2 u c) = xo (ix2 u c) + v (ix1 c) := by
  unfold k0_pay1
  show shapeCast S1x64 xo _ (ix2 u c) + shapeCast S1x64 v _ (ix2 u c) = _
  rw [shapeCast_self, shapeCast_a_1a_apply]

theorem pay2_apply (v : FVec Ideal S64 .f32) (xo : Vec Ideal S1x64 .f32) (u : Fin 1) (c : Fin 64) :
    k0_pay2 v xo (ix2 u c) = xo (ix2 u c) + v (ix1 c) := by
  unfold k0_pay2
  show shapeCast S1x64 xo _ (ix2 u c) + shapeCast S1x64 v _ (ix2 u c) = _
  rw [shapeCast_self, shapeCast_a_1a_apply]

theorem pay3_apply (v : FVec Ideal S64 .f32) (xo : Vec Ideal S1x64 .f32) (u : Fin 1) (c : Fin 64) :
    k0_pay3 v xo (ix2 u c) = xo (ix2 u c) + v (ix1 c) := by
  unfold k0_pay3
  show shapeCast S1x64 xo _ (ix2 u c) + shapeCast S1x64 v _ (ix2 u c) = _
  rw [shapeCast_self, shapeCast_a_1a_apply]

/-- The block the first point stores before accumulating is zero everywhere. -/
theorem zero_word : (Scalar.ofBits .f32 0x00000000#32 : Ideal .f32) = 0 := Ideal.ofBits_zero_f32
theorem pay4_apply (j : S1x64.Idx) : k0_pay4 (F := Ideal) j = 0 := zero_word
theorem pay5_apply (j : S1x64.Idx) : k0_pay5 (F := Ideal) j = 0 := zero_word
theorem pay6_apply (j : S1x64.Idx) : k0_pay6 (F := Ideal) j = 0 := zero_word
theorem pay7_apply (j : S1x64.Idx) : k0_pay7 (F := Ideal) j = 0 := zero_word
theorem pay8_apply (j : S1x64.Idx) : k0_pay8 (F := Ideal) j = 0 := zero_word

end Cbn.R0

end
-- ==== Proof.Region0Acc.lean ====
/-
  Region 0 over its 64 grid points. Every point adds its block's five sums to the accumulators; the first point
  starts them from zero. By induction on the point, after point n each accumulator holds, at channel q, zero plus
  the sum over the points up to n of that block statistic; the accumulators are written back after the last
  point only, so the five result arrays hold the sums over all 64 points.
-/
import proofs.«180193_j36807869727213_1_alg».proof.Proof.Gen.KernelIdeal.Frame
import proofs.«180193_j36807869727213_1_alg».proof.Proof.Region0Pieces
import proofs.«180193_j36807869727213_1_alg».proof.Proof.Region0Sum
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cbn.R0
open Cert.KernelIdeal Cert.KernelIdeal.Gen Idealize.ShloMosaic.ValueIdx

/-- The sum of a per-point quantity over the grid points up to n. -/
def upto (f : Fin cfg0.N → EReal) (n : ℕ) : EReal := ∑ t ∈ Finset.univ.filter (fun t : Fin cfg0.N => t.val ≤ n), f t

theorem upto_zero (f : Fin cfg0.N → EReal) (h : 0 < cfg0.N) : upto f 0 = f ⟨0, h⟩ := by
  unfold upto
  rw [show Finset.univ.filter (fun t : Fin cfg0.N => t.val ≤ 0) = {⟨0, h⟩} from by
    ext t; simp only [Finset.mem_filter, Finset.mem_univ, true_and, Finset.mem_singleton, Nat.le_zero]
    exact ⟨fun e => Fin.ext e, fun e => by rw [e]⟩]
  exact Finset.sum_singleton _ _

theorem upto_succ (f : Fin cfg0.N → EReal) (n : ℕ) (h : n + 1 < cfg0.N) : upto f (n + 1) = upto f n + f ⟨n + 1, h⟩ := by
  unfold upto
  rw [show Finset.univ.filter (fun t : Fin cfg0.N => t.val ≤ n + 1) = insert ⟨n + 1, h⟩ (Finset.univ.filter (fun t : Fin cfg0.N => t.val ≤ n)) from by
    ext t; simp only [Finset.mem_filter, Finset.mem_univ, true_and, Finset.mem_insert]
    constructor
    · intro e
      rcases Nat.lt_or_ge t.val (n + 1) with h1 | h1
      · exact Or.inr (by omega)
      · exact Or.inl (Fin.ext (by dsimp only; omega))
    · rintro (e | e)
      · rw [e]
      · omega]
  rw [Finset.sum_insert (by simp only [Finset.mem_filter, Finset.mem_univ, true_and]; omega), add_comm]

theorem upto_last (f : Fin cfg0.N → EReal) : upto f 63 = ∑ t, f t := by
  unfold upto
  rw [Finset.filter_true_of_mem fun t _ => by have h : t.val < 64 := t.isLt; omega]

variable (V : (c : Dev nD) → (b : Ref sig .tc) → Buf (Elt Ideal) ((c : Thread nD τ).loc b))

/-- The running sum of a block statistic `bs`: zero plus its sum over the points up to n, at the channel of the index. -/
def acc (bs : Vec Ideal S1x64x32x256x2 .f32 → Fin 64 → EReal) (c : Dev nD) (n : ℕ) : Vec Ideal S1x64 .f32 :=
  fun j => 0 + upto (fun t => bs (iblk0 V c 0 t) (j 1)) n

theorem acc1_eq (c : Dev nD) : ∀ (n : ℕ) (h : n < cfg0.N), (outsAt0 V c n h).1 = acc V bs1 c n
  | 0, h => by
    rw [outsAt0_A V c ⟨0, h⟩ rfl]
    dsimp only
    refine (out_A_1 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) ((hcond0_0 ⟨0, h⟩).mpr rfl) (iblk0 V c 0 ⟨0, h⟩)).trans ?_
    funext j
    obtain ⟨u, q, rfl⟩ : ∃ (u : Fin 1) (q : Fin 64), j = ix2 u q := ⟨j 0, j 1, eq_ix2 j⟩
    rw [pay14_apply, pay4_apply]
    show _ = 0 + upto (fun t => bs1 (iblk0 V c 0 t) q) 0
    rw [upto_zero _ h]
  | n + 1, h => by
    have hB : ¬(⟨n + 1, h⟩ : Fin cfg0.N).val % 64 = 0 := by
      have h' : n + 1 < 64 := h
      dsimp only; omega
    rw [outsAt0_B V c ⟨n + 1, h⟩ hB]
    dsimp only
    refine (out_B_1 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (fun hh => hB ((hcond0_0 ⟨n + 1, h⟩).mp hh)) (iblk0 V c 0 ⟨n + 1, h⟩)
      (outsAt0 V c n (Nat.lt_of_succ_lt h)).1 (outsAt0 V c n (Nat.lt_of_succ_lt h)).2.1 (outsAt0 V c n (Nat.lt_of_succ_lt h)).2.2.1 (outsAt0 V c n (Nat.lt_of_succ_lt h)).2.2.2.1 (outsAt0 V c n (Nat.lt_of_succ_lt h)).2.2.2.2).trans ?_
    funext j
    obtain ⟨u, q, rfl⟩ : ∃ (u : Fin 1) (q : Fin 64), j = ix2 u q := ⟨j 0, j 1, eq_ix2 j⟩
    rw [pay14_apply, acc1_eq c n (Nat.lt_of_succ_lt h)]
    show (0 + upto (fun t => bs1 (iblk0 V c 0 t) q) n) + bs1 (iblk0 V c 0 ⟨n + 1, h⟩) q = 0 + upto (fun t => bs1 (iblk0 V c 0 t) q) (n + 1)
    rw [upto_succ _ n h, add_assoc]

theorem acc2_eq (c : Dev nD) : ∀ (n : ℕ) (h : n < cfg0.N), (outsAt0 V c n h).2.1 = acc V bs2 c n
  | 0, h => by
    rw [outsAt0_A V c ⟨0, h⟩ rfl]
    dsimp only
    refine (out_A_2 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) ((hcond0_0 ⟨0, h⟩).mpr rfl) (iblk0 V c 0 ⟨0, h⟩)).trans ?_
    funext j
    obtain ⟨u, q, rfl⟩ : ∃ (u : Fin 1) (q : Fin 64), j = ix2 u q := ⟨j 0, j 1, eq_ix2 j⟩
    rw [pay15_apply, pay5_apply]
    show _ = 0 + upto (fun t => bs2 (iblk0 V c 0 t) q) 0
    rw [upto_zero _ h]
  | n + 1, h => by
    have hB : ¬(⟨n + 1, h⟩ : Fin cfg0.N).val % 64 = 0 := by
      have h' : n + 1 < 64 := h
      dsimp only; omega
    rw [outsAt0_B V c ⟨n + 1, h⟩ hB]
    dsimp only
    refine (out_B_2 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (fun hh => hB ((hcond0_0 ⟨n + 1, h⟩).mp hh)) (iblk0 V c 0 ⟨n + 1, h⟩)
      (outsAt0 V c n (Nat.lt_of_succ_lt h)).1 (outsAt0 V c n (Nat.lt_of_succ_lt h)).2.1 (outsAt0 V c n (Nat.lt_of_succ_lt h)).2.2.1 (outsAt0 V c n (Nat.lt_of_succ_lt h)).2.2.2.1 (outsAt0 V c n (Nat.lt_of_succ_lt h)).2.2.2.2).trans ?_
    funext j
    obtain ⟨u, q, rfl⟩ : ∃ (u : Fin 1) (q : Fin 64), j = ix2 u q := ⟨j 0, j 1, eq_ix2 j⟩
    rw [pay15_apply, acc2_eq c n (Nat.lt_of_succ_lt h)]
    show (0 + upto (fun t => bs2 (iblk0 V c 0 t) q) n) + bs2 (iblk0 V c 0 ⟨n + 1, h⟩) q = 0 + upto (fun t => bs2 (iblk0 V c 0 t) q) (n + 1)
    rw [upto_succ _ n h, add_assoc]

theorem acc3_eq (c : Dev nD) : ∀ (n : ℕ) (h : n < cfg0.N), (outsAt0 V c n h).2.2.1 = acc V bs3 c n
  | 0, h => by
    rw [outsAt0_A V c ⟨0, h⟩ rfl]
    dsimp only
    refine (out_A_3 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) ((hcond0_0 ⟨0, h⟩).mpr rfl) (iblk0 V c 0 ⟨0, h⟩)).trans ?_
    funext j
    obtain ⟨u, q, rfl⟩ : ∃ (u : Fin 1) (q : Fin 64), j = ix2 u q := ⟨j 0, j 1, eq_ix2 j⟩
    rw [pay1_apply, pay6_apply, pay11_apply]
    show _ = 0 + upto (fun t => bs3 (iblk0 V c 0 t) q) 0
    rw [upto_zero _ h]
  | n + 1, h => by
    have hB : ¬(⟨n + 1, h⟩ : Fin cfg0.N).val % 64 = 0 := by
      have h' : n + 1 < 64 := h
      dsimp only; omega
    rw [outsAt0_B V c ⟨n + 1, h⟩ hB]
    dsimp only
    refine (out_B_3 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (fun hh => hB ((hcond0_0 ⟨n + 1, h⟩).mp hh)) (iblk0 V c 0 ⟨n + 1, h⟩)
      (outsAt0 V c n (Nat.lt_of_succ_lt h)).1 (outsAt0 V c n (Nat.lt_of_succ_lt h)).2.1 (outsAt0 V c n (Nat.lt_of_succ_lt h)).2.2.1 (outsAt0 V c n (Nat.lt_of_succ_lt h)).2.2.2.1 (outsAt0 V c n (Nat.lt_of_succ_lt h)).2.2.2.2).trans ?_
    funext j
    obtain ⟨u, q, rfl⟩ : ∃ (u : Fin 1) (q : Fin 64), j = ix2 u q := ⟨j 0, j 1, eq_ix2 j⟩
    rw [pay1_apply, pay11_apply, acc3_eq c n (Nat.lt_of_succ_lt h)]
    show (0 + upto (fun t => bs3 (iblk0 V c 0 t) q) n) + bs3 (iblk0 V c 0 ⟨n + 1, h⟩) q = 0 + upto (fun t => bs3 (iblk0 V c 0 t) q) (n + 1)
    rw [upto_succ _ n h, add_assoc]

theorem acc4_eq (c : Dev nD) : ∀ (n : ℕ) (h : n < cfg0.N), (outsAt0 V c n h).2.2.2.1 = acc V bs4 c n
  | 0, h => by
    rw [outsAt0_A V c ⟨0, h⟩ rfl]
    dsimp only
    refine (out_A_4 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) ((hcond0_0 ⟨0, h⟩).mpr rfl) (iblk0 V c 0 ⟨0, h⟩)).trans ?_
    funext j
    obtain ⟨u, q, rfl⟩ : ∃ (u : Fin 1) (q : Fin 64), j = ix2 u q := ⟨j 0, j 1, eq_ix2 j⟩
    rw [pay2_apply, pay7_apply, pay12_apply]
    show _ = 0 + upto (fun t => bs4 (iblk0 V c 0 t) q) 0
    rw [upto_zero _ h]
  | n + 1, h => by
    have hB : ¬(⟨n + 1, h⟩ : Fin cfg0.N).val % 64 = 0 := by
      have h' : n + 1 < 64 := h
      dsimp only; omega
    rw [outsAt0_B V c ⟨n + 1, h⟩ hB]
    dsimp only
    refine (out_B_4 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (fun hh => hB ((hcond0_0 ⟨n + 1, h⟩).mp hh)) (iblk0 V c 0 ⟨n + 1, h⟩)
      (outsAt0 V c n (Nat.lt_of_succ_lt h)).1 (outsAt0 V c n (Nat.lt_of_succ_lt h)).2.1 (outsAt0 V c n (Nat.lt_of_succ_lt h)).2.2.1 (outsAt0 V c n (Nat.lt_of_succ_lt h)).2.2.2.1 (outsAt0 V c n (Nat.lt_of_succ_lt h)).2.2.2.2).trans ?_
    funext j
    obtain ⟨u, q, rfl⟩ : ∃ (u : Fin 1) (q : Fin 64), j = ix2 u q := ⟨j 0, j 1, eq_ix2 j⟩
    rw [pay2_apply, pay12_apply, acc4_eq c n (Nat.lt_of_succ_lt h)]
    show (0 + upto (fun t => bs4 (iblk0 V c 0 t) q) n) + bs4 (iblk0 V c 0 ⟨n + 1, h⟩) q = 0 + upto (fun t => bs4 (iblk0 V c 0 t) q) (n + 1)
    rw [upto_succ _ n h, add_assoc]

theorem acc5_eq (c : Dev nD) : ∀ (n : ℕ) (h : n < cfg0.N), (outsAt0 V c n h).2.2.2.2 = acc V bs5 c n
  | 0, h => by
    rw [outsAt0_A V c ⟨0, h⟩ rfl]
    dsimp only
    refine (out_A_5 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) ((hcond0_0 ⟨0, h⟩).mpr rfl) (iblk0 V c 0 ⟨0, h⟩)).trans ?_
    funext j
    obtain ⟨u, q, rfl⟩ : ∃ (u : Fin 1) (q : Fin 64), j = ix2 u q := ⟨j 0, j 1, eq_ix2 j⟩
    rw [pay3_apply, pay8_apply, pay13_apply]
    show _ = 0 + upto (fun t => bs5 (iblk0 V c 0 t) q) 0
    rw [upto_zero _ h]
  | n + 1, h => by
    have hB : ¬(⟨n + 1, h⟩ : Fin cfg0.N).val % 64 = 0 := by
      have h' : n + 1 < 64 := h
      dsimp only; omega
    rw [outsAt0_B V c ⟨n + 1, h⟩ hB]
    dsimp only
    refine (out_B_5 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (fun hh => hB ((hcond0_0 ⟨n + 1, h⟩).mp hh)) (iblk0 V c 0 ⟨n + 1, h⟩)
      (outsAt0 V c n (Nat.lt_of_succ_lt h)).1 (outsAt0 V c n (Nat.lt_of_succ_lt h)).2.1 (outsAt0 V c n (Nat.lt_of_succ_lt h)).2.2.1 (outsAt0 V c n (Nat.lt_of_succ_lt h)).2.2.2.1 (outsAt0 V c n (Nat.lt_of_succ_lt h)).2.2.2.2).trans ?_
    funext j
    obtain ⟨u, q, rfl⟩ : ∃ (u : Fin 1) (q : Fin 64), j = ix2 u q := ⟨j 0, j 1, eq_ix2 j⟩
    rw [pay3_apply, pay13_apply, acc5_eq c n (Nat.lt_of_succ_lt h)]
    show (0 + upto (fun t => bs5 (iblk0 V c 0 t) q) n) + bs5 (iblk0 V c 0 ⟨n + 1, h⟩) q = 0 + upto (fun t => bs5 (iblk0 V c 0 t) q) (n + 1)
    rw [upto_succ _ n h, add_assoc]

/-- The last grid point. -/
abbrev tlast : Fin cfg0.N := ⟨63, by decide⟩

theorem flushed1 (c : Dev nD) (t : Fin cfg0.N) (hf : (cfg0.win 1).flush t = true) :
    (dat0 V c).flushed 1 t = ((cfg0.win 1).blk t).view.read (Elt Ideal) (acc V bs1 c 63) := by
  have h63 : t.val = 63 := by
    have h1 := (flush0_1 t).mp hf
    have h2 : t.val < 64 := t.isLt
    omega
  obtain rfl : t = tlast := Fin.ext h63
  show (cfg0.win 1).cut (grid0.coords tlast) ((dat0 V c).after 1 tlast) = _
  rw [after0_1, acc1_eq]
  have hz' : (fun a => win0_1.index tlast a * main_v0_0.ty.shape.size a) = fun _ => 0 := funext fun a => by fin_cases a <;> decide +kernel
  exact (Memref.read_access_unit_zero (Elt Ideal) main_v0_0 hz' (fun a => by rw [congrFun hz' a]; simp) (acc V bs1 c 63)).symm

/-- Accumulator 1's array after the region: the running sum after the last point. -/
theorem final1 (c : Dev nD) : (dat0 V c).arrAt 1 cfg0.N = acc V bs1 c 63 :=
  (dat0 V c).arrAt_eq_of_cover 1 (acc V bs1 c 63) (flushed1 V c) fun i =>
    ⟨tlast, (flush0_1 tlast).mpr rfl, by
      show i ∈ ((View.whole main_v0_0).slice (win0_1.rect tlast)).set
      rw [View.set_slice_whole, Rect.mem_set_unit]
      intro a
      have h0 : (i 0 : Nat) < 1 := (i 0).isLt
      have h1 : (i 1 : Nat) < 64 := (i 1).isLt
      match a with
      | ⟨0, _⟩ => show win0_1.index tlast 0 * win0_1.size 0 ≤ (i 0 : Nat) ∧ (i 0 : Nat) < win0_1.index tlast 0 * win0_1.size 0 + win0_1.xsize (grid0.coords tlast) 0
                  rw [show win0_1.index tlast 0 * win0_1.size 0 = 0 from by decide +kernel, show win0_1.xsize (grid0.coords tlast) 0 = 1 from by decide +kernel]; omega
      | ⟨1, _⟩ => show win0_1.index tlast 1 * win0_1.size 1 ≤ (i 1 : Nat) ∧ (i 1 : Nat) < win0_1.index tlast 1 * win0_1.size 1 + win0_1.xsize (grid0.coords tlast) 1
                  rw [show win0_1.index tlast 1 * win0_1.size 1 = 0 from by decide +kernel, show win0_1.xsize (grid0.coords tlast) 1 = 64 from by decide +kernel]; omega⟩

theorem flushed2 (c : Dev nD) (t : Fin cfg0.N) (hf : (cfg0.win 2).flush t = true) :
    (dat0 V c).flushed 2 t = ((cfg0.win 2).blk t).view.read (Elt Ideal) (acc V bs2 c 63) := by
  have h63 : t.val = 63 := by
    have h1 := (flush0_2 t).mp hf
    have h2 : t.val < 64 := t.isLt
    omega
  obtain rfl : t = tlast := Fin.ext h63
  show (cfg0.win 2).cut (grid0.coords tlast) ((dat0 V c).after 2 tlast) = _
  rw [after0_2, acc2_eq]
  have hz' : (fun a => win0_2.index tlast a * main_v0_1.ty.shape.size a) = fun _ => 0 := funext fun a => by fin_cases a <;> decide +kernel
  exact (Memref.read_access_unit_zero (Elt Ideal) main_v0_1 hz' (fun a => by rw [congrFun hz' a]; simp) (acc V bs2 c 63)).symm

/-- Accumulator 2's array after the region: the running sum after the last point. -/
theorem final2 (c : Dev nD) : (dat0 V c).arrAt 2 cfg0.N = acc V bs2 c 63 :=
  (dat0 V c).arrAt_eq_of_cover 2 (acc V bs2 c 63) (flushed2 V c) fun i =>
    ⟨tlast, (flush0_2 tlast).mpr rfl, by
      show i ∈ ((View.whole main_v0_1).slice (win0_2.rect tlast)).set
      rw [View.set_slice_whole, Rect.mem_set_unit]
      intro a
      have h0 : (i 0 : Nat) < 1 := (i 0).isLt
      have h1 : (i 1 : Nat) < 64 := (i 1).isLt
      match a with
      | ⟨0, _⟩ => show win0_2.index tlast 0 * win0_2.size 0 ≤ (i 0 : Nat) ∧ (i 0 : Nat) < win0_2.index tlast 0 * win0_2.size 0 + win0_2.xsize (grid0.coords tlast) 0
                  rw [show win0_2.index tlast 0 * win0_2.size 0 = 0 from by decide +kernel, show win0_2.xsize (grid0.coords tlast) 0 = 1 from by decide +kernel]; omega
      | ⟨1, _⟩ => show win0_2.index tlast 1 * win0_2.size 1 ≤ (i 1 : Nat) ∧ (i 1 : Nat) < win0_2.index tlast 1 * win0_2.size 1 + win0_2.xsize (grid0.coords tlast) 1
                  rw [show win0_2.index tlast 1 * win0_2.size 1 = 0 from by decide +kernel, show win0_2.xsize (grid0.coords tlast) 1 = 64 from by decide +kernel]; omega⟩

theorem flushed3 (c : Dev nD) (t : Fin cfg0.N) (hf : (cfg0.win 3).flush t = true) :
    (dat0 V c).flushed 3 t = ((cfg0.win 3).blk t).view.read (Elt Ideal) (acc V bs3 c 63) := by
  have h63 : t.val = 63 := by
    have h1 := (flush0_3 t).mp hf
    have h2 : t.val < 64 := t.isLt
    omega
  obtain rfl : t = tlast := Fin.ext h63
  show (cfg0.win 3).cut (grid0.coords tlast) ((dat0 V c).after 3 tlast) = _
  rw [after0_3, acc3_eq]
  have hz' : (fun a => win0_3.index tlast a * main_v0_2.ty.shape.size a) = fun _ => 0 := funext fun a => by fin_cases a <;> decide +kernel
  exact (Memref.read_access_unit_zero (Elt Ideal) main_v0_2 hz' (fun a => by rw [congrFun hz' a]; simp) (acc V bs3 c 63)).symm

/-- Accumulator 3's array after the region: the running sum after the last point. -/
theorem final3 (c : Dev nD) : (dat0 V c).arrAt 3 cfg0.N = acc V bs3 c 63 :=
  (dat0 V c).arrAt_eq_of_cover 3 (acc V bs3 c 63) (flushed3 V c) fun i =>
    ⟨tlast, (flush0_3 tlast).mpr rfl, by
      show i ∈ ((View.whole main_v0_2).slice (win0_3.rect tlast)).set
      rw [View.set_slice_whole, Rect.mem_set_unit]
      intro a
      have h0 : (i 0 : Nat) < 1 := (i 0).isLt
      have h1 : (i 1 : Nat) < 64 := (i 1).isLt
      match a with
      | ⟨0, _⟩ => show win0_3.index tlast 0 * win0_3.size 0 ≤ (i 0 : Nat) ∧ (i 0 : Nat) < win0_3.index tlast 0 * win0_3.size 0 + win0_3.xsize (grid0.coords tlast) 0
                  rw [show win0_3.index tlast 0 * win0_3.size 0 = 0 from by decide +kernel, show win0_3.xsize (grid0.coords tlast) 0 = 1 from by decide +kernel]; omega
      | ⟨1, _⟩ => show win0_3.index tlast 1 * win0_3.size 1 ≤ (i 1 : Nat) ∧ (i 1 : Nat) < win0_3.index tlast 1 * win0_3.size 1 + win0_3.xsize (grid0.coords tlast) 1
                  rw [show win0_3.index tlast 1 * win0_3.size 1 = 0 from by decide +kernel, show win0_3.xsize (grid0.coords tlast) 1 = 64 from by decide +kernel]; omega⟩

theorem flushed4 (c : Dev nD) (t : Fin cfg0.N) (hf : (cfg0.win 4).flush t = true) :
    (dat0 V c).flushed 4 t = ((cfg0.win 4).blk t).view.read (Elt Ideal) (acc V bs4 c 63) := by
  have h63 : t.val = 63 := by
    have h1 := (flush0_4 t).mp hf
    have h2 : t.val < 64 := t.isLt
    omega
  obtain rfl : t = tlast := Fin.ext h63
  show (cfg0.win 4).cut (grid0.coords tlast) ((dat0 V c).after 4 tlast) = _
  rw [after0_4, acc4_eq]
  have hz' : (fun a => win0_4.index tlast a * main_v0_3.ty.shape.size a) = fun _ => 0 := funext fun a => by fin_cases a <;> decide +kernel
  exact (Memref.read_access_unit_zero (Elt Ideal) main_v0_3 hz' (fun a => by rw [congrFun hz' a]; simp) (acc V bs4 c 63)).symm

/-- Accumulator 4's array after the region: the running sum after the last point. -/
theorem final4 (c : Dev nD) : (dat0 V c).arrAt 4 cfg0.N = acc V bs4 c 63 :=
  (dat0 V c).arrAt_eq_of_cover 4 (acc V bs4 c 63) (flushed4 V c) fun i =>
    ⟨tlast, (flush0_4 tlast).mpr rfl, by
      show i ∈ ((View.whole main_v0_3).slice (win0_4.rect tlast)).set
      rw [View.set_slice_whole, Rect.mem_set_unit]
      intro a
      have h0 : (i 0 : Nat) < 1 := (i 0).isLt
      have h1 : (i 1 : Nat) < 64 := (i 1).isLt
      match a with
      | ⟨0, _⟩ => show win0_4.index tlast 0 * win0_4.size 0 ≤ (i 0 : Nat) ∧ (i 0 : Nat) < win0_4.index tlast 0 * win0_4.size 0 + win0_4.xsize (grid0.coords tlast) 0
                  rw [show win0_4.index tlast 0 * win0_4.size 0 = 0 from by decide +kernel, show win0_4.xsize (grid0.coords tlast) 0 = 1 from by decide +kernel]; omega
      | ⟨1, _⟩ => show win0_4.index tlast 1 * win0_4.size 1 ≤ (i 1 : Nat) ∧ (i 1 : Nat) < win0_4.index tlast 1 * win0_4.size 1 + win0_4.xsize (grid0.coords tlast) 1
                  rw [show win0_4.index tlast 1 * win0_4.size 1 = 0 from by decide +kernel, show win0_4.xsize (grid0.coords tlast) 1 = 64 from by decide +kernel]; omega⟩

theorem flushed5 (c : Dev nD) (t : Fin cfg0.N) (hf : (cfg0.win 5).flush t = true) :
    (dat0 V c).flushed 5 t = ((cfg0.win 5).blk t).view.read (Elt Ideal) (acc V bs5 c 63) := by
  have h63 : t.val = 63 := by
    have h1 := (flush0_5 t).mp hf
    have h2 : t.val < 64 := t.isLt
    omega
  obtain rfl : t = tlast := Fin.ext h63
  show (cfg0.win 5).cut (grid0.coords tlast) ((dat0 V c).after 5 tlast) = _
  rw [after0_5, acc5_eq]
  have hz' : (fun a => win0_5.index tlast a * main_v0_4.ty.shape.size a) = fun _ => 0 := funext fun a => by fin_cases a <;> decide +kernel
  exact (Memref.read_access_unit_zero (Elt Ideal) main_v0_4 hz' (fun a => by rw [congrFun hz' a]; simp) (acc V bs5 c 63)).symm

/-- Accumulator 5's array after the region: the running sum after the last point. -/
theorem final5 (c : Dev nD) : (dat0 V c).arrAt 5 cfg0.N = acc V bs5 c 63 :=
  (dat0 V c).arrAt_eq_of_cover 5 (acc V bs5 c 63) (flushed5 V c) fun i =>
    ⟨tlast, (flush0_5 tlast).mpr rfl, by
      show i ∈ ((View.whole main_v0_4).slice (win0_5.rect tlast)).set
      rw [View.set_slice_whole, Rect.mem_set_unit]
      intro a
      have h0 : (i 0 : Nat) < 1 := (i 0).isLt
      have h1 : (i 1 : Nat) < 64 := (i 1).isLt
      match a with
      | ⟨0, _⟩ => show win0_5.index tlast 0 * win0_5.size 0 ≤ (i 0 : Nat) ∧ (i 0 : Nat) < win0_5.index tlast 0 * win0_5.size 0 + win0_5.xsize (grid0.coords tlast) 0
                  rw [show win0_5.index tlast 0 * win0_5.size 0 = 0 from by decide +kernel, show win0_5.xsize (grid0.coords tlast) 0 = 1 from by decide +kernel]; omega
      | ⟨1, _⟩ => show win0_5.index tlast 1 * win0_5.size 1 ≤ (i 1 : Nat) ∧ (i 1 : Nat) < win0_5.index tlast 1 * win0_5.size 1 + win0_5.xsize (grid0.coords tlast) 1
                  rw [show win0_5.index tlast 1 * win0_5.size 1 = 0 from by decide +kernel, show win0_5.xsize (grid0.coords tlast) 1 = 64 from by decide +kernel]; omega⟩

end Cbn.R0

end
-- ==== Proof.Spec.lean ====
/-
  Complex batch normalisation of an array x[b, c, h, w, p] (p = 0 the real part, p = 1 the imaginary part) per channel c,
  written twice as pure functions on the extended reals.

  `refOut` follows the two-pass textbook form: the channel means, the centred parts, the 2x2 covariance of the centred
  parts (each entry shifted by eps), its inverse square root W, then gamma * (W * centred) + beta.
  `kerOut` follows the one-pass form: the five raw moments (sums of re, im, re*re, re*im, im*im over batch and
  space), means and covariance from the moments (mean of a product minus product of means), the same W, and one affine
  map per channel, a * (re, im) + bias, with a = gamma * W and bias = beta - a * mean.
  Both divide by sqrt(det) * t, so they are one function only where det > 0 (and every entry is a real number).
-/
import Idealize.ShloMosaic.PureOps.Ideal
import Idealize.ShloMosaic.Lib.ValueIdx

noncomputable section

namespace Cbn

open Idealize.ShloMosaic Idealize.ShloMosaic.ValueIdx

/-- The data array [8, 64, 256, 256, 2] and a per-channel vector [64]. -/
abbrev SX : Shape := ⟨5, ![8, 64, 256, 256, 2]⟩
abbrev SC : Shape := ⟨1, ![64]⟩

/-- The f32 words both programs carry: zero, eps = f32(1e-5), the sample count 524288 = 8*256*256, its reciprocal
    2^-19, and 2. -/
def z0 : EReal := Ideal.ofBits .f32 0x00000000#32
def eps : EReal := Ideal.ofBits .f32 0x3727C5AC#32
def cnt : EReal := Ideal.ofBits .f32 0x49000000#32
def icnt : EReal := Ideal.ofBits .f32 0x36000000#32
def two : EReal := Ideal.ofBits .f32 0x40000000#32

/-- The sum over batch and the two spatial axes. -/
def tot (f : Fin 8 → Fin 256 → Fin 256 → EReal) : EReal := ∑ b : Fin 8, ∑ h : Fin 256, ∑ w : Fin 256, f b h w

/-- Real and imaginary part of channel `c` at (b, h, w). -/
def re (x : SX.Idx → EReal) (c : Fin 64) (b : Fin 8) (h w : Fin 256) : EReal := x (ix5 b c h w (0 : Fin 2))
def im (x : SX.Idx → EReal) (c : Fin 64) (b : Fin 8) (h w : Fin 256) : EReal := x (ix5 b c h w (1 : Fin 2))

/-! ## The whitening matrix of a 2x2 covariance (Vrr, Vri; Vri, Vii): its inverse square root -/

def wS (vrr vri vii : EReal) : EReal := Ideal.sqrt (vrr * vii - vri * vri)
def wT (vrr vri vii : EReal) : EReal := Ideal.sqrt ((vrr + vii) + two * wS vrr vri vii)
def wD (vrr vri vii : EReal) : EReal := wS vrr vri vii * wT vrr vri vii
def wRR (vrr vri vii : EReal) : EReal := Ideal.div (vii + wS vrr vri vii) (wD vrr vri vii)
def wRI (vrr vri vii : EReal) : EReal := Ideal.div (-vri) (wD vrr vri vii)
def wII (vrr vri vii : EReal) : EReal := Ideal.div (vrr + wS vrr vri vii) (wD vrr vri vii)

/-! ## The two-pass form -/

def rMuR (x : SX.Idx → EReal) (c : Fin 64) : EReal := Ideal.div (z0 + tot (re x c)) cnt
def rMuI (x : SX.Idx → EReal) (c : Fin 64) : EReal := Ideal.div (z0 + tot (im x c)) cnt
/-- The centred parts. -/
def cR (x : SX.Idx → EReal) (c : Fin 64) (b : Fin 8) (h w : Fin 256) : EReal := re x c b h w - rMuR x c
def cI (x : SX.Idx → EReal) (c : Fin 64) (b : Fin 8) (h w : Fin 256) : EReal := im x c b h w - rMuI x c
def rVrr (x : SX.Idx → EReal) (c : Fin 64) : EReal :=
  Ideal.div (z0 + tot fun b h w => cR x c b h w * cR x c b h w) cnt + eps
def rVri (x : SX.Idx → EReal) (c : Fin 64) : EReal :=
  Ideal.div (z0 + tot fun b h w => cR x c b h w * cI x c b h w) cnt + eps
def rVii (x : SX.Idx → EReal) (c : Fin 64) : EReal :=
  Ideal.div (z0 + tot fun b h w => cI x c b h w * cI x c b h w) cnt + eps
/-- The determinant the two-pass form takes the square root of. -/
def rDet (x : SX.Idx → EReal) (c : Fin 64) : EReal := rVrr x c * rVii x c - rVri x c * rVri x c

/-- The whitened parts. -/
def xhR (x : SX.Idx → EReal) (c : Fin 64) (b : Fin 8) (h w : Fin 256) : EReal :=
  wRR (rVrr x c) (rVri x c) (rVii x c) * cR x c b h w + wRI (rVrr x c) (rVri x c) (rVii x c) * cI x c b h w
def xhI (x : SX.Idx → EReal) (c : Fin 64) (b : Fin 8) (h w : Fin 256) : EReal :=
  wRI (rVrr x c) (rVri x c) (rVii x c) * cR x c b h w + wII (rVrr x c) (rVri x c) (rVii x c) * cI x c b h w

/-- The two-pass result at (b, c, h, w, p). -/
def refAt (x : SX.Idx → EReal) (grr gii gri br bi : SC.Idx → EReal) (b : Fin 8) (c : Fin 64) (h w : Fin 256) (p : Fin 2) : EReal :=
  if p.val = 0 then (grr (ix1 c) * xhR x c b h w + gri (ix1 c) * xhI x c b h w) + br (ix1 c)
  else (gri (ix1 c) * xhR x c b h w + gii (ix1 c) * xhI x c b h w) + bi (ix1 c)

def refOut (x : SX.Idx → EReal) (grr gii gri br bi : SC.Idx → EReal) : SX.Idx → EReal :=
  fun j => refAt x grr gii gri br bi (j 0) (j 1) (j 2) (j 3) (j 4)

/-! ## The one-pass form -/

def kMuR (x : SX.Idx → EReal) (c : Fin 64) : EReal := tot (re x c) * icnt
def kMuI (x : SX.Idx → EReal) (c : Fin 64) : EReal := tot (im x c) * icnt
def kVrr (x : SX.Idx → EReal) (c : Fin 64) : EReal :=
  ((tot fun b h w => re x c b h w * re x c b h w) * icnt - kMuR x c * kMuR x c) + eps
def kVri (x : SX.Idx → EReal) (c : Fin 64) : EReal :=
  ((tot fun b h w => re x c b h w * im x c b h w) * icnt - kMuR x c * kMuI x c) + eps
def kVii (x : SX.Idx → EReal) (c : Fin 64) : EReal :=
  ((tot fun b h w => im x c b h w * im x c b h w) * icnt - kMuI x c * kMuI x c) + eps

/-- The per-channel affine map: a = gamma * W, bias = beta - a * mean. -/
def aRR (x : SX.Idx → EReal) (grr gri : SC.Idx → EReal) (c : Fin 64) : EReal :=
  grr (ix1 c) * wRR (kVrr x c) (kVri x c) (kVii x c) + gri (ix1 c) * wRI (kVrr x c) (kVri x c) (kVii x c)
def aRI (x : SX.Idx → EReal) (grr gri : SC.Idx → EReal) (c : Fin 64) : EReal :=
  grr (ix1 c) * wRI (kVrr x c) (kVri x c) (kVii x c) + gri (ix1 c) * wII (kVrr x c) (kVri x c) (kVii x c)
def aIR (x : SX.Idx → EReal) (gii gri : SC.Idx → EReal) (c : Fin 64) : EReal :=
  gri (ix1 c) * wRR (kVrr x c) (kVri x c) (kVii x c) + gii (ix1 c) * wRI (kVrr x c) (kVri x c) (kVii x c)
def aII (x : SX.Idx → EReal) (gii gri : SC.Idx → EReal) (c : Fin 64) : EReal :=
  gri (ix1 c) * wRI (kVrr x c) (kVri x c) (kVii x c) + gii (ix1 c) * wII (kVrr x c) (kVri x c) (kVii x c)
def bR (x : SX.Idx → EReal) (grr gri br : SC.Idx → EReal) (c : Fin 64) : EReal :=
  (br (ix1 c) - aRR x grr gri c * kMuR x c) - aRI x grr gri c * kMuI x c
def bI (x : SX.Idx → EReal) (gii gri bi : SC.Idx → EReal) (c : Fin 64) : EReal :=
  (bi (ix1 c) - aIR x gii gri c * kMuR x c) - aII x gii gri c * kMuI x c

/-- A per-channel affine map applied to the data: at (b, c, h, w, 0) it is arr c * re + ari c * im + b0 c, at
    (b, c, h, w, 1) it is air c * re + aii c * im + b1 c. -/
def affAt (x : SX.Idx → EReal) (arr ari air aii b0 b1 : SC.Idx → EReal) (b : Fin 8) (c : Fin 64) (h w : Fin 256) (p : Fin 2) : EReal :=
  if p.val = 0 then (arr (ix1 c) * re x c b h w + ari (ix1 c) * im x c b h w) + b0 (ix1 c)
  else (air (ix1 c) * re x c b h w + aii (ix1 c) * im x c b h w) + b1 (ix1 c)

def affOut (x : SX.Idx → EReal) (arr ari air aii b0 b1 : SC.Idx → EReal) : SX.Idx → EReal :=
  fun j => affAt x arr ari air aii b0 b1 (j 0) (j 1) (j 2) (j 3) (j 4)

/-- The one-pass result. -/
def kerOut (x : SX.Idx → EReal) (grr gii gri br bi : SC.Idx → EReal) : SX.Idx → EReal :=
  affOut x (fun i => aRR x grr gri (i 0)) (fun i => aRI x grr gri (i 0)) (fun i => aIR x gii gri (i 0))
    (fun i => aII x gii gri (i 0)) (fun i => bR x grr gri br (i 0)) (fun i => bI x gii gri bi (i 0))

end Cbn

end
-- ==== Proof.Region0Tot.lean ====
/-
  Region 0's five result arrays as sums over the whole data array. Grid point t = 8*b + k stages the block of
  batch b and rows 32*k … 32*k + 31, so the sum over the 64 points of a block's sum over its 32 rows and 256 columns
  is the sum over the 8 batches, 256 rows and 256 columns.
-/
import proofs.«180193_j36807869727213_1_alg».proof.Proof.Gen.KernelIdeal.Frame
import proofs.«180193_j36807869727213_1_alg».proof.Proof.Region0Acc
import proofs.«180193_j36807869727213_1_alg».proof.Proof.Spec
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cbn.R0
open Cert.KernelIdeal Cert.KernelIdeal.Gen Idealize.ShloMosaic.ValueIdx Cbn

/-- Sixty-four blocks of 32 rows are the 8 batches of 256 rows. -/
theorem tot_blocks (G : Fin 8 → Fin 256 → Fin 256 → EReal) :
    (∑ t : Fin 64, ∑ h : Fin 32, ∑ w : Fin 256,
        G ⟨t.val / 8, by have h64 : t.val < 64 := t.isLt; omega⟩
          ⟨32 * (t.val % 8) + h.val, by have := h.isLt; omega⟩ w)
      = tot G := by
  unfold tot
  have e1 : ∀ (b : Fin 8), (∑ hh : Fin 256, ∑ w : Fin 256, G b hh w)
      = ∑ k : Fin 8, ∑ h : Fin 32, ∑ w : Fin 256, G b ⟨32 * k.val + h.val, by have := h.isLt; have := k.isLt; omega⟩ w := by
    intro b
    rw [← Equiv.sum_comp (finProdFinEquiv : Fin 8 × Fin 32 ≃ Fin (8 * 32)) (fun hh : Fin (8 * 32) => ∑ w : Fin 256, G b hh w),
      Fintype.sum_prod_type]
    refine Finset.sum_congr rfl fun k _ => Finset.sum_congr rfl fun h _ => Finset.sum_congr rfl fun w _ => ?_
    refine congrArg (fun r => G b r w) (Fin.ext ?_)
    show h.val + 32 * k.val = 32 * k.val + h.val
    omega
  rw [Finset.sum_congr rfl fun b _ => e1 b]
  rw [← Equiv.sum_comp (finProdFinEquiv : Fin 8 × Fin 8 ≃ Fin (8 * 8))
    (fun t : Fin (8 * 8) => ∑ h : Fin 32, ∑ w : Fin 256,
        G ⟨t.val / 8, by have h64 : t.val < 64 := t.isLt; omega⟩ ⟨32 * (t.val % 8) + h.val, by have := h.isLt; omega⟩ w),
    Fintype.sum_prod_type]
  refine Finset.sum_congr rfl fun b _ => Finset.sum_congr rfl fun k _ => Finset.sum_congr rfl fun h _ =>
    Finset.sum_congr rfl fun w _ => ?_
  have hb : b.val < 8 := b.isLt
  have hk : k.val < 8 := k.isLt
  have hv : (finProdFinEquiv (b, k) : Fin (8 * 8)).val = k.val + 8 * b.val := rfl
  have h1 : (k.val + 8 * b.val) / 8 = b.val := by omega
  have h2 : (k.val + 8 * b.val) % 8 = k.val := by omega
  have hh : h.val < 32 := h.isLt
  have A : (⟨(finProdFinEquiv (b, k) : Fin (8 * 8)).val / 8, by omega⟩ : Fin 8) = b :=
    Fin.ext (by show (finProdFinEquiv (b, k) : Fin (8 * 8)).val / 8 = b.val; omega)
  have B : (⟨32 * ((finProdFinEquiv (b, k) : Fin (8 * 8)).val % 8) + h.val, by omega⟩ : Fin 256)
      = ⟨32 * k.val + h.val, by omega⟩ :=
    Fin.ext (by show 32 * ((finProdFinEquiv (b, k) : Fin (8 * 8)).val % 8) + h.val = 32 * k.val + h.val; omega)
  exact congrArg₂ (fun r s => G r s w) A B

/-- The block index of the data window at point t: batch t / 8, row block t % 8. -/
theorem idx_facts : ∀ t : Fin cfg0.N, win0_0.index t 0 = t.val / 8 ∧ win0_0.index t 1 = 0 ∧ win0_0.index t 2 = t.val % 8
      ∧ win0_0.index t 3 = 0 ∧ win0_0.index t 4 = 0 :=
  (by decide +kernel : ∀ t : Fin grid0.N, win0_0.index t 0 = t.val / 8 ∧ win0_0.index t 1 = 0 ∧ win0_0.index t 2 = t.val % 8
      ∧ win0_0.index t 3 = 0 ∧ win0_0.index t 4 = 0)

variable (V : (c : Dev nD) → (b : Ref sig .tc) → Buf (Elt Ideal) ((c : Thread nD τ).loc b))

/-- The data window's block at point t, at (0, q, h, w, p): the array at (t / 8, q, 32 * (t % 8) + h, w, p). -/
theorem iblk_apply (c : Dev nD) (t : Fin cfg0.N) (q : Fin 64) (h : Fin 32) (w : Fin 256) (p : Fin 2) :
    iblk0 V c 0 t (ix5 (0 : Fin 1) q h w p)
      = (V c (Pipeline.arrRef spec0 0) : S8x64x256x256x2.Idx → EReal)
          (ix5 (⟨t.val / 8, by have h64 : t.val < 64 := t.isLt; omega⟩ : Fin 8) q
            (⟨32 * (t.val % 8) + h.val, by have := h.isLt; omega⟩ : Fin 256) w p) := by
  obtain ⟨i0, i1, i2, i3, i4⟩ := idx_facts t
  unfold iblk0
  rw [View.read_apply]
  refine congrArg (V c (Pipeline.arrRef spec0 0)) ?_
  funext a
  apply Fin.ext
  match a with
  | ⟨0, _⟩ => show win0_0.index t 0 * 1 + 1 * 0 = t.val / 8; rw [i0]; omega
  | ⟨1, _⟩ => show win0_0.index t 1 * 64 + 1 * q.val = q.val; rw [i1]; omega
  | ⟨2, _⟩ => show win0_0.index t 2 * 32 + 1 * h.val = 32 * (t.val % 8) + h.val; rw [i2]; omega
  | ⟨3, _⟩ => show win0_0.index t 3 * 256 + 1 * w.val = w.val; rw [i3]; omega
  | ⟨4, _⟩ => show win0_0.index t 4 * 2 + 1 * p.val = p.val; rw [i4]; omega

theorem total1 (c : Dev nD) (q : Fin 64) :
    ((dat0 V c).arrAt 1 cfg0.N : S1x64.Idx → EReal) (ix2 (0 : Fin 1) q)
      = tot fun b h w => re (V c (Pipeline.arrRef spec0 0)) q b h w := by
  rw [final1]
  show 0 + upto (fun t => bs1 (iblk0 V c 0 t) q) 63 = _
  rw [upto_last, zero_add, ← tot_blocks]
  show (∑ t : Fin 64, _) = ∑ t : Fin 64, _
  refine Finset.sum_congr rfl fun t _ => ?_
  unfold bs1
  refine Finset.sum_congr rfl fun h _ => Finset.sum_congr rfl fun w _ => ?_
  exact iblk_apply V c t q h w 0

theorem total2 (c : Dev nD) (q : Fin 64) :
    ((dat0 V c).arrAt 2 cfg0.N : S1x64.Idx → EReal) (ix2 (0 : Fin 1) q)
      = tot fun b h w => im (V c (Pipeline.arrRef spec0 0)) q b h w := by
  rw [final2]
  show 0 + upto (fun t => bs2 (iblk0 V c 0 t) q) 63 = _
  rw [upto_last, zero_add, ← tot_blocks]
  show (∑ t : Fin 64, _) = ∑ t : Fin 64, _
  refine Finset.sum_congr rfl fun t _ => ?_
  unfold bs2
  refine Finset.sum_congr rfl fun h _ => Finset.sum_congr rfl fun w _ => ?_
  exact iblk_apply V c t q h w 1

theorem total3 (c : Dev nD) (q : Fin 64) :
    ((dat0 V c).arrAt 3 cfg0.N : S1x64.Idx → EReal) (ix2 (0 : Fin 1) q)
      = tot fun b h w => re (V c (Pipeline.arrRef spec0 0)) q b h w * re (V c (Pipeline.arrRef spec0 0)) q b h w := by
  rw [final3]
  show 0 + upto (fun t => bs3 (iblk0 V c 0 t) q) 63 = _
  rw [upto_last, zero_add, ← tot_blocks]
  show (∑ t : Fin 64, _) = ∑ t : Fin 64, _
  refine Finset.sum_congr rfl fun t _ => ?_
  unfold bs3
  refine Finset.sum_congr rfl fun h _ => Finset.sum_congr rfl fun w _ => ?_
  exact congrArg₂ (· * ·) (iblk_apply V c t q h w 0) (iblk_apply V c t q h w 0)

theorem total4 (c : Dev nD) (q : Fin 64) :
    ((dat0 V c).arrAt 4 cfg0.N : S1x64.Idx → EReal) (ix2 (0 : Fin 1) q)
      = tot fun b h w => re (V c (Pipeline.arrRef spec0 0)) q b h w * im (V c (Pipeline.arrRef spec0 0)) q b h w := by
  rw [final4]
  show 0 + upto (fun t => bs4 (iblk0 V c 0 t) q) 63 = _
  rw [upto_last, zero_add, ← tot_blocks]
  show (∑ t : Fin 64, _) = ∑ t : Fin 64, _
  refine Finset.sum_congr rfl fun t _ => ?_
  unfold bs4
  refine Finset.sum_congr rfl fun h _ => Finset.sum_congr rfl fun w _ => ?_
  exact congrArg₂ (· * ·) (iblk_apply V c t q h w 0) (iblk_apply V c t q h w 1)

theorem total5 (c : Dev nD) (q : Fin 64) :
    ((dat0 V c).arrAt 5 cfg0.N : S1x64.Idx → EReal) (ix2 (0 : Fin 1) q)
      = tot fun b h w => im (V c (Pipeline.arrRef spec0 0)) q b h w * im (V c (Pipeline.arrRef spec0 0)) q b h w := by
  rw [final5]
  show 0 + upto (fun t => bs5 (iblk0 V c 0 t) q) 63 = _
  rw [upto_last, zero_add, ← tot_blocks]
  show (∑ t : Fin 64, _) = ∑ t : Fin 64, _
  refine Finset.sum_congr rfl fun t _ => ?_
  unfold bs5
  refine Finset.sum_congr rfl fun h _ => Finset.sum_congr rfl fun w _ => ?_
  exact congrArg₂ (· * ·) (iblk_apply V c t q h w 1) (iblk_apply V c t q h w 1)

end Cbn.R0

end
-- ==== Proof.KernelMid.lean ====
/-
  The contents between the kernel's two regions: after region 0 the six argument arrays are as launched and the
  five sum arrays hold, at channel q, the sums over batch and space of re, im, re*re, re*im, im*im.
-/
import proofs.«180193_j36807869727213_1_alg».proof.Proof.Gen.KernelIdeal.Frame
import proofs.«180193_j36807869727213_1_alg».proof.Proof.Region0Tot
import proofs.«180193_j36807869727213_1_alg».proof.Proof.Spec
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cbn.K
open Cert.KernelIdeal Cert.KernelIdeal.Gen Idealize.ShloMosaic.ValueIdx

variable (m : (ℓ : Loc nD τ sig) → Buf (Elt Ideal) ℓ) (ρ : Dev nD → PrngReg)

theorem W1_arg0 (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))
theorem W1_arg1 (c : Dev nD) : W1 m ρ c (Proc.devRef .tc main_arg1) = m ((c : Thread nD τ).loc main_arg1) := W1_of_ne m ρ c main_arg1 (by decide)
theorem W1_arg2 (c : Dev nD) : W1 m ρ c (Proc.devRef .tc main_arg2) = m ((c : Thread nD τ).loc main_arg2) := W1_of_ne m ρ c main_arg2 (by decide)
theorem W1_arg3 (c : Dev nD) : W1 m ρ c (Proc.devRef .tc main_arg3) = m ((c : Thread nD τ).loc main_arg3) := W1_of_ne m ρ c main_arg3 (by decide)
theorem W1_arg4 (c : Dev nD) : W1 m ρ c (Proc.devRef .tc main_arg4) = m ((c : Thread nD τ).loc main_arg4) := W1_of_ne m ρ c main_arg4 (by decide)
theorem W1_arg5 (c : Dev nD) : W1 m ρ c (Proc.devRef .tc main_arg5) = m ((c : Thread nD τ).loc main_arg5) := W1_of_ne m ρ c main_arg5 (by decide)

theorem W1_sum1 (c : Dev nD) (q : Fin 64) :
    (W1 m ρ c (Proc.devRef .tc main_v0_0) : S1x64.Idx → EReal) (ix2 (0 : Fin 1) q)
      = Cbn.tot fun b h w => Cbn.re (m ((c : Thread nD τ).loc main_arg0)) q b h w := by
  rw [show W1 m ρ c (Proc.devRef .tc main_v0_0) = (dat0 (V0 m ρ) c).arrAt 1 cfg0.N from W1_arr m ρ c 1]
  exact Cbn.R0.total1 (V0 m ρ) c q

theorem W1_sum2 (c : Dev nD) (q : Fin 64) :
    (W1 m ρ c (Proc.devRef .tc main_v0_1) : S1x64.Idx → EReal) (ix2 (0 : Fin 1) q)
      = Cbn.tot fun b h w => Cbn.im (m ((c : Thread nD τ).loc main_arg0)) q b h w := by
  rw [show W1 m ρ c (Proc.devRef .tc main_v0_1) = (dat0 (V0 m ρ) c).arrAt 2 cfg0.N from W1_arr m ρ c 2]
  exact Cbn.R0.total2 (V0 m ρ) c q

theorem W1_sum3 (c : Dev nD) (q : Fin 64) :
    (W1 m ρ c (Proc.devRef .tc main_v0_2) : S1x64.Idx → EReal) (ix2 (0 : Fin 1) q)
      = Cbn.tot fun b h w => Cbn.re (m ((c : Thread nD τ).loc main_arg0)) q b h w * Cbn.re (m ((c : Thread nD τ).loc main_arg0)) q b h w := by
  rw [show W1 m ρ c (Proc.devRef .tc main_v0_2) = (dat0 (V0 m ρ) c).arrAt 3 cfg0.N from W1_arr m ρ c 3]
  exact Cbn.R0.total3 (V0 m ρ) c q

theorem W1_sum4 (c : Dev nD) (q : Fin 64) :
    (W1 m ρ c (Proc.devRef .tc main_v0_3) : S1x64.Idx → EReal) (ix2 (0 : Fin 1) q)
      = Cbn.tot fun b h w => Cbn.re (m ((c : Thread nD τ).loc main_arg0)) q b h w * Cbn.im (m ((c : Thread nD τ).loc main_arg0)) q b h w := by
  rw [show W1 m ρ c (Proc.devRef .tc main_v0_3) = (dat0 (V0 m ρ) c).arrAt 4 cfg0.N from W1_arr m ρ c 4]
  exact Cbn.R0.total4 (V0 m ρ) c q

theorem W1_sum5 (c : Dev nD) (q : Fin 64) :
    (W1 m ρ c (Proc.devRef .tc main_v0_4) : S1x64.Idx → EReal) (ix2 (0 : Fin 1) q)
      = Cbn.tot fun b h w => Cbn.im (m ((c : Thread nD τ).loc main_arg0)) q b h w * Cbn.im (m ((c : Thread nD τ).loc main_arg0)) q b h w := by
  rw [show W1 m ρ c (Proc.devRef .tc main_v0_4) = (dat0 (V0 m ρ) c).arrAt 5 cfg0.N from W1_arr m ρ c 5]
  exact Cbn.R0.total5 (V0 m ρ) c q

end Cbn.K

end
-- ==== Proof.HostMidLeaves.lean ====
/-
  The host operations between the two regions act on [64] vectors. Each of the five moment arrays arrives as a [1,64]
  array and is reshaped to [64]: read at i it is the array at (0, i 0). These are the leaves of every later term.
-/
import proofs.«180193_j36807869727213_1_alg».proof.Proof.Gen.KernelIdeal.Launch
import proofs.«180193_j36807869727213_1_alg».proof.Proof.Spec
import Idealize.ShloMosaic.Lib.StableHlo.Run
import Idealize.ShloMosaic.Lib.ValueLayout

open Idealize.ShloMosaic Idealize.ShloMosaic.ValueIdx Cert.KernelIdeal Cert.KernelIdeal.Gen

namespace Cbn.Mid

/-- A [1,64] array reshaped to [64] and read at i is the array at (0, i 0). -/
theorem reshaped (X : S1x64.Idx → EReal) (f : Fin 64 → EReal) (h : ∀ c : Fin 64, X (ix2 (0 : Fin 1) c) = f c) :
    (fun i : S64.Idx => shapeCast S64 X shapeCasts_S1x64_S64 i) = fun i => f (i 0) := by
  funext i
  obtain ⟨c, rfl⟩ : ∃ c : Fin 64, i = ix1 c := ⟨i 0, eq_ix1 i⟩
  exact (shapeCast_1a_a_apply X shapeCasts_S1x64_S64 c).trans (h c)

section Leaves
variable (W : Valuation τ sig (Elt Ideal)) (f : Fin 64 → EReal)

theorem leaf0 (h : ∀ c : Fin 64, (W (Proc.devRef .tc main_v0_0) : S1x64.Idx → EReal) (ix2 (0 : Fin 1) c) = f c) :
    (fun i => shapeCast main_v1.ty.shape (W (Proc.devRef .tc main_v0_0)) shapeCasts_S1x64_S64 i)
      = (fun i : S64.Idx => f (i 0)) := reshaped _ _ h
theorem leaf1 (h : ∀ c : Fin 64, (W (Proc.devRef .tc main_v0_1) : S1x64.Idx → EReal) (ix2 (0 : Fin 1) c) = f c) :
    (fun i => shapeCast main_v2.ty.shape (W (Proc.devRef .tc main_v0_1)) shapeCasts_S1x64_S64 i)
      = (fun i : S64.Idx => f (i 0)) := reshaped _ _ h
theorem leaf2 (h : ∀ c : Fin 64, (W (Proc.devRef .tc main_v0_2) : S1x64.Idx → EReal) (ix2 (0 : Fin 1) c) = f c) :
    (fun i => shapeCast main_v3.ty.shape (W (Proc.devRef .tc main_v0_2)) shapeCasts_S1x64_S64 i)
      = (fun i : S64.Idx => f (i 0)) := reshaped _ _ h
theorem leaf3 (h : ∀ c : Fin 64, (W (Proc.devRef .tc main_v0_3) : S1x64.Idx → EReal) (ix2 (0 : Fin 1) c) = f c) :
    (fun i => shapeCast main_v4.ty.shape (W (Proc.devRef .tc main_v0_3)) shapeCasts_S1x64_S64 i)
      = (fun i : S64.Idx => f (i 0)) := reshaped _ _ h
theorem leaf4 (h : ∀ c : Fin 64, (W (Proc.devRef .tc main_v0_4) : S1x64.Idx → EReal) (ix2 (0 : Fin 1) c) = f c) :
    (fun i => shapeCast main_v5.ty.shape (W (Proc.devRef .tc main_v0_4)) shapeCasts_S1x64_S64 i)
      = (fun i : S64.Idx => f (i 0)) := reshaped _ _ h

end Leaves

end Cbn.Mid
-- ==== Proof.HostMidA.lean ====
/-
  The coefficient vectors a_rr = gamma_rr W_rr + gamma_ri W_ri and a_ri = gamma_rr W_ri + gamma_ri W_ii after the host
  operations between the regions: the operations' composed term, read at an index, is the one-pass form's expression.
-/
import proofs.«180193_j36807869727213_1_alg».proof.Proof.Gen.KernelIdeal.Launch
import proofs.«180193_j36807869727213_1_alg».proof.Proof.Spec
import proofs.«180193_j36807869727213_1_alg».proof.Proof.HostMidLeaves

open Idealize.ShloMosaic Idealize.ShloMosaic.ValueIdx Cert.KernelIdeal Cert.KernelIdeal.Gen

namespace Cbn.Mid

set_option maxHeartbeats 4000000 in
theorem aRR_eq (W : Valuation τ sig (Elt Ideal)) (x : Cbn.SX.Idx → EReal)
    (h1 : ∀ c : Fin 64, (W (Proc.devRef .tc main_v0_0) : S1x64.Idx → EReal) (ix2 (0 : Fin 1) c) = Cbn.tot (Cbn.re x c))
    (h2 : ∀ c : Fin 64, (W (Proc.devRef .tc main_v0_1) : S1x64.Idx → EReal) (ix2 (0 : Fin 1) c) = Cbn.tot (Cbn.im x c))
    (h3 : ∀ c : Fin 64, (W (Proc.devRef .tc main_v0_2) : S1x64.Idx → EReal) (ix2 (0 : Fin 1) c)
      = Cbn.tot fun b h w => Cbn.re x c b h w * Cbn.re x c b h w)
    (h4 : ∀ c : Fin 64, (W (Proc.devRef .tc main_v0_3) : S1x64.Idx → EReal) (ix2 (0 : Fin 1) c)
      = Cbn.tot fun b h w => Cbn.re x c b h w * Cbn.im x c b h w)
    (h5 : ∀ c : Fin 64, (W (Proc.devRef .tc main_v0_4) : S1x64.Idx → EReal) (ix2 (0 : Fin 1) c)
      = Cbn.tot fun b h w => Cbn.im x c b h w * Cbn.im x c b h w) :
    (StableHlo.after (hostOps1 (F := Ideal)) W (Proc.devRef .tc main_v46) : S64.Idx → EReal)
      = fun i => Cbn.aRR x (W (Proc.devRef .tc main_arg1) : S64.Idx → EReal) (W (Proc.devRef .tc main_arg3) : S64.Idx → EReal) (i 0) := by
  after_results_simp
  rw [leaf0 W _ h1, leaf1 W _ h2, leaf2 W _ h3, leaf3 W _ h4, leaf4 W _ h5]
  funext i
  obtain ⟨c, rfl⟩ : ∃ c : Fin 64, i = ix1 c := ⟨i 0, eq_ix1 i⟩
  rfl

set_option maxHeartbeats 4000000 in
theorem aRI_eq (W : Valuation τ sig (Elt Ideal)) (x : Cbn.SX.Idx → EReal)
    (h1 : ∀ c : Fin 64, (W (Proc.devRef .tc main_v0_0) : S1x64.Idx → EReal) (ix2 (0 : Fin 1) c) = Cbn.tot (Cbn.re x c))
    (h2 : ∀ c : Fin 64, (W (Proc.devRef .tc main_v0_1) : S1x64.Idx → EReal) (ix2 (0 : Fin 1) c) = Cbn.tot (Cbn.im x c))
    (h3 : ∀ c : Fin 64, (W (Proc.devRef .tc main_v0_2) : S1x64.Idx → EReal) (ix2 (0 : Fin 1) c)
      = Cbn.tot fun b h w => Cbn.re x c b h w * Cbn.re x c b h w)
    (h4 : ∀ c : Fin 64, (W (Proc.devRef .tc main_v0_3) : S1x64.Idx → EReal) (ix2 (0 : Fin 1) c)
      = Cbn.tot fun b h w => Cbn.re x c b h w * Cbn.im x c b h w)
    (h5 : ∀ c : Fin 64, (W (Proc.devRef .tc main_v0_4) : S1x64.Idx → EReal) (ix2 (0 : Fin 1) c)
      = Cbn.tot fun b h w => Cbn.im x c b h w * Cbn.im x c b h w) :
    (StableHlo.after (hostOps1 (F := Ideal)) W (Proc.devRef .tc main_v49) : S64.Idx → EReal)
      = fun i => Cbn.aRI x (W (Proc.devRef .tc main_arg1) : S64.Idx → EReal) (W (Proc.devRef .tc main_arg3) : S64.Idx → EReal) (i 0) := by
  after_results_simp
  rw [leaf0 W _ h1, leaf1 W _ h2, leaf2 W _ h3, leaf3 W _ h4, leaf4 W _ h5]
  funext i
  obtain ⟨c, rfl⟩ : ∃ c : Fin 64, i = ix1 c := ⟨i 0, eq_ix1 i⟩
  rfl

end Cbn.Mid
-- ==== Proof.HostMidB.lean ====
/-
  The coefficient vectors a_ir = gamma_ri W_rr + gamma_ii W_ri and a_ii = gamma_ri W_ri + gamma_ii W_ii after the host
  operations between the regions.
-/
import proofs.«180193_j36807869727213_1_alg».proof.Proof.Gen.KernelIdeal.Launch
import proofs.«180193_j36807869727213_1_alg».proof.Proof.Spec
import proofs.«180193_j36807869727213_1_alg».proof.Proof.HostMidLeaves

open Idealize.ShloMosaic Idealize.ShloMosaic.ValueIdx Cert.KernelIdeal Cert.KernelIdeal.Gen

namespace Cbn.Mid

set_option maxHeartbeats 4000000 in
theorem aIR_eq (W : Valuation τ sig (Elt Ideal)) (x : Cbn.SX.Idx → EReal)
    (h1 : ∀ c : Fin 64, (W (Proc.devRef .tc main_v0_0) : S1x64.Idx → EReal) (ix2 (0 : Fin 1) c) = Cbn.tot (Cbn.re x c))
    (h2 : ∀ c : Fin 64, (W (Proc.devRef .tc main_v0_1) : S1x64.Idx → EReal) (ix2 (0 : Fin 1) c) = Cbn.tot (Cbn.im x c))
    (h3 : ∀ c : Fin 64, (W (Proc.devRef .tc main_v0_2) : S1x64.Idx → EReal) (ix2 (0 : Fin 1) c)
      = Cbn.tot fun b h w => Cbn.re x c b h w * Cbn.re x c b h w)
    (h4 : ∀ c : Fin 64, (W (Proc.devRef .tc main_v0_3) : S1x64.Idx → EReal) (ix2 (0 : Fin 1) c)
      = Cbn.tot fun b h w => Cbn.re x c b h w * Cbn.im x c b h w)
    (h5 : ∀ c : Fin 64, (W (Proc.devRef .tc main_v0_4) : S1x64.Idx → EReal) (ix2 (0 : Fin 1) c)
      = Cbn.tot fun b h w => Cbn.im x c b h w * Cbn.im x c b h w) :
    (StableHlo.after (hostOps1 (F := Ideal)) W (Proc.devRef .tc main_v52) : S64.Idx → EReal)
      = fun i => Cbn.aIR x (W (Proc.devRef .tc main_arg2) : S64.Idx → EReal) (W (Proc.devRef .tc main_arg3) : S64.Idx → EReal) (i 0) := by
  after_results_simp
  rw [leaf0 W _ h1, leaf1 W _ h2, leaf2 W _ h3, leaf3 W _ h4, leaf4 W _ h5]
  funext i
  obtain ⟨c, rfl⟩ : ∃ c : Fin 64, i = ix1 c := ⟨i 0, eq_ix1 i⟩
  rfl

set_option maxHeartbeats 4000000 in
theorem aII_eq (W : Valuation τ sig (Elt Ideal)) (x : Cbn.SX.Idx → EReal)
    (h1 : ∀ c : Fin 64, (W (Proc.devRef .tc main_v0_0) : S1x64.Idx → EReal) (ix2 (0 : Fin 1) c) = Cbn.tot (Cbn.re x c))
    (h2 : ∀ c : Fin 64, (W (Proc.devRef .tc main_v0_1) : S1x64.Idx → EReal) (ix2 (0 : Fin 1) c) = Cbn.tot (Cbn.im x c))
    (h3 : ∀ c : Fin 64, (W (Proc.devRef .tc main_v0_2) : S1x64.Idx → EReal) (ix2 (0 : Fin 1) c)
      = Cbn.tot fun b h w => Cbn.re x c b h w * Cbn.re x c b h w)
    (h4 : ∀ c : Fin 64, (W (Proc.devRef .tc main_v0_3) : S1x64.Idx → EReal) (ix2 (0 : Fin 1) c)
      = Cbn.tot fun b h w => Cbn.re x c b h w * Cbn.im x c b h w)
    (h5 : ∀ c : Fin 64, (W (Proc.devRef .tc main_v0_4) : S1x64.Idx → EReal) (ix2 (0 : Fin 1) c)
      = Cbn.tot fun b h w => Cbn.im x c b h w * Cbn.im x c b h w) :
    (StableHlo.after (hostOps1 (F := Ideal)) W (Proc.devRef .tc main_v55) : S64.Idx → EReal)
      = fun i => Cbn.aII x (W (Proc.devRef .tc main_arg2) : S64.Idx → EReal) (W (Proc.devRef .tc main_arg3) : S64.Idx → EReal) (i 0) := by
  after_results_simp
  rw [leaf0 W _ h1, leaf1 W _ h2, leaf2 W _ h3, leaf3 W _ h4, leaf4 W _ h5]
  funext i
  obtain ⟨c, rfl⟩ : ∃ c : Fin 64, i = ix1 c := ⟨i 0, eq_ix1 i⟩
  rfl

end Cbn.Mid
-- ==== Proof.HostMidC.lean ====
/-
  The bias vector of the real part, beta_r - a_rr mu_r - a_ri mu_i, after the host operations between the regions.
-/
import proofs.«180193_j36807869727213_1_alg».proof.Proof.Gen.KernelIdeal.Launch
import proofs.«180193_j36807869727213_1_alg».proof.Proof.Spec
import proofs.«180193_j36807869727213_1_alg».proof.Proof.HostMidLeaves

open Idealize.ShloMosaic Idealize.ShloMosaic.ValueIdx Cert.KernelIdeal Cert.KernelIdeal.Gen

namespace Cbn.Mid

set_option maxHeartbeats 4000000 in
theorem bR_eq (W : Valuation τ sig (Elt Ideal)) (x : Cbn.SX.Idx → EReal)
    (h1 : ∀ c : Fin 64, (W (Proc.devRef .tc main_v0_0) : S1x64.Idx → EReal) (ix2 (0 : Fin 1) c) = Cbn.tot (Cbn.re x c))
    (h2 : ∀ c : Fin 64, (W (Proc.devRef .tc main_v0_1) : S1x64.Idx → EReal) (ix2 (0 : Fin 1) c) = Cbn.tot (Cbn.im x c))
    (h3 : ∀ c : Fin 64, (W (Proc.devRef .tc main_v0_2) : S1x64.Idx → EReal) (ix2 (0 : Fin 1) c)
      = Cbn.tot fun b h w => Cbn.re x c b h w * Cbn.re x c b h w)
    (h4 : ∀ c : Fin 64, (W (Proc.devRef .tc main_v0_3) : S1x64.Idx → EReal) (ix2 (0 : Fin 1) c)
      = Cbn.tot fun b h w => Cbn.re x c b h w * Cbn.im x c b h w)
    (h5 : ∀ c : Fin 64, (W (Proc.devRef .tc main_v0_4) : S1x64.Idx → EReal) (ix2 (0 : Fin 1) c)
      = Cbn.tot fun b h w => Cbn.im x c b h w * Cbn.im x c b h w) :
    (StableHlo.after (hostOps1 (F := Ideal)) W (Proc.devRef .tc main_v59) : S64.Idx → EReal)
      = fun i => Cbn.bR x (W (Proc.devRef .tc main_arg1) : S64.Idx → EReal) (W (Proc.devRef .tc main_arg3) : S64.Idx → EReal) (W (Proc.devRef .tc main_arg4) : S64.Idx → EReal) (i 0) := by
  after_results_simp
  rw [leaf0 W _ h1, leaf1 W _ h2, leaf2 W _ h3, leaf3 W _ h4, leaf4 W _ h5]
  funext i
  obtain ⟨c, rfl⟩ : ∃ c : Fin 64, i = ix1 c := ⟨i 0, eq_ix1 i⟩
  rfl

end Cbn.Mid
-- ==== Proof.HostMidD.lean ====
/-
  The bias vector of the imaginary part, beta_i - a_ir mu_r - a_ii mu_i, after the host operations between the regions.
-/
import proofs.«180193_j36807869727213_1_alg».proof.Proof.Gen.KernelIdeal.Launch
import proofs.«180193_j36807869727213_1_alg».proof.Proof.Spec
import proofs.«180193_j36807869727213_1_alg».proof.Proof.HostMidLeaves

open Idealize.ShloMosaic Idealize.ShloMosaic.ValueIdx Cert.KernelIdeal Cert.KernelIdeal.Gen

namespace Cbn.Mid

set_option maxHeartbeats 4000000 in
theorem bI_eq (W : Valuation τ sig (Elt Ideal)) (x : Cbn.SX.Idx → EReal)
    (h1 : ∀ c : Fin 64, (W (Proc.devRef .tc main_v0_0) : S1x64.Idx → EReal) (ix2 (0 : Fin 1) c) = Cbn.tot (Cbn.re x c))
    (h2 : ∀ c : Fin 64, (W (Proc.devRef .tc main_v0_1) : S1x64.Idx → EReal) (ix2 (0 : Fin 1) c) = Cbn.tot (Cbn.im x c))
    (h3 : ∀ c : Fin 64, (W (Proc.devRef .tc main_v0_2) : S1x64.Idx → EReal) (ix2 (0 : Fin 1) c)
      = Cbn.tot fun b h w => Cbn.re x c b h w * Cbn.re x c b h w)
    (h4 : ∀ c : Fin 64, (W (Proc.devRef .tc main_v0_3) : S1x64.Idx → EReal) (ix2 (0 : Fin 1) c)
      = Cbn.tot fun b h w => Cbn.re x c b h w * Cbn.im x c b h w)
    (h5 : ∀ c : Fin 64, (W (Proc.devRef .tc main_v0_4) : S1x64.Idx → EReal) (ix2 (0 : Fin 1) c)
      = Cbn.tot fun b h w => Cbn.im x c b h w * Cbn.im x c b h w) :
    (StableHlo.after (hostOps1 (F := Ideal)) W (Proc.devRef .tc main_v63) : S64.Idx → EReal)
      = fun i => Cbn.bI x (W (Proc.devRef .tc main_arg2) : S64.Idx → EReal) (W (Proc.devRef .tc main_arg3) : S64.Idx → EReal) (W (Proc.devRef .tc main_arg5) : S64.Idx → EReal) (i 0) := by
  after_results_simp
  rw [leaf0 W _ h1, leaf1 W _ h2, leaf2 W _ h3, leaf3 W _ h4, leaf4 W _ h5]
  funext i
  obtain ⟨c, rfl⟩ : ∃ c : Fin 64, i = ix1 c := ⟨i 0, eq_ix1 i⟩
  rfl

end Cbn.Mid
-- ==== Proof.HostMid.lean ====
/-
  The host operations between the two regions, as a whole: from the five moment arrays (sums of re, im, re*re, re*im,
  im*im per channel) they compute the six per-channel coefficient vectors of the one-pass form's affine map, and leave
  the data array as it was.
-/
import proofs.«180193_j36807869727213_1_alg».proof.Proof.HostMidA
import proofs.«180193_j36807869727213_1_alg».proof.Proof.HostMidB
import proofs.«180193_j36807869727213_1_alg».proof.Proof.HostMidC
import proofs.«180193_j36807869727213_1_alg».proof.Proof.HostMidD

open Idealize.ShloMosaic Idealize.ShloMosaic.ValueIdx Cert.KernelIdeal Cert.KernelIdeal.Gen

namespace Cbn.Mid

/-- No operation of the stretch writes the data array. -/
theorem arg0_eq (W : Valuation τ sig (Elt Ideal)) :
    StableHlo.after (hostOps1 (F := Ideal)) W (Proc.devRef .tc main_arg0) = W (Proc.devRef .tc main_arg0) := by
  after_results_simp

/-- The six coefficient vectors after the stretch are the one-pass form's, and the data array is unchanged. -/
theorem coeffs (W : Valuation τ sig (Elt Ideal)) (x : Cbn.SX.Idx → EReal)
    (h1 : ∀ c : Fin 64, (W (Proc.devRef .tc main_v0_0) : S1x64.Idx → EReal) (ix2 (0 : Fin 1) c) = Cbn.tot (Cbn.re x c))
    (h2 : ∀ c : Fin 64, (W (Proc.devRef .tc main_v0_1) : S1x64.Idx → EReal) (ix2 (0 : Fin 1) c) = Cbn.tot (Cbn.im x c))
    (h3 : ∀ c : Fin 64, (W (Proc.devRef .tc main_v0_2) : S1x64.Idx → EReal) (ix2 (0 : Fin 1) c)
      = Cbn.tot fun b h w => Cbn.re x c b h w * Cbn.re x c b h w)
    (h4 : ∀ c : Fin 64, (W (Proc.devRef .tc main_v0_3) : S1x64.Idx → EReal) (ix2 (0 : Fin 1) c)
      = Cbn.tot fun b h w => Cbn.re x c b h w * Cbn.im x c b h w)
    (h5 : ∀ c : Fin 64, (W (Proc.devRef .tc main_v0_4) : S1x64.Idx → EReal) (ix2 (0 : Fin 1) c)
      = Cbn.tot fun b h w => Cbn.im x c b h w * Cbn.im x c b h w) :
    (StableHlo.after (hostOps1 (F := Ideal)) W (Proc.devRef .tc main_v46) : S64.Idx → EReal)
        = (fun i => Cbn.aRR x (W (Proc.devRef .tc main_arg1) : S64.Idx → EReal) (W (Proc.devRef .tc main_arg3) : S64.Idx → EReal) (i 0))
    ∧ (StableHlo.after (hostOps1 (F := Ideal)) W (Proc.devRef .tc main_v49) : S64.Idx → EReal)
        = (fun i => Cbn.aRI x (W (Proc.devRef .tc main_arg1) : S64.Idx → EReal) (W (Proc.devRef .tc main_arg3) : S64.Idx → EReal) (i 0))
    ∧ (StableHlo.after (hostOps1 (F := Ideal)) W (Proc.devRef .tc main_v52) : S64.Idx → EReal)
        = (fun i => Cbn.aIR x (W (Proc.devRef .tc main_arg2) : S64.Idx → EReal) (W (Proc.devRef .tc main_arg3) : S64.Idx → EReal) (i 0))
    ∧ (StableHlo.after (hostOps1 (F := Ideal)) W (Proc.devRef .tc main_v55) : S64.Idx → EReal)
        = (fun i => Cbn.aII x (W (Proc.devRef .tc main_arg2) : S64.Idx → EReal) (W (Proc.devRef .tc main_arg3) : S64.Idx → EReal) (i 0))
    ∧ (StableHlo.after (hostOps1 (F := Ideal)) W (Proc.devRef .tc main_v59) : S64.Idx → EReal)
        = (fun i => Cbn.bR x (W (Proc.devRef .tc main_arg1) : S64.Idx → EReal) (W (Proc.devRef .tc main_arg3) : S64.Idx → EReal) (W (Proc.devRef .tc main_arg4) : S64.Idx → EReal) (i 0))
    ∧ (StableHlo.after (hostOps1 (F := Ideal)) W (Proc.devRef .tc main_v63) : S64.Idx → EReal)
        = (fun i => Cbn.bI x (W (Proc.devRef .tc main_arg2) : S64.Idx → EReal) (W (Proc.devRef .tc main_arg3) : S64.Idx → EReal) (W (Proc.devRef .tc main_arg5) : S64.Idx → EReal) (i 0))
    ∧ StableHlo.after (hostOps1 (F := Ideal)) W (Proc.devRef .tc main_arg0) = W (Proc.devRef .tc main_arg0) :=
  ⟨aRR_eq W x h1 h2 h3 h4 h5, aRI_eq W x h1 h2 h3 h4 h5, aIR_eq W x h1 h2 h3 h4 h5, aII_eq W x h1 h2 h3 h4 h5,
    bR_eq W x h1 h2 h3 h4 h5, bI_eq W x h1 h2 h3 h4 h5, arg0_eq W⟩

end Cbn.Mid
-- ==== Proof.AffineLayout.lean ====
/-
  The layout operations of the affine block's arithmetic, each read at explicit coordinates.

  A block x[0, c, h, w, p] of the data is split into its two parts (p = 0 and p = 1) as [64, 32, 256] arrays, a per-channel
  coefficient a[c] is spread over (h, w), and the two results are stacked back along a last axis of extent 2 under a
  leading unit axis. Every statement says which element of the operand an element of the result is.
-/
import Idealize.ShloMosaic.Lib.Pipeline.Value
import Idealize.ShloMosaic.Lib.ValueIdx

namespace Cbn.K1

open Idealize.ShloMosaic Idealize.ShloMosaic.ValueIdx

/-- The shapes the block's arithmetic passes through. -/
abbrev B5 : Shape := ⟨5, ![1, 64, 32, 256, 2]⟩
abbrev B51 : Shape := ⟨5, ![1, 64, 32, 256, 1]⟩
abbrev B3 : Shape := ⟨3, ![64, 32, 256]⟩
abbrev C1 : Shape := ⟨1, ![64]⟩
abbrev C3 : Shape := ⟨3, ![64, 1, 1]⟩
abbrev B41 : Shape := ⟨4, ![64, 32, 256, 1]⟩
abbrev B4 : Shape := ⟨4, ![64, 32, 256, 2]⟩

variable {α : Type}

/-- The part p = 0 of a block as a [64, 32, 256] array: element (c, h, w) is x[0, c, h, w, 0]. -/
theorem part0_apply (x : B5.Idx → α) (hs : B5.Slices ![0, 0, 0, 0, 0] B51) (hc : B51.ShapeCasts B3)
    (c : Fin 64) (h : Fin 32) (w : Fin 256) :
    shapeCast B3 (extractStridedSlice B51 ![0, 0, 0, 0, 0] x hs) hc (ix3 c h w) = x (ix5 (0 : Fin 1) c h w (0 : Fin 2)) :=
  (shapeCast_apply _ hc (ix3 c h w) (ix5 (0 : Fin 1) c h w (0 : Fin 1)) (by
    rw [Shape.rowMajor_val_five, Shape.rowMajor_val_three]
    show ((((0 * 64 + c.val) * 32 + h.val) * 256 + w.val) * 1 + 0 = (c.val * 32 + h.val) * 256 + w.val)
    omega)).trans
  (extractStridedSlice_apply ![0, 0, 0, 0, 0] x hs (ix5 (0 : Fin 1) c h w (0 : Fin 1)) (ix5 (0 : Fin 1) c h w (0 : Fin 2)) (fun a => by
    match a with
    | ⟨0, _⟩ => rfl
    | ⟨1, _⟩ => exact (Nat.zero_add _).symm
    | ⟨2, _⟩ => exact (Nat.zero_add _).symm
    | ⟨3, _⟩ => exact (Nat.zero_add _).symm
    | ⟨4, _⟩ => rfl))

/-- The part p = 1 of a block as a [64, 32, 256] array: element (c, h, w) is x[0, c, h, w, 1]. -/
theorem part1_apply (x : B5.Idx → α) (hs : B5.Slices ![0, 0, 0, 0, 1] B51) (hc : B51.ShapeCasts B3)
    (c : Fin 64) (h : Fin 32) (w : Fin 256) :
    shapeCast B3 (extractStridedSlice B51 ![0, 0, 0, 0, 1] x hs) hc (ix3 c h w) = x (ix5 (0 : Fin 1) c h w (1 : Fin 2)) :=
  (shapeCast_apply _ hc (ix3 c h w) (ix5 (0 : Fin 1) c h w (0 : Fin 1)) (by
    rw [Shape.rowMajor_val_five, Shape.rowMajor_val_three]
    show ((((0 * 64 + c.val) * 32 + h.val) * 256 + w.val) * 1 + 0 = (c.val * 32 + h.val) * 256 + w.val)
    omega)).trans
  (extractStridedSlice_apply ![0, 0, 0, 0, 1] x hs (ix5 (0 : Fin 1) c h w (0 : Fin 1)) (ix5 (0 : Fin 1) c h w (1 : Fin 2)) (fun a => by
    match a with
    | ⟨0, _⟩ => rfl
    | ⟨1, _⟩ => exact (Nat.zero_add _).symm
    | ⟨2, _⟩ => exact (Nat.zero_add _).symm
    | ⟨3, _⟩ => exact (Nat.zero_add _).symm
    | ⟨4, _⟩ => rfl))

/-- A per-channel coefficient spread over (h, w): element (c, h, w) is a[c]. -/
theorem spread_apply (a : C1.Idx → α) (h1 : C1.ShapeCasts C1) (h2 : C1.ShapeCasts C3) (hb : C3.Broadcasts B3)
    (c : Fin 64) (h : Fin 32) (w : Fin 256) :
    broadcastTo B3 (shapeCast C3 (shapeCast C1 a h1) h2) hb (ix3 c h w) = a (ix1 c) :=
  (broadcastTo_apply _ hb (ix3 c h w) (ix3 c (0 : Fin 1) (0 : Fin 1)) (fun i => by
    match i with
    | ⟨0, _⟩ => rfl
    | ⟨1, _⟩ => rfl
    | ⟨2, _⟩ => rfl)).trans
  ((shapeCast_apply _ h2 (ix3 c (0 : Fin 1) (0 : Fin 1)) (ix1 c) (by
    rw [Shape.rowMajor_val_one, Shape.rowMajor_val_three]
    show c.val = (c.val * 1 + 0) * 1 + 0
    omega)).trans
  (congrFun (shapeCast_self a h1) (ix1 c)))

/-- A [64, 32, 256] array under a trailing unit axis: element (c, h, w, 0) is element (c, h, w). -/
theorem trail_apply (v : B3.Idx → α) (hc : B3.ShapeCasts B41) (c : Fin 64) (h : Fin 32) (w : Fin 256) :
    shapeCast B41 v hc (ix4 c h w (0 : Fin 1)) = v (ix3 c h w) :=
  shapeCast_apply _ hc (ix4 c h w (0 : Fin 1)) (ix3 c h w) (by
    rw [Shape.rowMajor_val_three, Shape.rowMajor_val_four]
    show (c.val * 32 + h.val) * 256 + w.val = ((c.val * 32 + h.val) * 256 + w.val) * 1 + 0
    omega)

/-- Two such arrays stacked along the last axis, read in the first … -/
theorem stack0_apply (u v : B41.Idx → α) (hcat : Shape.Concatenates [B41, B41] B4 3) (c : Fin 64) (h : Fin 32) (w : Fin 256) :
    concatenate B4 3 [⟨B41, u⟩, ⟨B41, v⟩] hcat (ix4 c h w (0 : Fin 2)) = u (ix4 c h w (0 : Fin 1)) :=
  concatenate_pair_apply_left 3 u v hcat (ix4 c h w (0 : Fin 2)) rfl (ix4 c h w (0 : Fin 1)) (fun b => by
    match b with
    | ⟨0, _⟩ => rfl
    | ⟨1, _⟩ => rfl
    | ⟨2, _⟩ => rfl
    | ⟨3, _⟩ => rfl)

/-- … and in the second. -/
theorem stack1_apply (u v : B41.Idx → α) (hcat : Shape.Concatenates [B41, B41] B4 3) (c : Fin 64) (h : Fin 32) (w : Fin 256) :
    concatenate B4 3 [⟨B41, u⟩, ⟨B41, v⟩] hcat (ix4 c h w (1 : Fin 2)) = v (ix4 c h w (0 : Fin 1)) :=
  concatenate_pair_apply_right 3 u v hcat (ix4 c h w (1 : Fin 2)) rfl rfl (ix4 c h w (0 : Fin 1)) (fun b hb => by
    match b with
    | ⟨0, _⟩ => rfl
    | ⟨1, _⟩ => rfl
    | ⟨2, _⟩ => rfl
    | ⟨3, _⟩ => exact absurd rfl hb) rfl

/-- A [64, 32, 256, 2] array under a leading unit axis: element (0, c, h, w, p) is element (c, h, w, p). -/
theorem lead_apply (v : B4.Idx → α) (hc : B4.ShapeCasts B5) (c : Fin 64) (h : Fin 32) (w : Fin 256) (p : Fin 2) :
    shapeCast B5 v hc (ix5 (0 : Fin 1) c h w p) = v (ix4 c h w p) :=
  shapeCast_apply _ hc (ix5 (0 : Fin 1) c h w p) (ix4 c h w p) (by
    rw [Shape.rowMajor_val_four, Shape.rowMajor_val_five]
    show ((c.val * 32 + h.val) * 256 + w.val) * 2 + p.val = ((((0 * 64 + c.val) * 32 + h.val) * 256 + w.val) * 2 + p.val)
    omega)

end Cbn.K1
-- ==== Proof.AffinePayload.lean ====
/-
  The affine block's arithmetic read at an index: for a block x[0, c, h, w, p] of the data and six per-channel coefficient
  vectors, the element (0, c, h, w, 0) of the result is (a1[c] * x[0,c,h,w,0] + a2[c] * x[0,c,h,w,1]) + a5[c] and the element
  (0, c, h, w, 1) is (a3[c] * x[0,c,h,w,0] + a4[c] * x[0,c,h,w,1]) + a6[c].
-/
import proofs.«180193_j36807869727213_1_alg».proof.Proof.Gen.KernelIdeal.Skeleton
import proofs.«180193_j36807869727213_1_alg».proof.Proof.AffineLayout

noncomputable section

namespace Cbn.K1

open Idealize.ShloMosaic Idealize.ShloMosaic.ValueIdx Cert.KernelIdeal Cert.KernelIdeal.Gen

/-- The first component of the block's result. -/
theorem pay_re (x0 : Vec Ideal S1x64x32x256x2 .f32) (a1 a2 a3 a4 a5 a6 : Vec Ideal S64 .f32)
    (c : Fin 64) (h : Fin 32) (w : Fin 256) :
    k1_pay1 x0 a1 a2 a3 a4 a5 a6 (ix5 (0 : Fin 1) c h w (0 : Fin 2))
      = (a1 (ix1 c) * x0 (ix5 (0 : Fin 1) c h w (0 : Fin 2)) + a2 (ix1 c) * x0 (ix5 (0 : Fin 1) c h w (1 : Fin 2))) + a5 (ix1 c) := by
  unfold k1_pay1
  refine (lead_apply _ _ c h w (0 : Fin 2)).trans ?_
  refine (stack0_apply _ _ _ c h w).trans ?_
  refine (trail_apply _ _ c h w).trans ?_
  exact congrArg₂ (· + ·)
    (congrArg₂ (· + ·)
      (congrArg₂ (· * ·) (spread_apply a1 _ _ _ c h w) (part0_apply x0 _ _ c h w))
      (congrArg₂ (· * ·) (spread_apply a2 _ _ _ c h w) (part1_apply x0 _ _ c h w)))
    (spread_apply a5 _ _ _ c h w)

/-- The second component of the block's result. -/
theorem pay_im (x0 : Vec Ideal S1x64x32x256x2 .f32) (a1 a2 a3 a4 a5 a6 : Vec Ideal S64 .f32)
    (c : Fin 64) (h : Fin 32) (w : Fin 256) :
    k1_pay1 x0 a1 a2 a3 a4 a5 a6 (ix5 (0 : Fin 1) c h w (1 : Fin 2))
      = (a3 (ix1 c) * x0 (ix5 (0 : Fin 1) c h w (0 : Fin 2)) + a4 (ix1 c) * x0 (ix5 (0 : Fin 1) c h w (1 : Fin 2))) + a6 (ix1 c) := by
  unfold k1_pay1
  refine (lead_apply _ _ c h w (1 : Fin 2)).trans ?_
  refine (stack1_apply _ _ _ c h w).trans ?_
  refine (trail_apply _ _ c h w).trans ?_
  exact congrArg₂ (· + ·)
    (congrArg₂ (· + ·)
      (congrArg₂ (· * ·) (spread_apply a3 _ _ _ c h w) (part0_apply x0 _ _ c h w))
      (congrArg₂ (· * ·) (spread_apply a4 _ _ _ c h w) (part1_apply x0 _ _ c h w)))
    (spread_apply a6 _ _ _ c h w)

/-- Both components at once. -/
theorem pay_apply (x0 : Vec Ideal S1x64x32x256x2 .f32) (a1 a2 a3 a4 a5 a6 : Vec Ideal S64 .f32)
    (c : Fin 64) (h : Fin 32) (w : Fin 256) (p : Fin 2) :
    k1_pay1 x0 a1 a2 a3 a4 a5 a6 (ix5 (0 : Fin 1) c h w p)
      = if p.val = 0 then (a1 (ix1 c) * x0 (ix5 (0 : Fin 1) c h w (0 : Fin 2)) + a2 (ix1 c) * x0 (ix5 (0 : Fin 1) c h w (1 : Fin 2))) + a5 (ix1 c)
        else (a3 (ix1 c) * x0 (ix5 (0 : Fin 1) c h w (0 : Fin 2)) + a4 (ix1 c) * x0 (ix5 (0 : Fin 1) c h w (1 : Fin 2))) + a6 (ix1 c) := by
  match p with
  | ⟨0, _⟩ => exact (pay_re x0 a1 a2 a3 a4 a5 a6 c h w).trans (if_pos rfl).symm
  | ⟨1, _⟩ => exact (pay_im x0 a1 a2 a3 a4 a5 a6 c h w).trans (if_neg Nat.one_ne_zero).symm

end Cbn.K1

end
-- ==== Proof.AffineBlock.lean ====
/-
  A block of the data under the affine map. If the block's element (0, c, h, w, p) is X[b, c, o + h, w, p] and the six
  loaded coefficient vectors agree entry by entry with A1 … A6, then the element (0, c, h, w, p) of the block's result is
  the affine map of X (Spec.lean `affOut`) at (b, c, o + h, w, p).
-/
import proofs.«180193_j36807869727213_1_alg».proof.Proof.AffinePayload
import proofs.«180193_j36807869727213_1_alg».proof.Proof.Spec

noncomputable section

namespace Cbn.K1

open Idealize.ShloMosaic Idealize.ShloMosaic.ValueIdx Cert.KernelIdeal Cert.KernelIdeal.Gen

theorem block_affine (x0 : Vec Ideal S1x64x32x256x2 .f32) (a1 a2 a3 a4 a5 a6 : Vec Ideal S64 .f32)
    (X : SX.Idx → EReal) (A1 A2 A3 A4 A5 A6 : SC.Idx → EReal) (b : Fin 8) (o : Nat) (ho : o + 32 ≤ 256)
    (hx : ∀ (c : Fin 64) (h : Fin 32) (w : Fin 256) (p : Fin 2),
      x0 (ix5 (0 : Fin 1) c h w p) = X (ix5 b c (⟨o + h.val, by have := h.isLt; omega⟩ : Fin 256) w p))
    (h1 : ∀ c : Fin 64, a1 (ix1 c) = A1 (ix1 c)) (h2 : ∀ c : Fin 64, a2 (ix1 c) = A2 (ix1 c))
    (h3 : ∀ c : Fin 64, a3 (ix1 c) = A3 (ix1 c)) (h4 : ∀ c : Fin 64, a4 (ix1 c) = A4 (ix1 c))
    (h5 : ∀ c : Fin 64, a5 (ix1 c) = A5 (ix1 c)) (h6 : ∀ c : Fin 64, a6 (ix1 c) = A6 (ix1 c))
    (c : Fin 64) (h : Fin 32) (w : Fin 256) (p : Fin 2) :
    k1_pay1 x0 a1 a2 a3 a4 a5 a6 (ix5 (0 : Fin 1) c h w p)
      = affOut X A1 A2 A3 A4 A5 A6 (ix5 b c (⟨o + h.val, by have := h.isLt; omega⟩ : Fin 256) w p) := by
  rw [pay_apply, hx c h w (0 : Fin 2), hx c h w (1 : Fin 2), h1, h2, h3, h4, h5, h6]
  rfl

end Cbn.K1

end
-- ==== Proof.AffineArray.lean ====
/-
  The affine pass over the whole array. The grid has 8 x 8 points; point t = 8 * b + g reads the block
  x[b, :, 32 * g … 32 * g + 31, :, :] of the data and the six whole coefficient vectors, and writes back the block of the
  result at the same place. Every block written is the restriction of ONE whole-array function, the affine map of the
  data (Spec.lean `affOut`), and the 64 blocks cover the array: so the array ends holding that function.
-/
import proofs.«180193_j36807869727213_1_alg».proof.Proof.Gen.KernelIdeal.Frame
import proofs.«180193_j36807869727213_1_alg».proof.Proof.AffineBlock
import Idealize.ShloMosaic.Lib.Pipeline.Value

set_option maxRecDepth 16384

noncomputable section

namespace Cbn.K1

open Cert.KernelIdeal Cert.KernelIdeal.Gen Idealize.ShloMosaic Idealize.ShloMosaic.TcCoe Idealize.SL.Sem
open Idealize.ShloMosaic.ValueIdx
open Idealize.ShloMosaic.Pipeline (Dat)

theorem hz5 : (![0, 0, 0, 0, 0] : Fin 5 → Nat) = fun _ => 0 := funext fun a => by fin_cases a <;> rfl
theorem hz1 : (![0] : Fin 1 → Nat) = fun _ => 0 := funext fun a => by fin_cases a <;> rfl

/-- The block index maps at point t, decided over the 64 points: the data block and the result block sit at
    (t / 8, 0, t % 8, 0, 0); every coefficient vector is its one whole block. -/
theorem idx_facts : ∀ t : Fin cfg1.N,
    win1_0.index t (0 : Fin 5) = t.val / 8 ∧ win1_0.index t (1 : Fin 5) = 0 ∧ win1_0.index t (2 : Fin 5) = t.val % 8
    ∧ win1_0.index t (3 : Fin 5) = 0 ∧ win1_0.index t (4 : Fin 5) = 0
    ∧ win1_7.index t (0 : Fin 5) = t.val / 8 ∧ win1_7.index t (1 : Fin 5) = 0 ∧ win1_7.index t (2 : Fin 5) = t.val % 8
    ∧ win1_7.index t (3 : Fin 5) = 0 ∧ win1_7.index t (4 : Fin 5) = 0
    ∧ win1_1.index t (0 : Fin 1) = 0 ∧ win1_2.index t (0 : Fin 1) = 0 ∧ win1_3.index t (0 : Fin 1) = 0
    ∧ win1_4.index t (0 : Fin 1) = 0 ∧ win1_5.index t (0 : Fin 1) = 0 ∧ win1_6.index t (0 : Fin 1) = 0 :=
  (by decide +kernel : ∀ t : Fin grid1.N, _)

/-- Every index of a block is (0, c, h, w, p). -/
theorem exists_coords (j : S1x64x32x256x2.Idx) :
    ∃ (cc : Fin 64) (h : Fin 32) (w : Fin 256) (p : Fin 2), j = ix5 (0 : Fin 1) cc h w p :=
  ⟨j 1, j 2, j 3, j 4, funext fun a => by
    match a with
    | ⟨0, h0⟩ =>
      have hlt : (j ⟨0, h0⟩).val < 1 := (j ⟨0, h0⟩).isLt
      exact Fin.ext (by show (j ⟨0, h0⟩).val = 0; omega)
    | ⟨1, _⟩ => rfl
    | ⟨2, _⟩ => rfl
    | ⟨3, _⟩ => rfl
    | ⟨4, _⟩ => rfl⟩

section Region
variable (V : (c : Dev nD) → (b : Ref sig .tc) → Buf (Elt Ideal) ((c : Thread nD τ).loc b))

/-- The data block at point t: its element (0, c, h, w, p) is the array's at (t / 8, c, 32 * (t % 8) + h, w, p). -/
theorem data_block (c : Dev nD) (t : Fin cfg1.N) (hb : t.val / 8 < 8) (ho : 32 * (t.val % 8) + 32 ≤ 256)
    (cc : Fin 64) (h : Fin 32) (w : Fin 256) (p : Fin 2) :
    (iblk1 V c 0 t : Vec Ideal S1x64x32x256x2 .f32) (ix5 (0 : Fin 1) cc h w p)
      = (V c (Pipeline.arrRef spec1 0) : SX.Idx → EReal)
          (ix5 (⟨t.val / 8, hb⟩ : Fin 8) cc (⟨32 * (t.val % 8) + h.val, by have := h.isLt; omega⟩ : Fin 256) w p) := by
  obtain ⟨e0, e1, e2, e3, e4, -⟩ := idx_facts t
  show V c (Pipeline.arrRef spec1 0) (((cfg1.win 0).blk t).view.emb (ix5 (0 : Fin 1) cc h w p)) = _
  refine congrArg (V c (Pipeline.arrRef spec1 0)) (funext fun a => Fin.ext ?_)
  match a with
  | ⟨0, _⟩ => show win1_0.index t (0 : Fin 5) * 1 + 1 * 0 = t.val / 8; omega
  | ⟨1, _⟩ => show win1_0.index t (1 : Fin 5) * 64 + 1 * cc.val = cc.val; omega
  | ⟨2, _⟩ => show win1_0.index t (2 : Fin 5) * 32 + 1 * h.val = 32 * (t.val % 8) + h.val; omega
  | ⟨3, _⟩ => show win1_0.index t (3 : Fin 5) * 256 + 1 * w.val = w.val; omega
  | ⟨4, _⟩ => show win1_0.index t (4 : Fin 5) * 2 + 1 * p.val = p.val; omega

/-! The coefficient blocks at point t are the whole coefficient vectors. -/

theorem coef_block1 (c : Dev nD) (t : Fin cfg1.N) (cc : Fin 64) :
    (iblk1 V c 1 t : Vec Ideal S64 .f32) (ix1 cc) = (V c (Pipeline.arrRef spec1 1) : SC.Idx → EReal) (ix1 cc) := by
  obtain ⟨-, -, -, -, -, -, -, -, -, -, e1, e2, e3, e4, e5, e6⟩ := idx_facts t
  show V c (Pipeline.arrRef spec1 1) (((cfg1.win 1).blk t).view.emb (ix1 cc)) = _
  refine congrArg (V c (Pipeline.arrRef spec1 1)) (funext fun a => Fin.ext ?_)
  match a with
  | ⟨0, _⟩ => show win1_1.index t (0 : Fin 1) * 64 + 1 * cc.val = cc.val; omega

theorem coef_block2 (c : Dev nD) (t : Fin cfg1.N) (cc : Fin 64) :
    (iblk1 V c 2 t : Vec Ideal S64 .f32) (ix1 cc) = (V c (Pipeline.arrRef spec1 2) : SC.Idx → EReal) (ix1 cc) := by
  obtain ⟨-, -, -, -, -, -, -, -, -, -, e1, e2, e3, e4, e5, e6⟩ := idx_facts t
  show V c (Pipeline.arrRef spec1 2) (((cfg1.win 2).blk t).view.emb (ix1 cc)) = _
  refine congrArg (V c (Pipeline.arrRef spec1 2)) (funext fun a => Fin.ext ?_)
  match a with
  | ⟨0, _⟩ => show win1_2.index t (0 : Fin 1) * 64 + 1 * cc.val = cc.val; omega

theorem coef_block3 (c : Dev nD) (t : Fin cfg1.N) (cc : Fin 64) :
    (iblk1 V c 3 t : Vec Ideal S64 .f32) (ix1 cc) = (V c (Pipeline.arrRef spec1 3) : SC.Idx → EReal) (ix1 cc) := by
  obtain ⟨-, -, -, -, -, -, -, -, -, -, e1, e2, e3, e4, e5, e6⟩ := idx_facts t
  show V c (Pipeline.arrRef spec1 3) (((cfg1.win 3).blk t).view.emb (ix1 cc)) = _
  refine congrArg (V c (Pipeline.arrRef spec1 3)) (funext fun a => Fin.ext ?_)
  match a with
  | ⟨0, _⟩ => show win1_3.index t (0 : Fin 1) * 64 + 1 * cc.val = cc.val; omega

theorem coef_block4 (c : Dev nD) (t : Fin cfg1.N) (cc : Fin 64) :
    (iblk1 V c 4 t : Vec Ideal S64 .f32) (ix1 cc) = (V c (Pipeline.arrRef spec1 4) : SC.Idx → EReal) (ix1 cc) := by
  obtain ⟨-, -, -, -, -, -, -, -, -, -, e1, e2, e3, e4, e5, e6⟩ := idx_facts t
  show V c (Pipeline.arrRef spec1 4) (((cfg1.win 4).blk t).view.emb (ix1 cc)) = _
  refine congrArg (V c (Pipeline.arrRef spec1 4)) (funext fun a => Fin.ext ?_)
  match a with
  | ⟨0, _⟩ => show win1_4.index t (0 : Fin 1) * 64 + 1 * cc.val = cc.val; omega

theorem coef_block5 (c : Dev nD) (t : Fin cfg1.N) (cc : Fin 64) :
    (iblk1 V c 5 t : Vec Ideal S64 .f32) (ix1 cc) = (V c (Pipeline.arrRef spec1 5) : SC.Idx → EReal) (ix1 cc) := by
  obtain ⟨-, -, -, -, -, -, -, -, -, -, e1, e2, e3, e4, e5, e6⟩ := idx_facts t
  show V c (Pipeline.arrRef spec1 5) (((cfg1.win 5).blk t).view.emb (ix1 cc)) = _
  refine congrArg (V c (Pipeline.arrRef spec1 5)) (funext fun a => Fin.ext ?_)
  match a with
  | ⟨0, _⟩ => show win1_5.index t (0 : Fin 1) * 64 + 1 * cc.val = cc.val; omega

theorem coef_block6 (c : Dev nD) (t : Fin cfg1.N) (cc : Fin 64) :
    (iblk1 V c 6 t : Vec Ideal S64 .f32) (ix1 cc) = (V c (Pipeline.arrRef spec1 6) : SC.Idx → EReal) (ix1 cc) := by
  obtain ⟨-, -, -, -, -, -, -, -, -, -, e1, e2, e3, e4, e5, e6⟩ := idx_facts t
  show V c (Pipeline.arrRef spec1 6) (((cfg1.win 6).blk t).view.emb (ix1 cc)) = _
  refine congrArg (V c (Pipeline.arrRef spec1 6)) (funext fun a => Fin.ext ?_)
  match a with
  | ⟨0, _⟩ => show win1_6.index t (0 : Fin 1) * 64 + 1 * cc.val = cc.val; omega

/-- What the block arithmetic leaves in the result's staging buffer at point t: the arithmetic of the seven input blocks
    (the one store covers the buffer, every load reads a whole block). -/
theorem after_eq (c : Dev nD) (t : Fin cfg1.N) :
    (dat1 (F := Ideal) V c).after 7 t
      = k1_pay1 (iblk1 V c 0 t) (iblk1 V c 1 t) (iblk1 V c 2 t) (iblk1 V c 3 t) (iblk1 V c 4 t) (iblk1 V c 5 t) (iblk1 V c 6 t) := by
  rw [after1_7]
  unfold out1_7
  rw [View.canon_unit_zero hz5]
  simp only [View.ld_unit_zero (S := S1x64x32x256x2) hz5, View.ld_unit_zero (S := S64) hz1]

set_option maxHeartbeats 1000000 in
/-- WHAT POINT t WRITES BACK is block t of the affine map of the data as the pass finds it. -/
theorem flushed_eq (c : Dev nD) (t : Fin cfg1.N) :
    (dat1 (F := Ideal) V c).flushed 7 t
      = ((cfg1.win 7).blk t).view.read (Elt Ideal) (affOut (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6))) := by
  have hN : t.val < 64 := lt_of_lt_of_eq t.isLt (show cfg1.N = 64 from N_1)
  have hb : t.val / 8 < 8 := by omega
  have ho : 32 * (t.val % 8) + 32 ≤ 256 := by omega
  show (cfg1.win 7).cut (grid1.coords t) ((dat1 (F := Ideal) V c).after 7 t) = _
  rw [after_eq]
  funext j
  obtain ⟨cc, h, w, p, rfl⟩ := exists_coords j
  show k1_pay1 (iblk1 V c 0 t) (iblk1 V c 1 t) (iblk1 V c 2 t) (iblk1 V c 3 t) (iblk1 V c 4 t) (iblk1 V c 5 t) (iblk1 V c 6 t)
      (ix5 (0 : Fin 1) cc h w p)
    = (affOut (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6))) (((cfg1.win 7).blk t).view.emb (ix5 (0 : Fin 1) cc h w p))
  refine (block_affine (iblk1 V c 0 t) (iblk1 V c 1 t) (iblk1 V c 2 t) (iblk1 V c 3 t) (iblk1 V c 4 t) (iblk1 V c 5 t) (iblk1 V c 6 t)
    (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6))
    (⟨t.val / 8, hb⟩ : Fin 8) (32 * (t.val % 8)) ho (data_block V c t hb ho)
    (coef_block1 V c t) (coef_block2 V c t) (coef_block3 V c t) (coef_block4 V c t) (coef_block5 V c t) (coef_block6 V c t)
    cc h w p).trans ?_
  obtain ⟨-, -, -, -, -, e0, e1, e2, e3, e4, -⟩ := idx_facts t
  refine congrArg (affOut (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6))) (funext fun a => Fin.ext ?_)
  match a with
  | ⟨0, _⟩ => show t.val / 8 = win1_7.index t (0 : Fin 5) * 1 + 1 * 0; omega
  | ⟨1, _⟩ => show cc.val = win1_7.index t (1 : Fin 5) * 64 + 1 * cc.val; omega
  | ⟨2, _⟩ => show 32 * (t.val % 8) + h.val = win1_7.index t (2 : Fin 5) * 32 + 1 * h.val; omega
  | ⟨3, _⟩ => show w.val = win1_7.index t (3 : Fin 5) * 256 + 1 * w.val; omega
  | ⟨4, _⟩ => show p.val = win1_7.index t (4 : Fin 5) * 2 + 1 * p.val; omega

/-- An index of the array is in point t's block iff each coordinate is in the block's range on its axis. -/
theorem mem_blk (t : Fin cfg1.N) (i : S8x64x256x256x2.Idx) :
    i ∈ ((cfg1.win 7).blk t).view.set ↔ ∀ a : Fin 5, win1_7.index t a * S1x64x32x256x2.size a ≤ (i a).val
      ∧ (i a).val < win1_7.index t a * S1x64x32x256x2.size a + S1x64x32x256x2.size a := by
  show i ∈ ((View.whole main_v64).slice (win1_7.rect t)).set ↔ _
  rw [View.set_slice_whole, Rect.mem_set_unit]
  exact Iff.rfl

/-- The 64 blocks cover the array: (b, c, h, w, p) lies in the block of point 8 * b + h / 32. -/
theorem cover (i : S8x64x256x256x2.Idx) :
    ∃ t : Fin cfg1.N, (cfg1.win 7).flush t = true ∧ i ∈ ((cfg1.win 7).blk t).view.set := by
  have h0 : (i 0).val < 8 := (i 0).isLt
  have h1 : (i 1).val < 64 := (i 1).isLt
  have h2 : (i 2).val < 256 := (i 2).isLt
  have h3 : (i 3).val < 256 := (i 3).isLt
  have h4 : (i 4).val < 2 := (i 4).isLt
  have hN : cfg1.N = 64 := N_1
  obtain ⟨t, ht⟩ : ∃ t : Fin cfg1.N, t.val = 8 * (i 0).val + (i 2).val / 32 :=
    ⟨⟨8 * (i 0).val + (i 2).val / 32, lt_of_lt_of_eq (by omega) hN.symm⟩, rfl⟩
  refine ⟨t, flush1_7 t, ?_⟩
  rw [mem_blk]
  obtain ⟨-, -, -, -, -, e0, e1, e2, e3, e4, -⟩ := idx_facts t
  intro a
  match a with
  | ⟨0, _⟩ => show win1_7.index t (0 : Fin 5) * 1 ≤ (i 0).val ∧ (i 0).val < win1_7.index t (0 : Fin 5) * 1 + 1; omega
  | ⟨1, _⟩ => show win1_7.index t (1 : Fin 5) * 64 ≤ (i 1).val ∧ (i 1).val < win1_7.index t (1 : Fin 5) * 64 + 64; omega
  | ⟨2, _⟩ => show win1_7.index t (2 : Fin 5) * 32 ≤ (i 2).val ∧ (i 2).val < win1_7.index t (2 : Fin 5) * 32 + 32; omega
  | ⟨3, _⟩ => show win1_7.index t (3 : Fin 5) * 256 ≤ (i 3).val ∧ (i 3).val < win1_7.index t (3 : Fin 5) * 256 + 256; omega
  | ⟨4, _⟩ => show win1_7.index t (4 : Fin 5) * 2 ≤ (i 4).val ∧ (i 4).val < win1_7.index t (4 : Fin 5) * 2 + 2; omega

/-- THE ARRAY after the pass: the affine map of the data with the six coefficient vectors, as the pass finds them. -/
theorem region1_array (c : Dev nD) :
    ((dat1 (F := Ideal) V c).arrAt 7 cfg1.N : SX.Idx → EReal) = affOut (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) :=
  (dat1 (F := Ideal) V c).arrAt_eq_of_cover 7 (affOut (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6))) (fun t _ => flushed_eq V c t) cover

end Region

end Cbn.K1

end
-- ==== Proof.KernelValue.lean ====
/-
  The kernel's result as a function of its arguments: region 1's output array is the per-channel affine map of the
  data with the six coefficient vectors the host stretch computes from region 0's five sums, which is the one-pass form.
-/
import proofs.«180193_j36807869727213_1_alg».proof.Proof.Gen.KernelIdeal.Frame
import proofs.«180193_j36807869727213_1_alg».proof.Proof.KernelRun
import proofs.«180193_j36807869727213_1_alg».proof.Proof.KernelMid
import proofs.«180193_j36807869727213_1_alg».proof.Proof.HostMid
import proofs.«180193_j36807869727213_1_alg».proof.Proof.AffineArray
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cbn.K
open Cert.KernelIdeal Cert.KernelIdeal.Gen Idealize.ShloMosaic.ValueIdx

variable (m : (ℓ : Loc nD τ sig) → Buf (Elt Ideal) ℓ) (ρ : Dev nD → PrngReg)

theorem kernel_value (c : Dev nD) :
    W3 m ρ c (Proc.devRef .tc main_v64)
      = Cbn.kerOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [W3_result]
  refine (Cbn.K1.region1_array (V2 m ρ) c).trans ?_
  obtain ⟨e46, e49, e52, e55, e59, e63, e0⟩ := Cbn.Mid.coeffs (W1 m ρ c) (m ((c : Thread nD τ).loc main_arg0))
    (W1_sum1 m ρ c) (W1_sum2 m ρ c) (W1_sum3 m ρ c) (W1_sum4 m ρ c) (W1_sum5 m ρ c)
  rw [W1_arg1, W1_arg3] at e46 e49
  rw [W1_arg2, W1_arg3] at e52 e55
  rw [W1_arg1, W1_arg3, W1_arg4] at e59
  rw [W1_arg2, W1_arg3, W1_arg5] at e63
  rw [W1_arg0] at e0
  show Cbn.affOut (StableHlo.after (hostOps1 (F := Ideal)) (W1 m ρ c) (Proc.devRef .tc main_arg0))
      (StableHlo.after (hostOps1 (F := Ideal)) (W1 m ρ c) (Proc.devRef .tc main_v46))
      (StableHlo.after (hostOps1 (F := Ideal)) (W1 m ρ c) (Proc.devRef .tc main_v49))
      (StableHlo.after (hostOps1 (F := Ideal)) (W1 m ρ c) (Proc.devRef .tc main_v52))
      (StableHlo.after (hostOps1 (F := Ideal)) (W1 m ρ c) (Proc.devRef .tc main_v55))
      (StableHlo.after (hostOps1 (F := Ideal)) (W1 m ρ c) (Proc.devRef .tc main_v59))
      (StableHlo.after (hostOps1 (F := Ideal)) (W1 m ρ c) (Proc.devRef .tc main_v63)) = _
  rw [e0, e46, e49, e52, e55, e59, e63]
  rfl

end Cbn.K

end
-- ==== Proof.RefStages.lean ====
/-
  The stages of a complex batch normalisation written over whole arrays, each read at ONE index.

  The data array is x[b, c, h, w, p] (p = 0 the real part, p = 1 the imaginary part).  Its two parts are cut out by a
  unit slice on the last axis followed by a reshape to [8, 64, 256, 256]; a per-channel statistic is a sum over the
  axes b, h, w; a per-channel vector is spread back over the array through the shape [1, 64, 1, 1]; the two results
  are given a trailing unit axis and laid side by side along it.  Every lemma here reads one such array operation at an
  index given by its coordinates, for an arbitrary operand.
-/
import Idealize.ShloMosaic.Lib.IdealHost
import Idealize.ShloMosaic.Lib.Pipeline.Value
import proofs.«180193_j36807869727213_1_alg».proof.Proof.Spec

noncomputable section

namespace Cbn.Ref

open Idealize.ShloMosaic Idealize.ShloMosaic.ValueIdx
open scoped BigOperators

/-- One part of the data, [8, 64, 256, 256]; the same with a trailing unit axis; a per-channel vector seen as
    [1, 64, 1, 1]; the scalar shape. -/
abbrev S4 : Shape := ⟨4, ![8, 64, 256, 256]⟩
abbrev S5u : Shape := ⟨5, ![8, 64, 256, 256, 1]⟩
abbrev S4u : Shape := ⟨4, ![1, 64, 1, 1]⟩
abbrev S0 : Shape := ⟨0, ![]⟩

section Layout
variable {α : Type}

/-- The unit slice of the data at position `o` of the last axis, reshaped to [8, 64, 256, 256], at (b, c, h, w) is
    the data at (b, c, h, w, o). -/
theorem part_apply (o : Nat) (ho : o < 2) (x : SX.Idx → α) (hs : SX.Slices ![0, 0, 0, 0, o] S5u)
    (hc : S5u.ShapeCasts S4) (b : Fin 8) (c : Fin 64) (h w : Fin 256) :
    shapeCast S4 (extractStridedSlice S5u ![0, 0, 0, 0, o] x hs) hc (ix4 b c h w) = x (ix5 b c h w ⟨o, ho⟩) := by
  refine (shapeCast_apply _ hc (ix4 b c h w) (ix5 b c h w (0 : Fin 1)) ?_).trans ?_
  · rw [Shape.rowMajor_val_five, Shape.rowMajor_val_four]
    show (((b.val * 64 + c.val) * 256 + h.val) * 256 + w.val) * 1 + 0
      = ((b.val * 64 + c.val) * 256 + h.val) * 256 + w.val
    omega
  · refine extractStridedSlice_apply _ x hs _ _ fun a => ?_
    match a with
    | ⟨0, _⟩ => show b.val = 0 + b.val; omega
    | ⟨1, _⟩ => show c.val = 0 + c.val; omega
    | ⟨2, _⟩ => show h.val = 0 + h.val; omega
    | ⟨3, _⟩ => show w.val = 0 + w.val; omega
    | ⟨4, _⟩ => show o = o + 0; omega

/-- The real part: the slice at 0. -/
theorem part0_apply (x : SX.Idx → α) (hs : SX.Slices ![0, 0, 0, 0, 0] S5u) (hc : S5u.ShapeCasts S4)
    (b : Fin 8) (c : Fin 64) (h w : Fin 256) :
    shapeCast S4 (extractStridedSlice S5u ![0, 0, 0, 0, 0] x hs) hc (ix4 b c h w) = x (ix5 b c h w (0 : Fin 2)) :=
  part_apply 0 (by omega) x hs hc b c h w

/-- The imaginary part: the slice at 1. -/
theorem part1_apply (x : SX.Idx → α) (hs : SX.Slices ![0, 0, 0, 0, 1] S5u) (hc : S5u.ShapeCasts S4)
    (b : Fin 8) (c : Fin 64) (h w : Fin 256) :
    shapeCast S4 (extractStridedSlice S5u ![0, 0, 0, 0, 1] x hs) hc (ix4 b c h w) = x (ix5 b c h w (1 : Fin 2)) :=
  part_apply 1 (by omega) x hs hc b c h w

/-- A per-channel vector seen as [1, 64, 1, 1], at (0, c, 0, 0), is the vector at c. -/
theorem chan_unit_apply (v : SC.Idx → α) (h1 : SC.BroadcastsInDim S4u (![1] : Fin 1 → Fin S4u.rank)) (c : Fin 64) :
    broadcastInDim S4u ![1] h1 v (ix4 (0 : Fin 1) c (0 : Fin 1) (0 : Fin 1)) = v (ix1 c) :=
  broadcastInDim_apply _ h1 v _ (ix1 c) fun a => match a with | ⟨0, _⟩ => rfl

/-- A [1, 64, 1, 1] array spread over [8, 64, 256, 256], at (b, c, h, w), is the array at (0, c, 0, 0). -/
theorem spread_apply (u : S4u.Idx → α) (h2 : S4u.BroadcastsInDim S4 (![0, 1, 2, 3] : Fin 4 → Fin S4.rank))
    (b : Fin 8) (c : Fin 64) (h w : Fin 256) :
    broadcastInDim S4 ![0, 1, 2, 3] h2 u (ix4 b c h w) = u (ix4 (0 : Fin 1) c (0 : Fin 1) (0 : Fin 1)) :=
  broadcastInDim_apply _ h2 u _ (ix4 (0 : Fin 1) c (0 : Fin 1) (0 : Fin 1)) fun a =>
    match a with | ⟨0, _⟩ => rfl | ⟨1, _⟩ => rfl | ⟨2, _⟩ => rfl | ⟨3, _⟩ => rfl

/-- A per-channel vector spread over the array, at (b, c, h, w), is the vector at c. -/
theorem chan_spread_apply (v : SC.Idx → α) (h1 : SC.BroadcastsInDim S4u (![1] : Fin 1 → Fin S4u.rank))
    (h2 : S4u.BroadcastsInDim S4 (![0, 1, 2, 3] : Fin 4 → Fin S4.rank)) (b : Fin 8) (c : Fin 64) (h w : Fin 256) :
    broadcastInDim S4 ![0, 1, 2, 3] h2 (broadcastInDim S4u ![1] h1 v) (ix4 b c h w) = v (ix1 c) :=
  (spread_apply _ h2 b c h w).trans (chan_unit_apply v h1 c)

/-- A scalar spread over any shape is the scalar everywhere. -/
theorem scalar_spread_apply {T : Shape} (hb : S0.BroadcastsInDim T (![] : Fin 0 → Fin T.rank)) (x : S0.Idx → α) (j : T.Idx) :
    broadcastInDim T ![] hb x j = x ix0 :=
  broadcastInDim_scalar_apply hb x j

/-- An array given a trailing unit axis, at (b, c, h, w, 0), is the array at (b, c, h, w). -/
theorem unit_axis_apply (v : S4.Idx → α) (h3 : S4.BroadcastsInDim S5u (![0, 1, 2, 3] : Fin 4 → Fin S5u.rank))
    (b : Fin 8) (c : Fin 64) (h w : Fin 256) :
    broadcastInDim S5u ![0, 1, 2, 3] h3 v (ix5 b c h w (0 : Fin 1)) = v (ix4 b c h w) :=
  broadcastInDim_apply _ h3 v _ (ix4 b c h w) fun a =>
    match a with | ⟨0, _⟩ => rfl | ⟨1, _⟩ => rfl | ⟨2, _⟩ => rfl | ⟨3, _⟩ => rfl

/-- Two arrays with a trailing unit axis laid side by side along it: at (b, c, h, w, 0) the first … -/
theorem pair_apply_zero (y0 y1 : S5u.Idx → α) (hcat : Shape.Concatenates [S5u, S5u] SX 4)
    (b : Fin 8) (c : Fin 64) (h w : Fin 256) :
    concatenate SX 4 [⟨S5u, y0⟩, ⟨S5u, y1⟩] hcat (ix5 b c h w (0 : Fin 2)) = y0 (ix5 b c h w (0 : Fin 1)) :=
  concatenate_pair_apply_left 4 y0 y1 hcat _ rfl (ix5 b c h w (0 : Fin 1)) fun a =>
    match a with | ⟨0, _⟩ => rfl | ⟨1, _⟩ => rfl | ⟨2, _⟩ => rfl | ⟨3, _⟩ => rfl | ⟨4, _⟩ => rfl

/-- … and at (b, c, h, w, 1) the second. -/
theorem pair_apply_one (y0 y1 : S5u.Idx → α) (hcat : Shape.Concatenates [S5u, S5u] SX 4)
    (b : Fin 8) (c : Fin 64) (h w : Fin 256) :
    concatenate SX 4 [⟨S5u, y0⟩, ⟨S5u, y1⟩] hcat (ix5 b c h w (1 : Fin 2)) = y1 (ix5 b c h w (0 : Fin 1)) :=
  concatenate_pair_apply_right 4 y0 y1 hcat _ rfl rfl (ix5 b c h w (0 : Fin 1))
    (fun a => match a with
      | ⟨0, _⟩ => fun _ => rfl | ⟨1, _⟩ => fun _ => rfl | ⟨2, _⟩ => fun _ => rfl | ⟨3, _⟩ => fun _ => rfl
      | ⟨4, _⟩ => fun hne => absurd rfl hne)
    rfl

end Layout

/-! ## The host's square root and negation at an index -/

/-- The host's square root at an index is the extended reals' square root of the element. -/
theorem hostSqrt_apply {s : Shape} {φ : FTy} (a : FVec Ideal s φ) (i : s.Idx) : Host.sqrt a i = Ideal.sqrt (a i) := rfl

/-- The host's negation at an index is the negation of the element. -/
theorem hostNegf_apply {s : Shape} {φ : FTy} (a : FVec Ideal s φ) (i : s.Idx) : Host.negf a i = -(a i) := rfl

/-! ## The sum over batch and space -/

/-- The indices of [8, 64, 256, 256] that the reduction over the axes 0, 2, 3 sends to channel `c` are those whose
    second coordinate is `c`. -/
theorem drop_eq_iff (hr : S4.ReducesTo [0, 2, 3] SC) (i : S4.Idx) (c : Fin 64) : hr.drop i = ix1 c ↔ i 1 = c := by
  have hv : ((hr.drop i 0 : Fin 64) : Nat) = (i 1 : Fin 64) := Shape.ReducesTo.drop_apply_val_of_eq hr i 0 1
  constructor
  · intro he
    have h0 : hr.drop i 0 = c := congrFun he 0
    exact Fin.ext (by rw [← hv, h0])
  · intro he
    funext a
    match a with
    | ⟨0, _⟩ => exact Fin.ext (hv.trans (congrArg Fin.val he))

/-- The host's sum over the axes 0, 2, 3 of an [8, 64, 256, 256] array, at channel `c`: the initial value plus the
    sum over batch and space of the array at (b, c, h, w). -/
theorem chanSum_apply (hr : S4.ReducesTo [0, 2, 3] SC) (v : S4.Idx → EReal) (init : EReal) (c : Fin 64) :
    Ideal.hostReduceAdd hr v init (ix1 c) = init + tot fun b h w => v (ix4 b c h w) := by
  unfold Ideal.hostReduceAdd tot
  congr 1
  have key : ∑ i ∈ Finset.univ.filter (fun i : S4.Idx => hr.drop i = ix1 c), v i
      = ∑ q : Fin 8 × Fin 256 × Fin 256, v (ix4 q.1 c q.2.1 q.2.2) := by
    refine Finset.sum_nbij' (fun i : S4.Idx => ((i 0 : Fin 8), (i 2 : Fin 256), (i 3 : Fin 256)))
      (fun q => ix4 q.1 c q.2.1 q.2.2) ?_ ?_ ?_ ?_ ?_
    · intro i _; exact Finset.mem_univ _
    · intro q _; exact Finset.mem_filter.2 ⟨Finset.mem_univ _, (drop_eq_iff hr _ c).2 rfl⟩
    · intro i hi
      have hc : i 1 = c := (drop_eq_iff hr i c).1 (Finset.mem_filter.1 hi).2
      funext a
      match a with
      | ⟨0, _⟩ => rfl
      | ⟨1, _⟩ => exact hc.symm
      | ⟨2, _⟩ => rfl
      | ⟨3, _⟩ => rfl
    · intro q _; rfl
    · intro i hi
      have hc : i 1 = c := (drop_eq_iff hr i c).1 (Finset.mem_filter.1 hi).2
      refine congrArg v ?_
      funext a
      match a with
      | ⟨0, _⟩ => rfl
      | ⟨1, _⟩ => exact hc
      | ⟨2, _⟩ => rfl
      | ⟨3, _⟩ => rfl
  rw [key, Fintype.sum_prod_type]
  refine Finset.sum_congr rfl fun b _ => ?_
  rw [Fintype.sum_prod_type]

/-- The same for the host operation as a program prints it: its initial value is a scalar array. -/
theorem hostChanSum_apply (hr : S4.ReducesTo [0, 2, 3] SC) (h0 : 0 < S0.numel) (v : FVec Ideal S4 .f32)
    (init : S0.Idx → Ideal .f32) (c : Fin 64) :
    Host.reduceAdd v init hr h0 (ix1 c) = init (Shape.Idx.first h0) + tot fun b h w => v (ix4 b c h w) :=
  chanSum_apply hr v _ c

end Cbn.Ref

end
-- ==== Proof.RefValue.lean ====
/-
  The reference program of the complex batch normalisation, read at an index: each named stage of its run is the
  quantity of the same name in the two-pass form (the parts, the centred parts, the three covariance entries, the
  square root of the determinant, the common divisor, the three entries of the whitening matrix, the whitened parts),
  and its result is `Cbn.refOut` of the six argument arrays.
-/
import proofs.«180193_j36807869727213_1_alg».proof.Proof.Gen.ReferenceIdeal.Run
import proofs.«180193_j36807869727213_1_alg».proof.Proof.RefStages

noncomputable section

namespace Cbn.Ref

open Cert.ReferenceIdeal Cert.ReferenceIdeal.Gen Cert.ReferenceIdeal.Value
open Idealize.ShloMosaic Idealize.ShloMosaic.ValueIdx Idealize.SL.Sem

/-- The data array among the arguments. -/
abbrev argX (V0 : Valuation τ sig (Elt Ideal)) : SX.Idx → EReal := V0 (Proc.devRef .tc main_arg0)

variable (V0 : Valuation τ sig (Elt Ideal)) (b : Fin 8) (c : Fin 64) (h w : Fin 256)

/-- The first part is the real part. -/
theorem v1_apply : res_main_v1 V0 (ix4 b c h w) = re (argX V0) c b h w := by
  unfold res_main_v1
  exact part0_apply _ _ _ b c h w

/-- The second part is the imaginary part. -/
theorem v3_apply : res_main_v3 V0 (ix4 b c h w) = im (argX V0) c b h w := by
  unfold res_main_v3
  exact part1_apply _ _ _ b c h w

/-- The real part less its channel mean. -/
theorem v13_apply : res_main_v13 V0 (ix4 b c h w) = cR (argX V0) c b h w := by
  unfold res_main_v13
  rw [subf_apply, spread_apply, hostDivf_apply, chan_unit_apply, hostChanSum_apply, scalar_spread_apply]
  simp only [v1_apply, constant_apply]
  rfl

/-- The imaginary part less its channel mean. -/
theorem v15_apply : res_main_v15 V0 (ix4 b c h w) = cI (argX V0) c b h w := by
  unfold res_main_v15
  rw [subf_apply, spread_apply, hostDivf_apply, chan_unit_apply, hostChanSum_apply, scalar_spread_apply]
  simp only [v3_apply, constant_apply]
  rfl

/-! ## The covariance entries -/

/-- The variance of the real part, shifted by eps. -/
theorem v21_apply : res_main_v21 V0 (ix1 c) = rVrr (argX V0) c := by
  unfold res_main_v21
  rw [addf_apply, hostDivf_apply, hostChanSum_apply]
  simp only [scalar_spread_apply, mulf_apply, v13_apply, constant_apply]
  rfl

/-- The covariance of the two parts, shifted by eps. -/
theorem v27_apply : res_main_v27 V0 (ix1 c) = rVri (argX V0) c := by
  unfold res_main_v27
  rw [addf_apply, hostDivf_apply, hostChanSum_apply]
  simp only [scalar_spread_apply, mulf_apply, v13_apply, v15_apply, constant_apply]
  rfl

/-- The variance of the imaginary part, shifted by eps. -/
theorem v33_apply : res_main_v33 V0 (ix1 c) = rVii (argX V0) c := by
  unfold res_main_v33
  rw [addf_apply, hostDivf_apply, hostChanSum_apply]
  simp only [scalar_spread_apply, mulf_apply, v15_apply, constant_apply]
  rfl

/-! ## The whitening matrix -/

/-- The square root of the determinant. -/
theorem v38_apply :
    res_main_v38 V0 (ix1 c) = wS (rVrr (argX V0) c) (rVri (argX V0) c) (rVii (argX V0) c) := by
  unfold res_main_v38
  simp only [hostSqrt_apply, subf_apply, mulf_apply, v21_apply, v27_apply, v33_apply]
  rfl

/-- The common divisor s * t. -/
theorem v43_apply :
    res_main_v43 V0 (ix1 c) = wD (rVrr (argX V0) c) (rVri (argX V0) c) (rVii (argX V0) c) := by
  unfold res_main_v43
  simp only [hostSqrt_apply, addf_apply, mulf_apply, scalar_spread_apply, constant_apply, v21_apply, v33_apply,
    v38_apply]
  rfl

/-- The off-diagonal entry. -/
theorem v47_apply :
    res_main_v47 V0 (ix1 c) = wRI (rVrr (argX V0) c) (rVri (argX V0) c) (rVii (argX V0) c) := by
  unfold res_main_v47
  simp only [hostDivf_apply, hostNegf_apply, v27_apply, v43_apply]
  rfl

/-! ## The whitened parts -/

/-- The whitened real part. -/
theorem v56_apply : res_main_v56 V0 (ix4 b c h w) = xhR (argX V0) c b h w := by
  unfold res_main_v56
  rw [addf_apply, mulf_apply, mulf_apply, chan_spread_apply, chan_spread_apply, hostDivf_apply, addf_apply, v13_apply,
    v15_apply, v33_apply, v38_apply, v43_apply, v47_apply]
  rfl

/-- The whitened imaginary part. -/
theorem v63_apply : res_main_v63 V0 (ix4 b c h w) = xhI (argX V0) c b h w := by
  unfold res_main_v63
  rw [addf_apply, mulf_apply, mulf_apply, chan_spread_apply, chan_spread_apply, hostDivf_apply, addf_apply, v13_apply,
    v15_apply, v21_apply, v38_apply, v43_apply, v47_apply]
  rfl

end Cbn.Ref

end
-- ==== Proof.RefResult.lean ====
/-
  The reference program's result is the two-pass form `Cbn.refOut` of the six argument arrays: at (b, c, h, w, 0) it
  is grr * xhR + gri * xhI + br and at (b, c, h, w, 1) it is gri * xhR + gii * xhI + bi, the whitened parts being the
  stages read in RefValue.
-/
import proofs.«180193_j36807869727213_1_alg».proof.Proof.RefValue

noncomputable section

namespace Cbn

open Idealize.ShloMosaic Idealize.ShloMosaic.ValueIdx

/-- The two-pass form at a real position … -/
theorem refAt_zero (x : SX.Idx → EReal) (grr gii gri br bi : SC.Idx → EReal) (b : Fin 8) (c : Fin 64) (h w : Fin 256) :
    refAt x grr gii gri br bi b c h w (0 : Fin 2)
      = (grr (ix1 c) * xhR x c b h w + gri (ix1 c) * xhI x c b h w) + br (ix1 c) := if_pos rfl

/-- … and at an imaginary position. -/
theorem refAt_one (x : SX.Idx → EReal) (grr gii gri br bi : SC.Idx → EReal) (b : Fin 8) (c : Fin 64) (h w : Fin 256) :
    refAt x grr gii gri br bi b c h w (1 : Fin 2)
      = (gri (ix1 c) * xhR x c b h w + gii (ix1 c) * xhI x c b h w) + bi (ix1 c) := if_neg (by decide)

end Cbn

namespace Cbn.Ref

open Cert.ReferenceIdeal Cert.ReferenceIdeal.Gen Cert.ReferenceIdeal.Value
open Idealize.ShloMosaic Idealize.ShloMosaic.ValueIdx Idealize.SL.Sem

/-- The result of the reference program's run, as a term of the argument arrays, is the two-pass form of them. -/
theorem result_eq (V0 : Valuation τ sig (Elt Ideal)) :
    (concatenate S8x64x256x256x2 4 [⟨S8x64x256x256x1, (broadcastInDim S8x64x256x256x1 ![0, 1, 2, 3] bcast_S8x64x256x256_S8x64x256x256x1_0_1_2_3 (addf (addf (mulf (broadcastInDim S8x64x256x256 ![0, 1, 2, 3] bcast_S1x64x1x1_S8x64x256x256_0_1_2_3 (broadcastInDim S1x64x1x1 ![1] bcast_S64_S1x64x1x1_1 (V0 (Proc.devRef .tc main_arg1)))) (res_main_v56 V0)) (mulf (broadcastInDim S8x64x256x256 ![0, 1, 2, 3] bcast_S1x64x1x1_S8x64x256x256_0_1_2_3 (broadcastInDim S1x64x1x1 ![1] bcast_S64_S1x64x1x1_1 (V0 (Proc.devRef .tc main_arg3)))) (res_main_v63 V0))) (broadcastInDim S8x64x256x256 ![0, 1, 2, 3] bcast_S1x64x1x1_S8x64x256x256_0_1_2_3 (broadcastInDim S1x64x1x1 ![1] bcast_S64_S1x64x1x1_1 (V0 (Proc.devRef .tc main_arg4))))))⟩, ⟨S8x64x256x256x1, (broadcastInDim S8x64x256x256x1 ![0, 1, 2, 3] bcast_S8x64x256x256_S8x64x256x256x1_0_1_2_3 (addf (addf (mulf (broadcastInDim S8x64x256x256 ![0, 1, 2, 3] bcast_S1x64x1x1_S8x64x256x256_0_1_2_3 (broadcastInDim S1x64x1x1 ![1] bcast_S64_S1x64x1x1_1 (V0 (Proc.devRef .tc main_arg3)))) (res_main_v56 V0)) (mulf (broadcastInDim S8x64x256x256 ![0, 1, 2, 3] bcast_S1x64x1x1_S8x64x256x256_0_1_2_3 (broadcastInDim S1x64x1x1 ![1] bcast_S64_S1x64x1x1_1 (V0 (Proc.devRef .tc main_arg2)))) (res_main_v63 V0))) (broadcastInDim S8x64x256x256 ![0, 1, 2, 3] bcast_S1x64x1x1_S8x64x256x256_0_1_2_3 (broadcastInDim S1x64x1x1 ![1] bcast_S64_S1x64x1x1_1 (V0 (Proc.devRef .tc main_arg5))))))⟩] concatenates_S8x64x256x256x1_S8x64x256x256x1_S8x64x256x256x2_d4 : (⟨S8x64x256x256x2, .f32⟩ : BufTy).Contents (Elt Ideal))
      = Cbn.refOut (V0 (Proc.devRef .tc main_arg0)) (V0 (Proc.devRef .tc main_arg1)) (V0 (Proc.devRef .tc main_arg2))
          (V0 (Proc.devRef .tc main_arg3)) (V0 (Proc.devRef .tc main_arg4)) (V0 (Proc.devRef .tc main_arg5)) := by
  funext j
  obtain ⟨b, c, h, w, p, rfl⟩ : ∃ (b : Fin 8) (c : Fin 64) (h w : Fin 256) (p : Fin 2), j = ix5 b c h w p :=
    ⟨j 0, j 1, j 2, j 3, j 4, eq_ix5 j⟩
  match p with
  | ⟨0, _⟩ =>
    refine Eq.trans ?_ (refAt_zero _ _ _ _ _ _ b c h w).symm
    refine (pair_apply_zero _ _ _ b c h w).trans ?_
    rw [unit_axis_apply, addf_apply, addf_apply, mulf_apply, mulf_apply, chan_spread_apply, chan_spread_apply,
      chan_spread_apply, v56_apply, v63_apply]
  | ⟨1, _⟩ =>
    refine Eq.trans ?_ (refAt_one _ _ _ _ _ _ b c h w).symm
    refine (pair_apply_one _ _ _ b c h w).trans ?_
    rw [unit_axis_apply, addf_apply, addf_apply, mulf_apply, mulf_apply, chan_spread_apply, chan_spread_apply,
      chan_spread_apply, v56_apply, v63_apply]

end Cbn.Ref

end
-- ==== Proof.RefRun.lean ====
/-
  The run of the reference program with its result stated as the two-pass form of the argument arrays as the memory
  holds them at the start, and the six arguments unchanged.
-/
import proofs.«180193_j36807869727213_1_alg».proof.Proof.RefResult

noncomputable section

namespace Cbn.Ref

open Cert.ReferenceIdeal Cert.ReferenceIdeal.Gen Cert.ReferenceIdeal.Value
open Idealize.ShloMosaic Idealize.ShloMosaic.ValueIdx Idealize.SL.Sem Idealize.ShloMosaic.StableHlo Idealize.ShloMosaic.TcCoe

/-- Every weakly fair execution of the reference program terminates with its result the two-pass form `Cbn.refOut` of
    the six argument arrays of the initial memory, and the arguments unchanged. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v86)
        = Cbn.refOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (result_eq (launchContents m c)), (h c).2⟩)
    (Cert.ReferenceIdeal.Value.run (F := Ideal) m ρ)

end Cbn.Ref

end
-- ==== Proof.PreStages.lean ====
/-
  The precondition of the complex batch normalisation, read as a conjunction.

  The printed predicate is one chain of operations: for each of the six arrays "every |entry| is below +inf", and at
  the end "every channel's determinant is above 0", where the determinant is formed from the data array by the two-pass
  stages: the real and imaginary parts (a slice of the last axis, reshaped), the channel means (the sum over batch and
  the two spatial axes divided by the sample count), the centred parts, the three covariances (each shifted by eps) and
  det = Vrr * Vii - Vri * Vri.  This module names those stages as functions of the data array, states the predicate as
  the conjunction of seven reductions by "and" over them (true by unfolding), and splits the hypothesis "the predicate
  answers 1" into the seven entrywise facts.
-/
import proofs.«180193_j36807869727213_1_alg».proof.Pre_finite_inputs
import Idealize.ShloMosaic.PureOps.Ideal
import Idealize.ShloMosaic.Lib.ValueIdx
import Idealize.ShloMosaic.Lib.ReduceAll

noncomputable section

namespace Cbn.Pre

open Idealize.ShloMosaic Idealize.ShloMosaic.ValueIdx Cert.Pre_finite_inputs

variable [Facts]

/-- An index set with no axis has one element. -/
instance : Subsingleton S_.Idx := ⟨fun a b => funext fun d => d.elim0⟩

/-! ## The stages of the determinant -/

/-- The real part: the slice [.., 0:1] of the last axis, reshaped to [8, 64, 256, 256]. -/
def sRe (x : FVec Ideal S8x64x256x256x2 .f32) : FVec Ideal S8x64x256x256 .f32 :=
  shapeCast S8x64x256x256
    ((extractStridedSlice S8x64x256x256x1 ![0, 0, 0, 0, 0] · Facts.slices_S8x64x256x256x2_S8x64x256x256x1_0_0_0_0_0) x)
    Facts.shapeCasts_S8x64x256x256x1_S8x64x256x256

/-- The imaginary part: the slice [.., 1:2] of the last axis, reshaped. -/
def sIm (x : FVec Ideal S8x64x256x256x2 .f32) : FVec Ideal S8x64x256x256 .f32 :=
  shapeCast S8x64x256x256
    ((extractStridedSlice S8x64x256x256x1 ![0, 0, 0, 0, 1] · Facts.slices_S8x64x256x256x2_S8x64x256x256x1_0_0_0_0_1) x)
    Facts.shapeCasts_S8x64x256x256x1_S8x64x256x256

/-- The per-channel sum over batch and the two spatial axes, from zero. -/
def chanSum (y : FVec Ideal S8x64x256x256 .f32) : FVec Ideal S64 .f32 :=
  Host.reduceAdd y (constant (F := Ideal) S_ .f32 0x00000000#32) Facts.reducesTo_S8x64x256x256_S64_d0_2_3 Facts.h_S_

/-- The channel mean, kept on the unit axes [1, 64, 1, 1]: the sum divided by the sample count 524288. -/
def meanK (y : FVec Ideal S8x64x256x256 .f32) : FVec Ideal S1x64x1x1 .f32 :=
  Host.divf (broadcastInDim S1x64x1x1 ![1] Facts.bcast_S64_S1x64x1x1_1 (chanSum y))
    (broadcastInDim S1x64x1x1 ![] Facts.bcast_S_S1x64x1x1 (constant (F := Ideal) S_ .f32 0x49000000#32))

/-- The centred part: the part minus its channel mean. -/
def cen (y : FVec Ideal S8x64x256x256 .f32) : FVec Ideal S8x64x256x256 .f32 :=
  subf y (broadcastInDim S8x64x256x256 ![0, 1, 2, 3] Facts.bcast_S1x64x1x1_S8x64x256x256_0_1_2_3 (meanK y))

/-- A shifted covariance: the channel mean of a product, plus eps. -/
def cov (u v : FVec Ideal S8x64x256x256 .f32) : FVec Ideal S64 .f32 :=
  addf (Host.divf (chanSum (mulf u v))
      (broadcastInDim S64 ![] Facts.bcast_S_S64 (constant (F := Ideal) S_ .f32 0x49000000#32)))
    (broadcastInDim S64 ![] Facts.bcast_S_S64 (constant (F := Ideal) S_ .f32 0x3727C5AC#32))

/-- The determinant Vrr * Vii - Vri * Vri per channel. -/
def detT (x : FVec Ideal S8x64x256x256x2 .f32) : FVec Ideal S64 .f32 :=
  subf (mulf (cov (cen (sRe x)) (cen (sRe x))) (cov (cen (sIm x)) (cen (sIm x))))
    (mulf (cov (cen (sRe x)) (cen (sIm x))) (cov (cen (sRe x)) (cen (sIm x))))

/-! ## The seven reductions -/

/-- "Every |entry| of the data array is below +inf". -/
def allFinX (x : FVec Ideal S8x64x256x256x2 .f32) : IVec S_ 1 :=
  Host.reduce IntOp.andi
    (cmpf .olt (Host.absf x)
      (broadcastInDim S8x64x256x256x2 ![] Facts.bcast_S_S8x64x256x256x2 (constant (F := Ideal) S_ .f32 0x7F800000#32)))
    (constantI S_ 1 1#1) Facts.reducesTo_S8x64x256x256x2_S_d0_1_2_3_4 Facts.h_S_

/-- "Every |entry| of a per-channel vector is below +inf". -/
def allFinC (g : FVec Ideal S64 .f32) : IVec S_ 1 :=
  Host.reduce IntOp.andi
    (cmpf .olt (Host.absf g) (broadcastInDim S64 ![] Facts.bcast_S_S64 (constant (F := Ideal) S_ .f32 0x7F800000#32)))
    (constantI S_ 1 1#1) Facts.reducesTo_S64_S_d0 Facts.h_S_

/-- "Every channel's determinant is above 0". -/
def allPos (x : FVec Ideal S8x64x256x256x2 .f32) : IVec S_ 1 :=
  Host.reduce IntOp.andi
    (cmpf .ogt (detT x) (broadcastInDim S64 ![] Facts.bcast_S_S64 (constant (F := Ideal) S_ .f32 0x00000000#32)))
    (constantI S_ 1 1#1) Facts.reducesTo_S64_S_d0 Facts.h_S_

/-- The printed predicate is the conjunction of the seven reductions. -/
theorem fn_eq (x : FVec Ideal S8x64x256x256x2 .f32) (g1 g2 g3 g4 g5 : FVec Ideal S64 .f32) :
    fn (F := Ideal) x g1 g2 g3 g4 g5 =
      andi (andi (andi (andi (andi (andi (allFinX x) (allFinC g1)) (allFinC g2)) (allFinC g3)) (allFinC g4)) (allFinC g5))
        (allPos x) := rfl

/-- A predicate that answers 1 gives each of the seven entrywise facts. -/
theorem split (x : FVec Ideal S8x64x256x256x2 .f32) (g1 g2 g3 g4 g5 : FVec Ideal S64 .f32)
    (h : fn (F := Ideal) x g1 g2 g3 g4 g5 = fun _ => 1#1) :
    (∀ i, cmpf .olt (Host.absf x)
        (broadcastInDim S8x64x256x256x2 ![] Facts.bcast_S_S8x64x256x256x2 (constant (F := Ideal) S_ .f32 0x7F800000#32)) i = 1#1)
    ∧ (∀ g ∈ [g1, g2, g3, g4, g5], ∀ i, cmpf .olt (Host.absf g)
        (broadcastInDim S64 ![] Facts.bcast_S_S64 (constant (F := Ideal) S_ .f32 0x7F800000#32)) i = 1#1)
    ∧ (∀ i, cmpf .ogt (detT x)
        (broadcastInDim S64 ![] Facts.bcast_S_S64 (constant (F := Ideal) S_ .f32 0x00000000#32)) i = 1#1) := by
  have h0 : andi (andi (andi (andi (andi (andi (allFinX x) (allFinC g1)) (allFinC g2)) (allFinC g3)) (allFinC g4))
      (allFinC g5)) (allPos x) ix0 = 1#1 := by rw [← fn_eq, h]
  obtain ⟨h6, hp⟩ := IntOp.andi_eq_one.1 h0
  obtain ⟨h5, e5⟩ := IntOp.andi_eq_one.1 h6
  obtain ⟨h4, e4⟩ := IntOp.andi_eq_one.1 h5
  obtain ⟨h3, e3⟩ := IntOp.andi_eq_one.1 h4
  obtain ⟨h2, e2⟩ := IntOp.andi_eq_one.1 h3
  obtain ⟨ex, e1⟩ := IntOp.andi_eq_one.1 h2
  have hC : ∀ g : FVec Ideal S64 .f32, allFinC g ix0 = 1#1 → ∀ i, cmpf .olt (Host.absf g)
      (broadcastInDim S64 ![] Facts.bcast_S_S64 (constant (F := Ideal) S_ .f32 0x7F800000#32)) i = 1#1 :=
    fun g e i => Host.reduce_andi_all _ _ _ _ ix0 e i
  refine ⟨fun i => Host.reduce_andi_all _ _ _ _ ix0 ex i, ?_, fun i => Host.reduce_andi_all _ _ _ _ ix0 hp i⟩
  intro g hg
  simp only [List.mem_cons, List.mem_nil_iff, or_false] at hg
  rcases hg with rfl | rfl | rfl | rfl | rfl
  exacts [hC _ e1, hC _ e2, hC _ e3, hC _ e4, hC _ e5]

end Cbn.Pre

end
-- ==== Proof.LibReals.lean ====
/-
  Extended reals that are real numbers, and the operations that keep them so.

  At the exact (ideal) reading a float is an extended real. When a kernel's inputs are finite, every value it forms
  from them by sums, differences, products, maxima, Euclidean norms, quotients by positive reals and exponentials
  is again a real number; a value proof that needs a law of the reals (distributivity, cancelling, (√s)² = s) first
  shows its operands real with these closure facts, then takes real witnesses (`choose`) and computes in ℝ.

    IsR x : x is a real number;   IsP x : x is a positive real number.
    isR_add / isR_sub / isR_mul / isR_sum / isR_max     closure
    isP_max     the larger of a real and a positive real is a positive real (a norm floored at ε)
    isR_norm    √(Σ uᵢ²) of reals is a real;  sumsq_coe, sqrt_coe_of_nonneg, coe_sum, coe_max push the coercion
    div_coe_coe, isR_div       a quotient by a positive real
    isP_exp, isP_sum           exponentials are positive reals, and so is a nonempty sum of positive reals
    isR_fold_max               the maximum of a nonempty finite family of reals, folded from −∞, is a real
    isR_softmax                exp (z k − M) / Σ_j exp (z j − M) of real scores is a real
    mul_recip                  v · (1 / g) = v / g for a positive real g and EVERY extended real v
-/
import Idealize.ShloMosaic.PureOps.Ideal

noncomputable section

namespace Cert.LibReals

open Idealize.ShloMosaic

/-- x is a real number. -/
def IsR (x : EReal) : Prop := ∃ r : ℝ, x = (r : EReal)
/-- x is a positive real number. -/
def IsP (x : EReal) : Prop := ∃ r : ℝ, 0 < r ∧ x = (r : EReal)

theorem IsP.isR {x : EReal} (h : IsP x) : IsR x := let ⟨r, _, e⟩ := h; ⟨r, e⟩

theorem isR_zero : IsR 0 := ⟨0, rfl⟩
theorem isR_coe (r : ℝ) : IsR (r : EReal) := ⟨r, rfl⟩

theorem isR_add {x y : EReal} (hx : IsR x) (hy : IsR y) : IsR (x + y) := by
  obtain ⟨a, rfl⟩ := hx; obtain ⟨b, rfl⟩ := hy; exact ⟨a + b, (EReal.coe_add a b).symm⟩
theorem isR_sub {x y : EReal} (hx : IsR x) (hy : IsR y) : IsR (x - y) := by
  obtain ⟨a, rfl⟩ := hx; obtain ⟨b, rfl⟩ := hy; exact ⟨a - b, (EReal.coe_sub a b).symm⟩
theorem isR_mul {x y : EReal} (hx : IsR x) (hy : IsR y) : IsR (x * y) := by
  obtain ⟨a, rfl⟩ := hx; obtain ⟨b, rfl⟩ := hy; exact ⟨a * b, (EReal.coe_mul a b).symm⟩

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isR_sum {ι : Type} [Fintype ι] (f : ι → EReal) (h : ∀ i, IsR (f i)) : IsR (∑ i, f i) := by
  choose g hg using h
  exact ⟨∑ i, g i, (Finset.sum_congr rfl fun i _ => hg i).trans (coe_sum _ _).symm⟩

theorem isP_sum {ι : Type} [Fintype ι] [Nonempty ι] (f : ι → EReal) (h : ∀ i, IsP (f i)) : IsP (∑ i, f i) := by
  choose g hg0 hg using h
  exact ⟨∑ i, g i, Finset.sum_pos (fun i _ => hg0 i) Finset.univ_nonempty,
    (Finset.sum_congr rfl fun i _ => hg i).trans (coe_sum _ _).symm⟩

theorem coe_max (a b : ℝ) : ((max a b : ℝ) : EReal) = max (a : EReal) (b : EReal) := by
  rcases le_total a b with h | h
  · rw [max_eq_right h, max_eq_right (EReal.coe_le_coe_iff.2 h)]
  · rw [max_eq_left h, max_eq_left (EReal.coe_le_coe_iff.2 h)]

theorem isR_max {x y : EReal} (hx : IsR x) (hy : IsR y) : IsR (max x y) := by
  obtain ⟨a, rfl⟩ := hx; obtain ⟨b, rfl⟩ := hy; exact ⟨max a b, (coe_max a b).symm⟩

/-- The larger of a real and a positive real is a positive real. -/
theorem isP_max {x ε : EReal} (hx : IsR x) (hε : IsP ε) : IsP (max x ε) := by
  obtain ⟨a, rfl⟩ := hx; obtain ⟨e, he, rfl⟩ := hε
  exact ⟨max a e, lt_max_of_lt_right he, (coe_max a e).symm⟩

theorem sqrt_coe_of_nonneg {r : ℝ} (h : 0 ≤ r) : Ideal.sqrt (r : EReal) = (Real.sqrt r : EReal) := by
  rw [Ideal.sqrt_coe, if_neg (not_lt.2 h)]

/-- A sum of squares of reals is the coercion of the real sum of squares. -/
theorem sumsq_coe {ι : Type} [Fintype ι] (g : ι → ℝ) :
    (∑ i, (g i : EReal) * (g i : EReal)) = ((∑ i, g i * g i : ℝ) : EReal) := by
  rw [coe_sum]; exact Finset.sum_congr rfl fun i _ => (EReal.coe_mul _ _).symm

/-- The Euclidean norm of a family of reals is a real. -/
theorem isR_norm {ι : Type} [Fintype ι] (u : ι → EReal) (h : ∀ i, IsR (u i)) : IsR (Ideal.sqrt (∑ i, u i * u i)) := by
  choose g hg using h
  refine ⟨Real.sqrt (∑ i, g i * g i), ?_⟩
  rw [show (∑ i, u i * u i) = ((∑ i, g i * g i : ℝ) : EReal) from by
    rw [← sumsq_coe]; exact Finset.sum_congr rfl fun i _ => by rw [hg i]]
  exact sqrt_coe_of_nonneg (Finset.sum_nonneg fun i _ => mul_self_nonneg _)

/-- A quotient of reals by a nonzero real. -/
theorem div_coe_coe (x : ℝ) {y : ℝ} (hy : y ≠ 0) : Ideal.div (x : EReal) (y : EReal) = ((x / y : ℝ) : EReal) := by
  rw [Ideal.div_coe hy, ← EReal.coe_mul, mul_one_div]

theorem isR_div {x y : EReal} (hx : IsR x) (hy : IsP y) : IsR (Ideal.div x y) := by
  obtain ⟨a, rfl⟩ := hx; obtain ⟨b, hb, rfl⟩ := hy; exact ⟨a / b, div_coe_coe a hb.ne'⟩

theorem isP_exp {x : EReal} (hx : IsR x) : IsP (Ideal.exp x) := by
  obtain ⟨a, rfl⟩ := hx; exact ⟨Real.exp a, Real.exp_pos a, rfl⟩

/-- The maximum of a nonempty finite family of reals, folded from −∞, is a real. -/
theorem isR_fold_max {ι : Type} [Fintype ι] [Nonempty ι] (z : ι → EReal) (hz : ∀ i, IsR (z i)) :
    IsR (Finset.univ.fold max ⊥ z) := by
  have e : Finset.univ.fold max ⊥ z = Finset.univ.sup z := rfl
  obtain ⟨i, _, hi⟩ := Finset.exists_mem_eq_sup Finset.univ Finset.univ_nonempty z
  rw [e, hi]; exact hz i

/-- The softmax weight of a real score among real scores is a real: exp (z k − M) / Σ_j exp (z j − M), M their maximum. -/
theorem isR_softmax {ι : Type} [Fintype ι] [Nonempty ι] (z : ι → EReal) (hz : ∀ i, IsR (z i)) (k : ι) :
    IsR (Ideal.div (Ideal.exp (z k - max ⊥ (Finset.univ.fold max ⊥ z)))
      (∑ j, Ideal.exp (z j - max ⊥ (Finset.univ.fold max ⊥ z)))) := by
  have hM : IsR (max ⊥ (Finset.univ.fold max ⊥ z)) := by
    rw [max_eq_right bot_le]; exact isR_fold_max z hz
  exact isR_div (isP_exp (isR_sub (hz k) hM)).isR (isP_sum _ fun j => isP_exp (isR_sub (hz j) hM))

/-- Scaling by the reciprocal of a positive real is dividing by it, on every extended real. -/
theorem mul_recip {g : EReal} (hg : IsP g) (v : EReal) : v * Ideal.div 1 g = Ideal.div v g := by
  obtain ⟨a, ha, rfl⟩ := hg
  rw [Ideal.div_coe ha.ne', Ideal.div_coe ha.ne', one_mul]

end Cert.LibReals

end
-- ==== Proof.LibFiniteEntry.lean ====
/-
  GENERAL LEMMAS. From "the absolute value is below +∞" to "is a real", one entry at a time.

  A finiteness precondition compares, entry by entry, the absolute value of a float array with the splat of the
  word of +∞ and asks every answer to be 1. At the exact values the absolute value is `max x (-x)`, the word
  `0x7F800000` is `⊤`, and an ordered "less than" answers 1 only when it holds; an extended real with
  `max x (-x) < ⊤` is neither infinity, so it is a real. Generic in the array's shape.
-/
import proofs.«180193_j36807869727213_1_alg».proof.Proof.LibReals
import Idealize.ShloMosaic.Lib.ValueIdx
import Idealize.ShloMosaic.Lib.Pipeline.Value
import Idealize.ShloMosaic.PureOps.Ideal.Laws

noncomputable section

namespace Cert.LibFiniteEntry

open Idealize.ShloMosaic Cert.LibReals

/-- GENERAL LEMMA. The f32 word of +∞ is `⊤`. -/
theorem inf_word : Ideal.ofBits .f32 0x7F800000#32 = ⊤ := by simp [Ideal.ofBits, Ideal.ieee]

/-- GENERAL LEMMA. An extended real whose absolute value is below +∞ is a real. -/
theorem isR_of_abs_lt_top {x : EReal} (h : max x (-x) < ⊤) : IsR x := by
  induction x using EReal.rec with
  | bot => simp at h
  | top => simp at h
  | coe r => exact ⟨r, rfl⟩

/-- GENERAL LEMMA. An ordered "less than" that answers 1 holds. -/
theorem lt_of_cmp_olt {a b : EReal} (h : Ideal.cmp .olt a b = 1#1) : a < b := by
  by_contra hn
  have h0 : Ideal.cmp .olt a b = 0#1 := by
    show BitVec.ofBool (decide (a < b)) = 0#1
    rw [decide_eq_false hn]; rfl
  rw [h0] at h
  exact absurd h (by decide)

/-- GENERAL LEMMA. One entry of an array of any shape `s`: when the comparison of its absolute value (the host's
    `abs`) with the scalar word of +∞ broadcast to `s` answers 1 there, the entry is a real. -/
theorem entry_isR {s : Shape} (x : FVec Ideal s .f32)
    (hb : (⟨0, ![]⟩ : Shape).BroadcastsInDim s (![] : Fin 0 → Fin s.rank)) (i : s.Idx)
    (h : cmpf .olt (Host.absf x)
      (broadcastInDim s ![] hb (constant (F := Ideal) (⟨0, ![]⟩ : Shape) .f32 0x7F800000#32)) i = 1#1) :
    IsR (x i) := by
  have hb' : broadcastInDim s ![] hb (constant (F := Ideal) (⟨0, ![]⟩ : Shape) .f32 0x7F800000#32) i = (⊤ : EReal) :=
    (broadcastInDim_apply _ hb _ i (fun a => a.elim0) (fun a => a.elim0)).trans inf_word
  have h' : Ideal.cmp .olt (max (x i) (-(x i)))
      (broadcastInDim s ![] hb (constant (F := Ideal) (⟨0, ![]⟩ : Shape) .f32 0x7F800000#32) i) = 1#1 := h
  rw [hb'] at h'
  exact isR_of_abs_lt_top (lt_of_cmp_olt h')

end Cert.LibFiniteEntry

end
-- ==== Proof.PreFinite.lean ====
/-
  Finiteness from the precondition: when the predicate answers 1, every entry of the data array and of the five
  per-channel vectors is a real number (its absolute value is below +inf, so it is neither infinity).
-/
import proofs.«180193_j36807869727213_1_alg».proof.Proof.PreStages
import proofs.«180193_j36807869727213_1_alg».proof.Proof.LibFiniteEntry

noncomputable section

namespace Cbn.Pre

open Idealize.ShloMosaic Cert.Pre_finite_inputs

variable [Facts]

/-- Every entry of the six arrays is a real number. -/
theorem finite_of_pre (x : FVec Ideal S8x64x256x256x2 .f32) (g1 g2 g3 g4 g5 : FVec Ideal S64 .f32)
    (h : fn (F := Ideal) x g1 g2 g3 g4 g5 = fun _ => 1#1) :
    (∀ i, ∃ r : ℝ, x i = (r : EReal)) ∧ (∀ i, ∃ r : ℝ, g1 i = r) ∧ (∀ i, ∃ r : ℝ, g2 i = r) ∧ (∀ i, ∃ r : ℝ, g3 i = r)
      ∧ (∀ i, ∃ r : ℝ, g4 i = r) ∧ (∀ i, ∃ r : ℝ, g5 i = r) := by
  obtain ⟨hx, hg, _⟩ := split x g1 g2 g3 g4 g5 h
  have hC : ∀ g ∈ [g1, g2, g3, g4, g5], ∀ i, ∃ r : ℝ, g i = (r : EReal) :=
    fun g m i => Cert.LibFiniteEntry.entry_isR g Facts.bcast_S_S64 i (hg g m i)
  exact ⟨fun i => Cert.LibFiniteEntry.entry_isR x Facts.bcast_S_S8x64x256x256x2 i (hx i),
    hC g1 (by simp), hC g2 (by simp), hC g3 (by simp), hC g4 (by simp), hC g5 (by simp)⟩

end Cbn.Pre

end
-- ==== Proof.PreDet.lean ====
/-
  The determinant the precondition tests is the two-pass form's determinant.

  Each stage of the precondition's determinant is read at an index: the parts are the data at p = 0 and p = 1, the
  channel sum is zero plus the sum over batch and space, the mean is that sum divided by the sample count, the centred
  part is the part minus the mean, a shifted covariance is the mean of a product plus eps.  So at channel c the
  determinant is rVrr * rVii - rVri * rVri of the specification, and "the comparison with 0 answers 1" says it is
  positive.  Together with the finiteness of every entry this is all the precondition says.
-/
import proofs.«180193_j36807869727213_1_alg».proof.Proof.PreFinite
import proofs.«180193_j36807869727213_1_alg».proof.Proof.RefStages

noncomputable section

namespace Cbn.Pre

open Idealize.ShloMosaic Idealize.ShloMosaic.ValueIdx Cert.Pre_finite_inputs Cbn.Ref

variable [Facts]

/-! ## The stages at an index -/

theorem sRe_apply (x : FVec Ideal S8x64x256x256x2 .f32) (b : Fin 8) (c : Fin 64) (h w : Fin 256) :
    sRe x (ix4 b c h w) = re x c b h w :=
  part0_apply x Facts.slices_S8x64x256x256x2_S8x64x256x256x1_0_0_0_0_0 Facts.shapeCasts_S8x64x256x256x1_S8x64x256x256 b c h w

theorem sIm_apply (x : FVec Ideal S8x64x256x256x2 .f32) (b : Fin 8) (c : Fin 64) (h w : Fin 256) :
    sIm x (ix4 b c h w) = im x c b h w :=
  part1_apply x Facts.slices_S8x64x256x256x2_S8x64x256x256x1_0_0_0_0_1 Facts.shapeCasts_S8x64x256x256x1_S8x64x256x256 b c h w

/-- The channel sum: zero plus the sum over batch and space. -/
theorem chanSum_at (y : FVec Ideal S8x64x256x256 .f32) (c : Fin 64) :
    chanSum y (ix1 c) = z0 + tot fun b h w => y (ix4 b c h w) :=
  hostChanSum_apply Facts.reducesTo_S8x64x256x256_S64_d0_2_3 Facts.h_S_ y _ c

/-- The channel mean on the unit axes. -/
theorem meanK_at (y : FVec Ideal S8x64x256x256 .f32) (c : Fin 64) :
    meanK y (ix4 (0 : Fin 1) c (0 : Fin 1) (0 : Fin 1)) = Ideal.div (z0 + tot fun b h w => y (ix4 b c h w)) cnt := by
  show Ideal.div (broadcastInDim S1x64x1x1 ![1] Facts.bcast_S64_S1x64x1x1_1 (chanSum y) (ix4 (0 : Fin 1) c (0 : Fin 1) (0 : Fin 1)))
      (broadcastInDim S1x64x1x1 ![] Facts.bcast_S_S1x64x1x1 (constant (F := Ideal) S_ .f32 0x49000000#32)
        (ix4 (0 : Fin 1) c (0 : Fin 1) (0 : Fin 1))) = _
  rw [chan_unit_apply, scalar_spread_apply, chanSum_at]
  rfl

/-- The centred part. -/
theorem cen_at (y : FVec Ideal S8x64x256x256 .f32) (b : Fin 8) (c : Fin 64) (h w : Fin 256) :
    cen y (ix4 b c h w) = y (ix4 b c h w) - Ideal.div (z0 + tot fun b h w => y (ix4 b c h w)) cnt := by
  show y (ix4 b c h w)
      - broadcastInDim S8x64x256x256 ![0, 1, 2, 3] Facts.bcast_S1x64x1x1_S8x64x256x256_0_1_2_3 (meanK y) (ix4 b c h w) = _
  rw [spread_apply, meanK_at]

/-- A shifted covariance. -/
theorem cov_at (u v : FVec Ideal S8x64x256x256 .f32) (c : Fin 64) :
    cov u v (ix1 c) = Ideal.div (z0 + tot fun b h w => u (ix4 b c h w) * v (ix4 b c h w)) cnt + eps := by
  show Ideal.div (chanSum (mulf u v) (ix1 c))
        (broadcastInDim S64 ![] Facts.bcast_S_S64 (constant (F := Ideal) S_ .f32 0x49000000#32) (ix1 c))
      + broadcastInDim S64 ![] Facts.bcast_S_S64 (constant (F := Ideal) S_ .f32 0x3727C5AC#32) (ix1 c) = _
  rw [scalar_spread_apply, scalar_spread_apply, chanSum_at]
  rfl

/-- The centred real part is the specification's. -/
theorem cenRe_at (x : FVec Ideal S8x64x256x256x2 .f32) (b : Fin 8) (c : Fin 64) (h w : Fin 256) :
    cen (sRe x) (ix4 b c h w) = cR x c b h w := by
  rw [cen_at]
  simp only [sRe_apply]
  rfl

/-- The centred imaginary part is the specification's. -/
theorem cenIm_at (x : FVec Ideal S8x64x256x256x2 .f32) (b : Fin 8) (c : Fin 64) (h w : Fin 256) :
    cen (sIm x) (ix4 b c h w) = cI x c b h w := by
  rw [cen_at]
  simp only [sIm_apply]
  rfl

/-- The precondition's determinant at channel c is the two-pass form's. -/
theorem detT_at (x : FVec Ideal S8x64x256x256x2 .f32) (c : Fin 64) : detT x (ix1 c) = rDet x c := by
  show cov (cen (sRe x)) (cen (sRe x)) (ix1 c) * cov (cen (sIm x)) (cen (sIm x)) (ix1 c)
      - cov (cen (sRe x)) (cen (sIm x)) (ix1 c) * cov (cen (sRe x)) (cen (sIm x)) (ix1 c) = _
  simp only [cov_at, cenRe_at, cenIm_at]
  rfl

/-! ## The comparison -/

/-- An ordered "greater than" that answers 1 holds. -/
theorem lt_of_cmp_ogt {a b : EReal} (h : Ideal.cmp .ogt a b = 1#1) : b < a := by
  by_contra hn
  have h0 : Ideal.cmp .ogt a b = 0#1 := by
    show BitVec.ofBool (decide (b < a)) = 0#1
    rw [decide_eq_false hn]; rfl
  rw [h0] at h
  exact absurd h (by decide)

/-- Under the precondition every channel's determinant is positive. -/
theorem det_pos_of_pre (x : FVec Ideal S8x64x256x256x2 .f32) (g1 g2 g3 g4 g5 : FVec Ideal S64 .f32)
    (h : fn (F := Ideal) x g1 g2 g3 g4 g5 = fun _ => 1#1) (c : Fin 64) : 0 < rDet x c := by
  obtain ⟨_, _, hp⟩ := split x g1 g2 g3 g4 g5 h
  have h2 : Ideal.cmp .ogt (detT x (ix1 c))
      (broadcastInDim S64 ![] Facts.bcast_S_S64 (constant (F := Ideal) S_ .f32 0x00000000#32) (ix1 c)) = 1#1 := hp (ix1 c)
  rw [scalar_spread_apply, detT_at] at h2
  have h3 := lt_of_cmp_ogt h2
  rwa [show constant (F := Ideal) S_ .f32 0x00000000#32 ix0 = (0 : EReal) from Ideal.ofBits_zero_f32] at h3

/-- What the precondition says: every entry of the six arrays is a real number, and every channel's determinant is
    positive. -/
theorem of_pre (x : FVec Ideal S8x64x256x256x2 .f32) (g1 g2 g3 g4 g5 : FVec Ideal S64 .f32)
    (h : fn (F := Ideal) x g1 g2 g3 g4 g5 = fun _ => 1#1) :
    (∀ i, ∃ r : ℝ, x i = (r : EReal)) ∧ (∀ i, ∃ r : ℝ, g1 i = r) ∧ (∀ i, ∃ r : ℝ, g2 i = r) ∧ (∀ i, ∃ r : ℝ, g3 i = r)
      ∧ (∀ i, ∃ r : ℝ, g4 i = r) ∧ (∀ i, ∃ r : ℝ, g5 i = r) ∧ ∀ c : Fin 64, 0 < rDet x c := by
  obtain ⟨hx, h1, h2, h3, h4, h5⟩ := finite_of_pre x g1 g2 g3 g4 g5 h
  exact ⟨hx, h1, h2, h3, h4, h5, det_pos_of_pre x g1 g2 g3 g4 g5 h⟩

end Cbn.Pre

end
-- ==== Proof.Moments.lean ====
/-
  Sums of real numbers over batch and the two spatial axes (524288 = 8 * 256 * 256 terms), and the moment identity:
  the mean of the product of two centred families is the mean of the product minus the product of the means.
-/
import Idealize.ShloMosaic.PureOps.Ideal

noncomputable section

namespace Cbn

open scoped BigOperators

/-- Over any finite index set with n elements: mean((a - mean a)(b - mean b)) = mean(a b) - mean a * mean b. -/
theorem moment_real {ι : Type} [Fintype ι] (n : ℝ) (hn : n ≠ 0) (hc : (Fintype.card ι : ℝ) = n) (a b : ι → ℝ) :
    (∑ i, (a i - (∑ j, a j) * (1/n)) * (b i - (∑ j, b j) * (1/n))) * (1/n)
      = (∑ i, a i * b i) * (1/n) - ((∑ j, a j) * (1/n)) * ((∑ j, b j) * (1/n)) := by
  have h : ∀ (μ ν : ℝ), ∑ i, (a i - μ) * (b i - ν)
      = (∑ i, a i * b i) - ν * (∑ i, a i) - μ * (∑ i, b i) + n * (μ * ν) := by
    intro μ ν
    have e : ∀ i, (a i - μ) * (b i - ν) = a i * b i - ν * a i - μ * b i + μ * ν := fun i => by ring
    simp only [e, Finset.sum_sub_distrib, Finset.sum_add_distrib, ← Finset.mul_sum, Finset.sum_const,
      Finset.card_univ, nsmul_eq_mul, hc]
    ring
  rw [h]; field_simp; ring

/-- The real sum over batch and the two spatial axes. -/
def totR (f : Fin 8 → Fin 256 → Fin 256 → ℝ) : ℝ := ∑ b : Fin 8, ∑ h : Fin 256, ∑ w : Fin 256, f b h w

theorem totR_eq (f : Fin 8 → Fin 256 → Fin 256 → ℝ) :
    totR f = ∑ p : Fin 8 × Fin 256 × Fin 256, f p.1 p.2.1 p.2.2 := by
  simp only [totR, Fintype.sum_prod_type]

theorem card_idx : (Fintype.card (Fin 8 × Fin 256 × Fin 256) : ℝ) = 524288 := by
  simp only [Fintype.card_prod, Fintype.card_fin]; norm_num

theorem totR_moment (A B : Fin 8 → Fin 256 → Fin 256 → ℝ) :
    totR (fun b h w => (A b h w - totR A * (1/524288)) * (B b h w - totR B * (1/524288))) * (1/524288)
      = totR (fun b h w => A b h w * B b h w) * (1/524288) - (totR A * (1/524288)) * (totR B * (1/524288)) := by
  simp only [totR_eq]
  exact moment_real 524288 (by norm_num) card_idx (fun p => A p.1 p.2.1 p.2.2) (fun p => B p.1 p.2.1 p.2.2)

theorem totR_sq_nonneg (A : Fin 8 → Fin 256 → Fin 256 → ℝ) : 0 ≤ totR (fun b h w => A b h w * A b h w) :=
  Finset.sum_nonneg fun _ _ => Finset.sum_nonneg fun _ _ => Finset.sum_nonneg fun _ _ => mul_self_nonneg _

/-- The covariance of two real families from their raw moments. -/
def cov (A B : Fin 8 → Fin 256 → Fin 256 → ℝ) : ℝ :=
  totR (fun b h w => A b h w * B b h w) * (1/524288) - (totR A * (1/524288)) * (totR B * (1/524288))

theorem cov_self_nonneg (A : Fin 8 → Fin 256 → Fin 256 → ℝ) : 0 ≤ cov A A := by
  rw [cov, ← totR_moment]
  exact mul_nonneg (totR_sq_nonneg fun b h w => A b h w - totR A * (1/524288)) (by norm_num)

end Cbn

end
-- ==== Proof.Consts.lean ====
/-
  The five f32 words as real numbers: 0, 524288, 1/524288 = 2^-19, 2, and eps, a positive real.
-/
import proofs.«180193_j36807869727213_1_alg».proof.Proof.Spec

noncomputable section

namespace Cbn

open Idealize.ShloMosaic

theorem z0_eq : z0 = 0 := by
  unfold z0; simp [Ideal.ofBits, Ideal.ieee]

theorem cnt_eq : cnt = ((524288 : ℝ) : EReal) := by
  unfold cnt; simp [Ideal.ofBits, Ideal.ieee, -EReal.coe_mul]; norm_num

theorem icnt_eq : icnt = ((1/524288 : ℝ) : EReal) := by
  unfold icnt; simp [Ideal.ofBits, Ideal.ieee, -EReal.coe_mul]; norm_num

theorem two_eq : two = ((2 : ℝ) : EReal) := by
  unfold two; simp [Ideal.ofBits, Ideal.ieee, -EReal.coe_mul]; norm_num

/-- eps = 10995116 * 2^-40, a positive real. -/
theorem eps_pos : ∃ e : ℝ, 0 < e ∧ eps = (e : EReal) := by
  refine ⟨(10995116 : ℝ) * (2:ℝ)^(-40:ℤ), by positivity, ?_⟩
  unfold eps; simp [Ideal.ofBits, Ideal.ieee, -EReal.coe_mul]

end Cbn

end
-- ==== Proof.Stats.lean ====
/-
  The channel statistics of a real array: both forms compute the same means and the same covariance entries.
  With real witnesses A, B of the real and imaginary parts of a channel, the mean is totR A / 524288 and each covariance
  entry is cov + eps, in the two-pass form (mean of the product of the centred parts) as in the one-pass form (mean of
  the product minus product of the means).
-/
import proofs.«180193_j36807869727213_1_alg».proof.Proof.Spec
import proofs.«180193_j36807869727213_1_alg».proof.Proof.LibReals
import proofs.«180193_j36807869727213_1_alg».proof.Proof.Moments
import proofs.«180193_j36807869727213_1_alg».proof.Proof.Consts

noncomputable section

namespace Cbn

open Idealize.ShloMosaic Idealize.ShloMosaic.ValueIdx Cert.LibReals

/-- The sum of the coercions of a real family is the coercion of its real sum. -/
theorem tot_coe (f : Fin 8 → Fin 256 → Fin 256 → ℝ) :
    tot (fun b h w => (f b h w : EReal)) = ((totR f : ℝ) : EReal) := by
  unfold tot totR
  rw [coe_sum]; refine Finset.sum_congr rfl fun b _ => ?_
  rw [coe_sum]; refine Finset.sum_congr rfl fun h _ => ?_
  rw [coe_sum]

theorem n_ne : (524288 : ℝ) ≠ 0 := by norm_num

/-- The two-pass mean of a real family. -/
theorem twoPass_mean (P : Fin 8 → Fin 256 → Fin 256 → EReal) (A : Fin 8 → Fin 256 → Fin 256 → ℝ)
    (hP : ∀ b h w, P b h w = (A b h w : EReal)) :
    Ideal.div (z0 + tot P) cnt = ((totR A * (1/524288) : ℝ) : EReal) := by
  obtain rfl : P = fun b h w => (A b h w : EReal) := funext fun b => funext fun h => funext fun w => hP b h w
  rw [tot_coe, z0_eq, zero_add, cnt_eq, Ideal.div_coe n_ne, ← EReal.coe_mul]

/-- The one-pass mean of a real family. -/
theorem onePass_mean (P : Fin 8 → Fin 256 → Fin 256 → EReal) (A : Fin 8 → Fin 256 → Fin 256 → ℝ)
    (hP : ∀ b h w, P b h w = (A b h w : EReal)) :
    tot P * icnt = ((totR A * (1/524288) : ℝ) : EReal) := by
  obtain rfl : P = fun b h w => (A b h w : EReal) := funext fun b => funext fun h => funext fun w => hP b h w
  rw [tot_coe, icnt_eq, ← EReal.coe_mul]

/-- A two-pass covariance entry of two real families. -/
theorem twoPass_cov (P Q : Fin 8 → Fin 256 → Fin 256 → EReal) (A B : Fin 8 → Fin 256 → Fin 256 → ℝ)
    (hP : ∀ b h w, P b h w = (A b h w : EReal)) (hQ : ∀ b h w, Q b h w = (B b h w : EReal))
    (e : ℝ) (he : eps = (e : EReal)) :
    Ideal.div (z0 + tot fun b h w => (P b h w - Ideal.div (z0 + tot P) cnt) * (Q b h w - Ideal.div (z0 + tot Q) cnt)) cnt
        + eps = ((cov A B + e : ℝ) : EReal) := by
  rw [twoPass_mean P A hP, twoPass_mean Q B hQ]
  have hf : (fun b h w => (P b h w - ((totR A * (1/524288) : ℝ) : EReal)) * (Q b h w - ((totR B * (1/524288) : ℝ) : EReal)))
      = fun b h w => (((A b h w - totR A * (1/524288)) * (B b h w - totR B * (1/524288)) : ℝ) : EReal) := by
    funext b h w
    rw [hP, hQ, ← EReal.coe_sub, ← EReal.coe_sub, ← EReal.coe_mul]
  rw [hf, tot_coe, z0_eq, zero_add, cnt_eq, Ideal.div_coe n_ne, ← EReal.coe_mul, he, ← EReal.coe_add, totR_moment]
  rfl

/-- A one-pass covariance entry of two real families. -/
theorem onePass_cov (P Q : Fin 8 → Fin 256 → Fin 256 → EReal) (A B : Fin 8 → Fin 256 → Fin 256 → ℝ)
    (hP : ∀ b h w, P b h w = (A b h w : EReal)) (hQ : ∀ b h w, Q b h w = (B b h w : EReal))
    (e : ℝ) (he : eps = (e : EReal)) :
    ((tot fun b h w => P b h w * Q b h w) * icnt - (tot P * icnt) * (tot Q * icnt)) + eps
      = ((cov A B + e : ℝ) : EReal) := by
  rw [onePass_mean P A hP, onePass_mean Q B hQ]
  have hf : (fun b h w => P b h w * Q b h w) = fun b h w => ((A b h w * B b h w : ℝ) : EReal) := by
    funext b h w
    rw [hP, hQ, ← EReal.coe_mul]
  rw [hf, tot_coe, icnt_eq, ← EReal.coe_mul, ← EReal.coe_mul, ← EReal.coe_sub, he, ← EReal.coe_add]
  rfl

/-! ## The channel statistics of a real array -/

/-- Real witnesses of the real and imaginary parts of a channel. -/
theorem re_real (x : SX.Idx → EReal) (hx : ∀ i, ∃ r : ℝ, x i = (r : EReal)) (c : Fin 64) :
    ∃ A : Fin 8 → Fin 256 → Fin 256 → ℝ, ∀ b h w, re x c b h w = (A b h w : EReal) := by
  choose g hg using hx
  exact ⟨fun b h w => g (ix5 b c h w (0 : Fin 2)), fun b h w => hg _⟩

theorem im_real (x : SX.Idx → EReal) (hx : ∀ i, ∃ r : ℝ, x i = (r : EReal)) (c : Fin 64) :
    ∃ B : Fin 8 → Fin 256 → Fin 256 → ℝ, ∀ b h w, im x c b h w = (B b h w : EReal) := by
  choose g hg using hx
  exact ⟨fun b h w => g (ix5 b c h w (1 : Fin 2)), fun b h w => hg _⟩

/-- The statistics of channel c of a real array, as real numbers: the two means, the three covariance entries (each
    shifted by eps), with the diagonal entries positive; both forms give these. -/
theorem channel_stats (x : SX.Idx → EReal) (hx : ∀ i, ∃ r : ℝ, x i = (r : EReal)) (c : Fin 64) :
    ∃ mr mi vrr vri vii : ℝ, 0 < vrr ∧ 0 < vii ∧
      rMuR x c = (mr : EReal) ∧ rMuI x c = (mi : EReal) ∧ kMuR x c = (mr : EReal) ∧ kMuI x c = (mi : EReal) ∧
      rVrr x c = (vrr : EReal) ∧ rVri x c = (vri : EReal) ∧ rVii x c = (vii : EReal) ∧
      kVrr x c = (vrr : EReal) ∧ kVri x c = (vri : EReal) ∧ kVii x c = (vii : EReal) := by
  obtain ⟨A, hA⟩ := re_real x hx c
  obtain ⟨B, hB⟩ := im_real x hx c
  obtain ⟨e, he0, he⟩ := eps_pos
  refine ⟨totR A * (1/524288), totR B * (1/524288), cov A A + e, cov A B + e, cov B B + e,
    add_pos_of_nonneg_of_pos (cov_self_nonneg A) he0, add_pos_of_nonneg_of_pos (cov_self_nonneg B) he0,
    twoPass_mean (re x c) A hA, twoPass_mean (im x c) B hB, onePass_mean (re x c) A hA, onePass_mean (im x c) B hB,
    twoPass_cov (re x c) (re x c) A A hA hA e he, twoPass_cov (re x c) (im x c) A B hA hB e he,
    twoPass_cov (im x c) (im x c) B B hB hB e he,
    onePass_cov (re x c) (re x c) A A hA hA e he, onePass_cov (re x c) (im x c) A B hA hB e he,
    onePass_cov (im x c) (im x c) B B hB hB e he⟩

end Cbn

end
-- ==== Proof.Whiten.lean ====
/-
  The whitening matrix of a real 2x2 covariance with positive diagonal and positive determinant has real entries:
  s = sqrt(det) and t = sqrt(vrr + vii + 2 s) are positive reals, so each entry is a real divided by the positive real s t.
-/
import proofs.«180193_j36807869727213_1_alg».proof.Proof.Spec
import proofs.«180193_j36807869727213_1_alg».proof.Proof.LibReals
import proofs.«180193_j36807869727213_1_alg».proof.Proof.Consts

noncomputable section

namespace Cbn

open Idealize.ShloMosaic Cert.LibReals

theorem isR_neg {x : EReal} (hx : IsR x) : IsR (-x) := by
  obtain ⟨a, rfl⟩ := hx; exact ⟨-a, (EReal.coe_neg a).symm⟩

theorem isP_coe {r : ℝ} (h : 0 < r) : IsP (r : EReal) := ⟨r, h, rfl⟩

theorem isP_add {x y : EReal} (hx : IsP x) (hy : IsP y) : IsP (x + y) := by
  obtain ⟨a, ha, rfl⟩ := hx; obtain ⟨b, hb, rfl⟩ := hy; exact ⟨a + b, add_pos ha hb, (EReal.coe_add a b).symm⟩

theorem isP_mul {x y : EReal} (hx : IsP x) (hy : IsP y) : IsP (x * y) := by
  obtain ⟨a, ha, rfl⟩ := hx; obtain ⟨b, hb, rfl⟩ := hy; exact ⟨a * b, mul_pos ha hb, (EReal.coe_mul a b).symm⟩

theorem isP_sqrt {x : EReal} (hx : IsP x) : IsP (Ideal.sqrt x) := by
  obtain ⟨a, ha, rfl⟩ := hx; exact ⟨Real.sqrt a, Real.sqrt_pos.2 ha, sqrt_coe_of_nonneg ha.le⟩

/-- The square root of the determinant is a positive real. -/
theorem isP_wS (vrr vri vii : ℝ) (hd : 0 < vrr * vii - vri * vri) : IsP (wS vrr vri vii) := by
  unfold wS
  rw [← EReal.coe_mul, ← EReal.coe_mul, ← EReal.coe_sub]
  exact isP_sqrt (isP_coe hd)

theorem isP_wD (vrr vri vii : ℝ) (h1 : 0 < vrr) (h2 : 0 < vii) (hd : 0 < vrr * vii - vri * vri) :
    IsP (wD vrr vri vii) := by
  have hS := isP_wS vrr vri vii hd
  unfold wD wT
  refine isP_mul hS (isP_sqrt (isP_add (isP_add (isP_coe h1) (isP_coe h2)) (isP_mul ?_ hS)))
  rw [two_eq]; exact isP_coe (by norm_num)

theorem isR_wRR (vrr vri vii : ℝ) (h1 : 0 < vrr) (h2 : 0 < vii) (hd : 0 < vrr * vii - vri * vri) :
    IsR (wRR vrr vri vii) := by
  unfold wRR
  exact isR_div (isR_add (isR_coe vii) (isP_wS vrr vri vii hd).isR) (isP_wD vrr vri vii h1 h2 hd)

theorem isR_wRI (vrr vri vii : ℝ) (h1 : 0 < vrr) (h2 : 0 < vii) (hd : 0 < vrr * vii - vri * vri) :
    IsR (wRI vrr vri vii) := by
  unfold wRI
  exact isR_div (isR_neg (isR_coe vri)) (isP_wD vrr vri vii h1 h2 hd)

theorem isR_wII (vrr vri vii : ℝ) (h1 : 0 < vrr) (h2 : 0 < vii) (hd : 0 < vrr * vii - vri * vri) :
    IsR (wII vrr vri vii) := by
  unfold wII
  exact isR_div (isR_add (isR_coe vrr) (isP_wS vrr vri vii hd).isR) (isP_wD vrr vri vii h1 h2 hd)

end Cbn

end
-- ==== Proof.Algebra.lean ====
/-
  On a real array whose two-pass determinant is positive in every channel, the one-pass form and the two-pass form of
  the complex batch normalisation are the same function: the means and covariance entries agree (the moment identity),
  the whitening matrix is then the same real matrix, and gamma * (W * (z - mu)) + beta = (gamma * W) * z + (beta - (gamma * W) * mu).
-/
import proofs.«180193_j36807869727213_1_alg».proof.Proof.Spec
import proofs.«180193_j36807869727213_1_alg».proof.Proof.LibReals
import proofs.«180193_j36807869727213_1_alg».proof.Proof.Stats
import proofs.«180193_j36807869727213_1_alg».proof.Proof.Whiten

noncomputable section

namespace Cbn

open Idealize.ShloMosaic Idealize.ShloMosaic.ValueIdx Cert.LibReals

/-- For real numbers: (g1 w1 + g2 w2) u + (g1 w2 + g2 w3) v + (beta - (g1 w1 + g2 w2) m - (g1 w2 + g2 w3) n)
    = g1 (w1 (u - m) + w2 (v - n)) + g2 (w2 (u - m) + w3 (v - n)) + beta. -/
theorem affine_identity {g1 g2 w1 w2 w3 u v m n β : EReal} (hg1 : IsR g1) (hg2 : IsR g2) (hw1 : IsR w1) (hw2 : IsR w2)
    (hw3 : IsR w3) (hu : IsR u) (hv : IsR v) (hm : IsR m) (hn : IsR n) (hβ : IsR β) :
    ((g1 * w1 + g2 * w2) * u + (g1 * w2 + g2 * w3) * v) + ((β - (g1 * w1 + g2 * w2) * m) - (g1 * w2 + g2 * w3) * n)
      = (g1 * (w1 * (u - m) + w2 * (v - n)) + g2 * (w2 * (u - m) + w3 * (v - n))) + β := by
  obtain ⟨g1, rfl⟩ := hg1; obtain ⟨g2, rfl⟩ := hg2; obtain ⟨w1, rfl⟩ := hw1; obtain ⟨w2, rfl⟩ := hw2
  obtain ⟨w3, rfl⟩ := hw3; obtain ⟨u, rfl⟩ := hu; obtain ⟨v, rfl⟩ := hv; obtain ⟨m, rfl⟩ := hm
  obtain ⟨n, rfl⟩ := hn; obtain ⟨β, rfl⟩ := hβ
  simp only [← EReal.coe_mul, ← EReal.coe_add, ← EReal.coe_sub]
  exact congrArg _ (by ring)

/-- The two forms agree at every (b, c, h, w, p). -/
theorem affAt_eq_refAt (x : SX.Idx → EReal) (grr gii gri br bi : SC.Idx → EReal)
    (hx : ∀ i, ∃ r : ℝ, x i = (r : EReal)) (hgrr : ∀ i, ∃ r : ℝ, grr i = r) (hgii : ∀ i, ∃ r : ℝ, gii i = r)
    (hgri : ∀ i, ∃ r : ℝ, gri i = r) (hbr : ∀ i, ∃ r : ℝ, br i = r) (hbi : ∀ i, ∃ r : ℝ, bi i = r)
    (hdet : ∀ c : Fin 64, 0 < rDet x c) (b : Fin 8) (c : Fin 64) (h w : Fin 256) (p : Fin 2) :
    affAt x (fun i => aRR x grr gri (i 0)) (fun i => aRI x grr gri (i 0)) (fun i => aIR x gii gri (i 0))
        (fun i => aII x gii gri (i 0)) (fun i => bR x grr gri br (i 0)) (fun i => bI x gii gri bi (i 0)) b c h w p
      = refAt x grr gii gri br bi b c h w p := by
  obtain ⟨mr, mi, vrr, vri, vii, h1, h2, e1, e2, e3, e4, e5, e6, e7, e8, e9, e10⟩ := channel_stats x hx c
  have hd : 0 < vrr * vii - vri * vri := by
    have := hdet c
    rw [rDet, e5, e6, e7, ← EReal.coe_mul, ← EReal.coe_mul, ← EReal.coe_sub] at this
    exact EReal.coe_pos.1 this
  have hW1 := isR_wRR vrr vri vii h1 h2 hd
  have hW2 := isR_wRI vrr vri vii h1 h2 hd
  have hW3 := isR_wII vrr vri vii h1 h2 hd
  have hu : IsR (re x c b h w) := hx _
  have hv : IsR (im x c b h w) := hx _
  change (if p.val = 0 then (aRR x grr gri c * re x c b h w + aRI x grr gri c * im x c b h w) + bR x grr gri br c
      else (aIR x gii gri c * re x c b h w + aII x gii gri c * im x c b h w) + bI x gii gri bi c) = _
  unfold refAt
  by_cases hp : p.val = 0
  · rw [if_pos hp, if_pos hp]
    unfold bR aRR aRI xhR xhI cR cI
    rw [e3, e4, e1, e2, e8, e9, e10, e5, e6, e7]
    exact affine_identity (hgrr _) (hgri _) hW1 hW2 hW3 hu hv (isR_coe mr) (isR_coe mi) (hbr _)
  · rw [if_neg hp, if_neg hp]
    unfold bI aIR aII xhR xhI cR cI
    rw [e3, e4, e1, e2, e8, e9, e10, e5, e6, e7]
    exact affine_identity (hgri _) (hgii _) hW1 hW2 hW3 hu hv (isR_coe mr) (isR_coe mi) (hbi _)

theorem kerOut_eq_refOut (x : SX.Idx → EReal) (grr gii gri br bi : SC.Idx → EReal)
    (hx : ∀ i, ∃ r : ℝ, x i = (r : EReal)) (hgrr : ∀ i, ∃ r : ℝ, grr i = r) (hgii : ∀ i, ∃ r : ℝ, gii i = r)
    (hgri : ∀ i, ∃ r : ℝ, gri i = r) (hbr : ∀ i, ∃ r : ℝ, br i = r) (hbi : ∀ i, ∃ r : ℝ, bi i = r)
    (hdet : ∀ c : Fin 64, 0 < rDet x c) :
    kerOut x grr gii gri br bi = refOut x grr gii gri br bi := by
  funext j
  exact affAt_eq_refAt x grr gii gri br bi hx hgrr hgii hgri hbr hbi hdet (j 0) (j 1) (j 2) (j 3) (j 4)

end Cbn

end
-- ==== Proof.lean ====
/-
  Complex batch normalisation, c_input[b, c, h, w, (re, im)] with 8 x 64 x 256 x 256 complex entries, per channel c: the
  kernel against its jnp reference, as extended reals.

  The reference centres the real and imaginary parts by their channel means, takes the 2x2 covariance of the centred
  parts (each entry plus eps), its determinant det, s = sqrt det, t = sqrt(trace + 2 s), the inverse square root
  W = (V~ + s I) / (s t), and returns gamma (W (x - mu)) + beta. The kernel makes one pass for the five raw moments
  (sums of re, im, re re, re im, im im: 64 grid points, each adding a 32-row block's sums to five accumulators),
  computes the means, the covariance (mean of products minus product of means), the same W, folds gamma W and
  beta - gamma W mu into one affine map per channel, and applies it in a second pass.

  The two results are one function where every input is a real number and det > 0 on every channel: the moment
  identity mean((u - mu_u)(v - mu_v)) = mean(u v) - mu_u mu_v (N = 524288 samples, the kernel's 2^-19 being 1/N),
  then W is a matrix of real numbers, and the rest is distributivity in the reals. Where det = 0 the reference divides
  by zero (its quotients are infinite and their products with the centred data undefined), and the two forms differ on
  the extended reals; the precondition therefore states det > 0 beside the finiteness of the inputs.

  Modules: Spec (both forms as pure functions), Moments / Consts / Stats / Whiten / Algebra (the one-pass form equals
  the two-pass form), Region0Pieces / Region0Sum / Region0Acc / Region0Tot (the five sums the first pass leaves),
  HostMid* (the coefficient vectors between the passes), Affine* (the second pass as a whole-array function),
  KernelRun / KernelMid / KernelValue (the kernel's run with its result named), RefStages / RefValue / RefResult /
  RefRun (the reference's run read at an index), PreStages / PreFinite / PreDet (what the precondition says of the
  arrays).
-/
import proofs.«180193_j36807869727213_1_alg».proof.Defs
import proofs.«180193_j36807869727213_1_alg».proof.Proof.Gen.Kernel
import proofs.«180193_j36807869727213_1_alg».proof.Proof.Gen.Kernel.Skeleton
import proofs.«180193_j36807869727213_1_alg».proof.Proof.Gen.Kernel.Launch
import proofs.«180193_j36807869727213_1_alg».proof.Proof.Gen.Kernel.Points
import proofs.«180193_j36807869727213_1_alg».proof.Proof.Gen.Kernel.Frame
import proofs.«180193_j36807869727213_1_alg».proof.Proof.Gen.KernelIdeal
import proofs.«180193_j36807869727213_1_alg».proof.Proof.Gen.KernelIdeal.Skeleton
import proofs.«180193_j36807869727213_1_alg».proof.Proof.Gen.KernelIdeal.Launch
import proofs.«180193_j36807869727213_1_alg».proof.Proof.Gen.KernelIdeal.Points
import proofs.«180193_j36807869727213_1_alg».proof.Proof.Gen.KernelIdeal.Frame
import proofs.«180193_j36807869727213_1_alg».proof.Proof.Gen.ReferenceIdeal
import proofs.«180193_j36807869727213_1_alg».proof.Proof.Gen.Pre_finite_inputs
import proofs.«180193_j36807869727213_1_alg».proof.Proof.Gen.ReferenceIdeal.Run
import proofs.«180193_j36807869727213_1_alg».proof.Proof.KernelValue
import proofs.«180193_j36807869727213_1_alg».proof.Proof.RefRun
import proofs.«180193_j36807869727213_1_alg».proof.Proof.PreDet
import proofs.«180193_j36807869727213_1_alg».proof.Proof.Algebra
import Idealize.ShloMosaic.Adequacy
import Idealize.ShloMosaic.Init

noncomputable section

namespace Cert.Proof

open Idealize.ShloMosaic Idealize.SL.Sem

/-- The three programs run to the end without a fault and leave their arguments as launched. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From arguments that agree, the kernel ends at the one-pass form of its arguments and the reference at the two-pass
    form of the same arrays; under the precondition (real entries, positive determinants) the two forms are equal. -/
theorem algebraic : Cert.algebraic_KernelIdeal_ReferenceIdeal := by
  intro m ρ m' ρ' hpre hagree
  refine ⟨fun c => Cbn.kerOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono (fun r h c => ⟨(h c).1.trans (Cbn.K.kernel_value m ρ c), (h c).2⟩)
      (Cbn.K.run_value (F := Ideal) m ρ)
  · refine (θ_run Cert.ReferenceIdeal.defs _ _).mono (fun r h c => ⟨(h c).1.trans ?_, (h c).2⟩) (Cbn.Ref.run_ref m' ρ')
    obtain ⟨a0, a1, a2, a3, a4, a5⟩ := hagree c
    rw [a0, a1, a2, a3, a4, a5]
    obtain ⟨hx, h1, h2, h3, h4, h5, hdet⟩ := Cbn.Pre.of_pre _ _ _ _ _ _ (hpre c)
    exact (Cbn.kerOut_eq_refOut _ _ _ _ _ _ hx h1 h2 h3 h4 h5 hdet).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
